-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg14 : FVec F S64 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S64 .f32) (main_arg12 : FVec F S64x64 .f32) (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x64 .f32) (main_arg1 : FVec F S4096x64 .f32) (main_arg2 : FVec F S4096x4096 .f32) (main_arg3 : FVec F S4096x4096 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64x64 .f32) (main_arg13 : FVec F S64 .f32) (main_arg14 : FVec F S64 .f32) (main_arg15 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S1x64 : Shape := ⟨2, ![1, 64]⟩
abbrev S64x4096 : Shape := ⟨2, ![64, 4096]⟩
abbrev S256x64 : Shape := ⟨2, ![256, 64]⟩
abbrev S64x256 : Shape := ⟨2, ![64, 256]⟩
abbrev S64x1x256 : Shape := ⟨3, ![64, 1, 256]⟩
abbrev S1x64x256 : Shape := ⟨3, ![1, 64, 256]⟩
abbrev S64x64x256 : Shape := ⟨3, ![64, 64, 256]⟩
abbrev S64x8x256 : Shape := ⟨3, ![64, 8, 256]⟩
abbrev S64x4x256 : Shape := ⟨3, ![64, 4, 256]⟩
abbrev S64x2x256 : Shape := ⟨3, ![64, 2, 256]⟩
abbrev S32x16x8x64 : Shape := ⟨4, ![32, 16, 8, 64]⟩
abbrev S1x16x8x64 : Shape := ⟨4, ![1, 16, 8, 64]⟩
abbrev S16x8x64 : Shape := ⟨3, ![16, 8, 64]⟩
abbrev S1x8x64 : Shape := ⟨3, ![1, 8, 64]⟩
abbrev S8x64 : Shape := ⟨2, ![8, 64]⟩
abbrev S4x64 : Shape := ⟨2, ![4, 64]⟩
abbrev S2x64 : Shape := ⟨2, ![2, 64]⟩
abbrev S512x4096 : Shape := ⟨2, ![512, 4096]⟩
abbrev S512x64 : Shape := ⟨2, ![512, 64]⟩
abbrev S64x512 : Shape := ⟨2, ![64, 512]⟩

abbrev nBuf : Space → Nat
  | .hbm => 34
  | .vmem => 34
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S64x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S64x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S4096x64, .f32⟩
  | .hbm, ⟨29, _⟩ => ⟨S64x4096, .f32⟩
  | .hbm, ⟨30, _⟩ => ⟨S4096x64, .f32⟩
  | .hbm, ⟨31, _⟩ => ⟨S64x4096, .f32⟩
  | .hbm, ⟨32, _⟩ => ⟨S4096x64, .f32⟩
  | .hbm, ⟨33, _⟩ => ⟨S4096x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S4096x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S64x4096, .f32⟩
  | .local _ .vmem, ⟨12, _⟩ => ⟨S64x4096, .f32⟩
  | .local _ .vmem, ⟨13, _⟩ => ⟨S512x4096, .f32⟩
  | .local _ .vmem, ⟨14, _⟩ => ⟨S512x4096, .f32⟩
  | .local _ .vmem, ⟨15, _⟩ => ⟨S512x64, .f32⟩
  | .local _ .vmem, ⟨16, _⟩ => ⟨S512x64, .f32⟩
  | .local _ .vmem, ⟨17, _⟩ => ⟨S4096x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S64x4096, .f32⟩
  | .local _ .vmem, ⟨23, _⟩ => ⟨S64x4096, .f32⟩
  | .local _ .vmem, ⟨24, _⟩ => ⟨S512x4096, .f32⟩
  | .local _ .vmem, ⟨25, _⟩ => ⟨S512x4096, .f32⟩
  | .local _ .vmem, ⟨26, _⟩ => ⟨S512x64, .f32⟩
  | .local _ .vmem, ⟨27, _⟩ => ⟨S512x64, .f32⟩
  | .local _ .vmem, ⟨28, _⟩ => ⟨S4096x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v12 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S4096x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := .none

abbrev stage3_0 : Fin 1 → Memref sig .tc .vmem S4096x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S64x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := .none

abbrev stage5_0 : Fin 1 → Memref sig .tc .vmem S4096x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S4096x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

class Facts₀ : Prop where
  transposes_S64x64_S64x64_1_0 : S64x64.Transposes [1, 0] S64x64
  shapeCasts_S64_S1x64 : S64.ShapeCasts S1x64
  inb_S256x64_S256x64_0_0 : ∀ a, (![0, 0] : Fin 2 → Nat) a + S256x64.size a ≤ S256x64.size a
  h_S256x64 : 0 < S256x64.numel
  transposes_S256x64_p1_0_S64x256 : S256x64.Transposes [1, 0] S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  reduces_S64x64x256_S64x256 : S64x64x256.Reduces [1] S64x256
  slices_S64x64x256_o0_0_0_S64x8x256 : S64x64x256.Slices ![0, 0, 0] S64x8x256
  slices_S64x64x256_o0_8_0_S64x8x256 : S64x64x256.Slices ![0, 8, 0] S64x8x256
  slices_S64x64x256_o0_16_0_S64x8x256 : S64x64x256.Slices ![0, 16, 0] S64x8x256
  slices_S64x64x256_o0_24_0_S64x8x256 : S64x64x256.Slices ![0, 24, 0] S64x8x256
  slices_S64x64x256_o0_32_0_S64x8x256 : S64x64x256.Slices ![0, 32, 0] S64x8x256
  slices_S64x64x256_o0_40_0_S64x8x256 : S64x64x256.Slices ![0, 40, 0] S64x8x256
  slices_S64x64x256_o0_48_0_S64x8x256 : S64x64x256.Slices ![0, 48, 0] S64x8x256
  slices_S64x64x256_o0_56_0_S64x8x256 : S64x64x256.Slices ![0, 56, 0] S64x8x256
  slices_S64x8x256_o0_0_0_S64x4x256 : S64x8x256.Slices ![0, 0, 0] S64x4x256
  slices_S64x8x256_o0_4_0_S64x4x256 : S64x8x256.Slices ![0, 4, 0] S64x4x256
  slices_S64x4x256_o0_0_0_S64x2x256 : S64x4x256.Slices ![0, 0, 0] S64x2x256
  slices_S64x4x256_o0_2_0_S64x2x256 : S64x4x256.Slices ![0, 2, 0] S64x2x256
  slices_S64x2x256_o0_0_0_S64x1x256 : S64x2x256.Slices ![0, 0, 0] S64x1x256
  shapeCasts_S64x1x256_S64x256 : S64x1x256.ShapeCasts S64x256
  slices_S64x2x256_o0_1_0_S64x1x256 : S64x2x256.Slices ![0, 1, 0] S64x1x256
  transposes_S64x256_p1_0_S256x64 : S64x256.Transposes [1, 0] S256x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S32x16x8x64 : S4096x64.ShapeCasts S32x16x8x64
  slices_S32x16x8x64_o0_0_0_0_S1x16x8x64 : S32x16x8x64.Slices ![0, 0, 0, 0] S1x16x8x64
  shapeCasts_S1x16x8x64_S16x8x64 : S1x16x8x64.ShapeCasts S16x8x64
  slices_S32x16x8x64_o1_0_0_0_S1x16x8x64 : S32x16x8x64.Slices ![1, 0, 0, 0] S1x16x8x64
  slices_S32x16x8x64_o2_0_0_0_S1x16x8x64 : S32x16x8x64.Slices ![2, 0, 0, 0] S1x16x8x64
  slices_S32x16x8x64_o3_0_0_0_S1x16x8x64 : S32x16x8x64.Slices ![3, 0, 0, 0] S1x16x8x64
  slices_S32x16x8x64_o4_0_0_0_S1x16x8x64 : S32x16x8x64.Slices ![4, 0, 0, 0] S1x16x8x64
  slices_S32x16x8x64_o5_0_0_0_S1x16x8x64 : S32x16x8x64.Slices ![5, 0, 0, 0] S1x16x8x64
  slices_S32x16x8x64_o6_0_0_0_S1x16x8x64 : S32x16x8x64.Slices ![6, 0, 0, 0] S1x16x8x64
  slices_S32x16x8x64_o7_0_0_0_S1x16x8x64 : S32x16x8x64.Slices ![7, 0, 0, 0] S1x16x8x64
  slices_S32x16x8x64_o8_0_0_0_S1x16x8x64 : S32x16x8x64.Slices ![8, 0, 0, 0] S1x16x8x64
  slices_S32x16x8x64_o9_0_0_0_S1x16x8x64 : S32x16x8x64.Slices ![9, 0, 0, 0] S1x16x8x64
  slices_S32x16x8x64_o10_0_0_0_S1x16x8x64 : S32x16x8x64.Slices ![10, 0, 0, 0] S1x16x8x64
  slices_S32x16x8x64_o11_0_0_0_S1x16x8x64 : S32x16x8x64.Slices ![11, 0, 0, 0] S1x16x8x64
  slices_S32x16x8x64_o12_0_0_0_S1x16x8x64 : S32x16x8x64.Slices ![12, 0, 0, 0] S1x16x8x64
  slices_S32x16x8x64_o13_0_0_0_S1x16x8x64 : S32x16x8x64.Slices ![13, 0, 0, 0] S1x16x8x64
  slices_S32x16x8x64_o14_0_0_0_S1x16x8x64 : S32x16x8x64.Slices ![14, 0, 0, 0] S1x16x8x64
  slices_S32x16x8x64_o15_0_0_0_S1x16x8x64 : S32x16x8x64.Slices ![15, 0, 0, 0] S1x16x8x64
  slices_S32x16x8x64_o16_0_0_0_S1x16x8x64 : S32x16x8x64.Slices ![16, 0, 0, 0] S1x16x8x64
  slices_S32x16x8x64_o17_0_0_0_S1x16x8x64 : S32x16x8x64.Slices ![17, 0, 0, 0] S1x16x8x64
  slices_S32x16x8x64_o18_0_0_0_S1x16x8x64 : S32x16x8x64.Slices ![18, 0, 0, 0] S1x16x8x64
  slices_S32x16x8x64_o19_0_0_0_S1x16x8x64 : S32x16x8x64.Slices ![19, 0, 0, 0] S1x16x8x64
  slices_S32x16x8x64_o20_0_0_0_S1x16x8x64 : S32x16x8x64.Slices ![20, 0, 0, 0] S1x16x8x64
  slices_S32x16x8x64_o21_0_0_0_S1x16x8x64 : S32x16x8x64.Slices ![21, 0, 0, 0] S1x16x8x64
  slices_S32x16x8x64_o22_0_0_0_S1x16x8x64 : S32x16x8x64.Slices ![22, 0, 0, 0] S1x16x8x64
  slices_S32x16x8x64_o23_0_0_0_S1x16x8x64 : S32x16x8x64.Slices ![23, 0, 0, 0] S1x16x8x64
  slices_S32x16x8x64_o24_0_0_0_S1x16x8x64 : S32x16x8x64.Slices ![24, 0, 0, 0] S1x16x8x64
  slices_S32x16x8x64_o25_0_0_0_S1x16x8x64 : S32x16x8x64.Slices ![25, 0, 0, 0] S1x16x8x64
  slices_S32x16x8x64_o26_0_0_0_S1x16x8x64 : S32x16x8x64.Slices ![26, 0, 0, 0] S1x16x8x64
  slices_S32x16x8x64_o27_0_0_0_S1x16x8x64 : S32x16x8x64.Slices ![27, 0, 0, 0] S1x16x8x64
  slices_S32x16x8x64_o28_0_0_0_S1x16x8x64 : S32x16x8x64.Slices ![28, 0, 0, 0] S1x16x8x64
  slices_S32x16x8x64_o29_0_0_0_S1x16x8x64 : S32x16x8x64.Slices ![29, 0, 0, 0] S1x16x8x64
  slices_S32x16x8x64_o30_0_0_0_S1x16x8x64 : S32x16x8x64.Slices ![30, 0, 0, 0] S1x16x8x64
  slices_S32x16x8x64_o31_0_0_0_S1x16x8x64 : S32x16x8x64.Slices ![31, 0, 0, 0] S1x16x8x64
  slices_S16x8x64_o0_0_0_S1x8x64 : S16x8x64.Slices ![0, 0, 0] S1x8x64
  shapeCasts_S1x8x64_S8x64 : S1x8x64.ShapeCasts S8x64
  slices_S16x8x64_o1_0_0_S1x8x64 : S16x8x64.Slices ![1, 0, 0] S1x8x64
  slices_S16x8x64_o2_0_0_S1x8x64 : S16x8x64.Slices ![2, 0, 0] S1x8x64
  slices_S16x8x64_o3_0_0_S1x8x64 : S16x8x64.Slices ![3, 0, 0] S1x8x64
  slices_S16x8x64_o4_0_0_S1x8x64 : S16x8x64.Slices ![4, 0, 0] S1x8x64
  slices_S16x8x64_o5_0_0_S1x8x64 : S16x8x64.Slices ![5, 0, 0] S1x8x64
  slices_S16x8x64_o6_0_0_S1x8x64 : S16x8x64.Slices ![6, 0, 0] S1x8x64
  slices_S16x8x64_o7_0_0_S1x8x64 : S16x8x64.Slices ![7, 0, 0] S1x8x64
  slices_S16x8x64_o8_0_0_S1x8x64 : S16x8x64.Slices ![8, 0, 0] S1x8x64
  slices_S16x8x64_o9_0_0_S1x8x64 : S16x8x64.Slices ![9, 0, 0] S1x8x64
  slices_S16x8x64_o10_0_0_S1x8x64 : S16x8x64.Slices ![10, 0, 0] S1x8x64
  slices_S16x8x64_o11_0_0_S1x8x64 : S16x8x64.Slices ![11, 0, 0] S1x8x64
  slices_S16x8x64_o12_0_0_S1x8x64 : S16x8x64.Slices ![12, 0, 0] S1x8x64
  slices_S16x8x64_o13_0_0_S1x8x64 : S16x8x64.Slices ![13, 0, 0] S1x8x64
  slices_S16x8x64_o14_0_0_S1x8x64 : S16x8x64.Slices ![14, 0, 0] S1x8x64
  slices_S16x8x64_o15_0_0_S1x8x64 : S16x8x64.Slices ![15, 0, 0] S1x8x64
  slices_S8x64_o0_0_S4x64 : S8x64.Slices ![0, 0] S4x64
  slices_S8x64_o4_0_S4x64 : S8x64.Slices ![4, 0] S4x64
  slices_S4x64_o0_0_S2x64 : S4x64.Slices ![0, 0] S2x64
  slices_S4x64_o2_0_S2x64 : S4x64.Slices ![2, 0] S2x64
  slices_S2x64_o0_0_S1x64 : S2x64.Slices ![0, 0] S1x64
  slices_S2x64_o1_0_S1x64 : S2x64.Slices ![1, 0] S1x64
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  transposes_S64x512_p1_0_S512x64 : S64x512.Transposes [1, 0] S512x64
  inb_S512x64_S512x64_0_0 : ∀ a, (![0, 0] : Fin 2 → Nat) a + S512x64.size a ≤ S512x64.size a
  h_S512x64 : 0 < S512x64.numel
  dot_S4096x64_S64x64_S4096x64_1_0_0_1_n_n_wf : DotDims.WF S4096x64 S64x64 S4096x64 [1] [0] [0] [1] [] []
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .f32 = 32 ∨ (Rect.block (s := S4096x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .f32 = 32 ∨ (Rect.block (s := S64x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S4096x64.size a
  hwx2_2 : ∀ i : grid2.Coords, EltTy.bits .f32 = 32 ∨ (Rect.block (s := S4096x64) S512x64.size (cc2_transform_2 i) (hinb2_2 i)).WholeWords (EltTy.packing .f32)
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x4096.size a ≤ S64x4096.size a
  hwx4_0 : ∀ i : grid4.Coords, EltTy.bits .f32 = 32 ∨ (Rect.block (s := S64x4096) S64x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x4096.size a ≤ S4096x4096.size a
  hwx4_1 : ∀ i : grid4.Coords, EltTy.bits .f32 = 32 ∨ (Rect.block (s := S4096x4096) S512x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S4096x64.size a
  hwx4_2 : ∀ i : grid4.Coords, EltTy.bits .f32 = 32 ∨ (Rect.block (s := S4096x64) S512x64.size (cc4_transform_2 i) (hinb4_2 i)).WholeWords (EltTy.packing .f32)
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_call0_v0) false false (stage1_0 0) (sem1_0 0) (Memref.isWhole_whole _) (hstage1_0 0)

abbrev win1_1 : Pipeline.Window sig grid1 :=
  Pipeline.Window.whole (Memref.whole main_v0) false false (stage1_1 0) (sem1_1 0) (Memref.isWhole_whole _) (hstage1_1 0)

abbrev win1_2 : Pipeline.Window sig grid1 :=
  Pipeline.Window.whole (Memref.whole main_v1) false false (stage1_2 0) (sem1_2 0) (Memref.isWhole_whole _) (hstage1_2 0)

abbrev win1_3 : Pipeline.Window sig grid1 :=
  Pipeline.Window.whole (Memref.whole main_v2) false false (stage1_3 0) (sem1_3 0) (Memref.isWhole_whole _) (hstage1_3 0)

abbrev win1_4 : Pipeline.Window sig grid1 :=
  Pipeline.Window.whole (Memref.whole main_v3) false false (stage1_4 0) (sem1_4 0) (Memref.isWhole_whole _) (hstage1_4 0)

abbrev win1_5 : Pipeline.Window sig grid1 :=
  Pipeline.Window.whole (Memref.whole main_call0_v1) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v1) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v2) S512x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.whole (Memref.whole main_call0_v2) false false (stage3_0 0) (sem3_0 0) (Memref.isWhole_whole _) (hstage3_0 0)

abbrev win3_1 : Pipeline.Window sig grid3 :=
  Pipeline.Window.whole (Memref.whole main_v4) false false (stage3_1 0) (sem3_1 0) (Memref.isWhole_whole _) (hstage3_1 0)

abbrev win3_2 : Pipeline.Window sig grid3 :=
  Pipeline.Window.whole (Memref.whole main_v5) false false (stage3_2 0) (sem3_2 0) (Memref.isWhole_whole _) (hstage3_2 0)

abbrev win3_3 : Pipeline.Window sig grid3 :=
  Pipeline.Window.whole (Memref.whole main_v6) false false (stage3_3 0) (sem3_3 0) (Memref.isWhole_whole _) (hstage3_3 0)

abbrev win3_4 : Pipeline.Window sig grid3 :=
  Pipeline.Window.whole (Memref.whole main_v7) false false (stage3_4 0) (sem3_4 0) (Memref.isWhole_whole _) (hstage3_4 0)

abbrev win3_5 : Pipeline.Window sig grid3 :=
  Pipeline.Window.whole (Memref.whole main_call0_v3) true false (stage3_5 0) (sem3_5 0) (Memref.isWhole_whole _) (hstage3_5 0)

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v3) S64x4096.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v4) S512x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.whole (Memref.whole main_call0_v4) false false (stage5_0 0) (sem5_0 0) (Memref.isWhole_whole _) (hstage5_0 0)

abbrev win5_1 : Pipeline.Window sig grid5 :=
  Pipeline.Window.whole (Memref.whole main_v8) false false (stage5_1 0) (sem5_1 0) (Memref.isWhole_whole _) (hstage5_1 0)

abbrev win5_2 : Pipeline.Window sig grid5 :=
  Pipeline.Window.whole (Memref.whole main_v9) false false (stage5_2 0) (sem5_2 0) (Memref.isWhole_whole _) (hstage5_2 0)

abbrev win5_3 : Pipeline.Window sig grid5 :=
  Pipeline.Window.whole (Memref.whole main_v10) false false (stage5_3 0) (sem5_3 0) (Memref.isWhole_whole _) (hstage5_3 0)

abbrev win5_4 : Pipeline.Window sig grid5 :=
  Pipeline.Window.whole (Memref.whole main_v11) false false (stage5_4 0) (sem5_4 0) (Memref.isWhole_whole _) (hstage5_4 0)

abbrev win5_5 : Pipeline.Window sig grid5 :=
  Pipeline.Window.whole (Memref.whole main_v12) true false (stage5_5 0) (sem5_5 0) (Memref.isWhole_whole _) (hstage5_5 0)

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S64x64 : Shape := ⟨2, ![64, 64]⟩
abbrev S64 : Shape := ⟨1, ![64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S_ : Shape := ⟨0, ![]⟩
abbrev S1x64 : Shape := ⟨2, ![1, 64]⟩

abbrev nBuf : Space → Nat
  | .hbm => 196
  | .vmem => 0
  | .smem => 0
  | _ => 0

abbrev hbmTy0_0 (i : Nat) : BufTy := match i % 128 with
  | 0 => ⟨S4096x64, .f32⟩
  | 1 => ⟨S4096x64, .f32⟩
  | 2 => ⟨S4096x4096, .f32⟩
  | 3 => ⟨S4096x4096, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64x64, .f32⟩
  | 13 => ⟨S64, .f32⟩
  | 14 => ⟨S64, .f32⟩
  | 15 => ⟨S64, .f32⟩
  | 16 => ⟨S4096x64x1, .f32⟩
  | 17 => ⟨S4096x1x64, .f32⟩
  | 18 => ⟨S4096x64x64, .f32⟩
  | 19 => ⟨S_, .f32⟩
  | 20 => ⟨S4096x64x64, .f32⟩
  | 21 => ⟨S4096x64x64, .f32⟩
  | 22 => ⟨S_, .f32⟩
  | 23 => ⟨S4096x64, .f32⟩
  | 24 => ⟨S_, .f32⟩
  | 25 => ⟨S4096x64, .f32⟩
  | 26 => ⟨S4096x64, .f32⟩
  | 27 => ⟨S4096x64x1, .f32⟩
  | 28 => ⟨S4096x64x64, .f32⟩
  | 29 => ⟨S4096x64x64, .f32⟩
  | 30 => ⟨S4096x64x64, .f32⟩
  | 31 => ⟨S_, .f32⟩
  | 32 => ⟨S4096x64, .f32⟩
  | 33 => ⟨S4096x64x1, .f32⟩
  | 34 => ⟨S4096x64x64, .f32⟩
  | 35 => ⟨S4096x64x64, .f32⟩
  | 36 => ⟨S_, .f32⟩
  | 37 => ⟨S4096x64, .f32⟩
  | 38 => ⟨S64x64, .f32⟩
  | 39 => ⟨S4096x64, .f32⟩
  | 40 => ⟨S1x64, .f32⟩
  | 41 => ⟨S4096x64, .f32⟩
  | 42 => ⟨S4096x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S4096x64, .f32⟩
  | 56 => ⟨S4096x64, .f32⟩
  | 57 => ⟨S4096x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S4096x64, .f32⟩
  | 73 => ⟨S4096x64, .f32⟩
  | 74 => ⟨S_, .f32⟩
  | 75 => ⟨S64, .f32⟩
  | 76 => ⟨S64, .f32⟩
  | 77 => ⟨S64, .f32⟩
  | 78 => ⟨S1x64, .f32⟩
  | 79 => ⟨S4096x64, .f32⟩
  | 80 => ⟨S4096x64, .f32⟩
  | 81 => ⟨S1x64, .f32⟩
  | 82 => ⟨S4096x64, .f32⟩
  | 83 => ⟨S4096x64, .f32⟩
  | 84 => ⟨S1x64, .f32⟩
  | 85 => ⟨S4096x64, .f32⟩
  | 86 => ⟨S4096x64, .f32⟩
  | 87 => ⟨S_, .f32⟩
  | 88 => ⟨S4096x64, .f32⟩
  | 89 => ⟨S4096x64, .f32⟩
  | 90 => ⟨S4096x64, .f32⟩
  | 91 => ⟨S64x64, .f32⟩
  | 92 => ⟨S4096x64, .f32⟩
  | 93 => ⟨S1x64, .f32⟩
  | 94 => ⟨S4096x64, .f32⟩
  | 95 => ⟨S4096x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S4096x64, .f32⟩
  | 109 => ⟨S4096x64, .f32⟩
  | 110 => ⟨S4096x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S4096x64, .f32⟩
  | 126 => ⟨S4096x64, .f32⟩
  | 127 => ⟨S_, .f32⟩
  | _ => ⟨S4096x64, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S4096x64, .f32⟩
  | 5 => ⟨S4096x64, .f32⟩
  | 6 => ⟨S1x64, .f32⟩
  | 7 => ⟨S4096x64, .f32⟩
  | 8 => ⟨S4096x64, .f32⟩
  | 9 => ⟨S1x64, .f32⟩
  | 10 => ⟨S4096x64, .f32⟩
  | 11 => ⟨S4096x64, .f32⟩
  | 12 => ⟨S_, .f32⟩
  | 13 => ⟨S4096x64, .f32⟩
  | 14 => ⟨S4096x64, .f32⟩
  | 15 => ⟨S4096x64, .f32⟩
  | 16 => ⟨S64x64, .f32⟩
  | 17 => ⟨S4096x64, .f32⟩
  | 18 => ⟨S1x64, .f32⟩
  | 19 => ⟨S4096x64, .f32⟩
  | 20 => ⟨S4096x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S4096x64, .f32⟩
  | 34 => ⟨S4096x64, .f32⟩
  | 35 => ⟨S4096x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S4096x64, .f32⟩
  | 51 => ⟨S4096x64, .f32⟩
  | 52 => ⟨S_, .f32⟩
  | 53 => ⟨S64, .f32⟩
  | 54 => ⟨S64, .f32⟩
  | 55 => ⟨S64, .f32⟩
  | 56 => ⟨S1x64, .f32⟩
  | 57 => ⟨S4096x64, .f32⟩
  | 58 => ⟨S4096x64, .f32⟩
  | 59 => ⟨S1x64, .f32⟩
  | 60 => ⟨S4096x64, .f32⟩
  | 61 => ⟨S4096x64, .f32⟩
  | 62 => ⟨S1x64, .f32⟩
  | 63 => ⟨S4096x64, .f32⟩
  | 64 => ⟨S4096x64, .f32⟩
  | 65 => ⟨S_, .f32⟩
  | 66 => ⟨S4096x64, .f32⟩
  | 67 => ⟨S4096x64, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_6 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_call1_cst : Ref sig .tc := ⟨.hbm, 87, rfl⟩
abbrev main_call1_v0 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_7 : Ref sig .tc := ⟨.hbm, 96, rfl⟩
abbrev main_v48 : Ref sig .tc := ⟨.hbm, 97, rfl⟩
abbrev main_cst_8 : Ref sig .tc := ⟨.hbm, 98, rfl⟩
abbrev main_v49 : Ref sig .tc := ⟨.hbm, 99, rfl⟩
abbrev main_v50 : Ref sig .tc := ⟨.hbm, 100, rfl⟩
abbrev main_c_9 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_10 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_call3_cst : Ref sig .tc := ⟨.hbm, 140, rfl⟩
abbrev main_call3_v0 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_cst_11 : Ref sig .tc := ⟨.hbm, 149, rfl⟩
abbrev main_v74 : Ref sig .tc := ⟨.hbm, 150, rfl⟩
abbrev main_cst_12 : Ref sig .tc := ⟨.hbm, 151, rfl⟩
abbrev main_v75 : Ref sig .tc := ⟨.hbm, 152, rfl⟩
abbrev main_v76 : Ref sig .tc := ⟨.hbm, 153, rfl⟩
abbrev main_c_13 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_cst_3 : Ref sig .tc := ⟨.hbm, 171, rfl⟩
abbrev main_call4_v12 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_cst_14 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_call5_cst : Ref sig .tc := ⟨.hbm, 193, rfl⟩
abbrev main_call5_v0 : Ref sig .tc := ⟨.hbm, 194, rfl⟩
abbrev main_v93 : Ref sig .tc := ⟨.hbm, 195, rfl⟩

abbrev nD : Nat := 1
abbrev τ : Topo := Topo.v7x

variable {F : FTy → Type} [FloatOps F]

class Facts₀ : Prop where
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64x1_S4096x64x64_0_1_2 : S4096x64x1.BroadcastsInDim S4096x64x64 (![0, 1, 2] : Fin 3 → Fin S4096x64x64.rank)
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S64_d0 : S4096x64.ReducesTo [0] S64
  bcast_S_S64 : S_.BroadcastsInDim S64 (![] : Fin 0 → Fin S64.rank)
  bcast_S_S1x64 : S_.BroadcastsInDim S1x64 (![] : Fin 0 → Fin S1x64.rank)
  dot_S4096x64x1_S4096x1x64_S4096x64x64_2_1_1_2_0_0_wf : DotDims.WF S4096x64x1 S4096x1x64 S4096x64x64 [2] [1] [1] [2] [0] [0]
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []

variable [Facts₀]

def dot_S4096x64x1_S4096x1x64_S4096x64x64_2_1_1_2_0_0 : DotDims S4096x64x1 S4096x1x64 S4096x64x64 where
  lhsContracting := [2]
  rhsContracting := [1]
  lhsNonContracting := [1]
  rhsNonContracting := [2]
  lhsBatch := [0]
  rhsBatch := [0]
  wf := dot_S4096x64x1_S4096x1x64_S4096x64x64_2_1_1_2_0_0_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.Spec.lean ====
/-
  The mathematics of the pipeline, stated once on the extended reals and over plain coordinates
  (row index, column index), with no program in sight.

  * A pooled entry: for a row of text t and a row of image im (64 entries each), the scores are
    s j = (t i · 1/8) · im j, and the entry is 1 / Σ_j exp (s j − max_j s j): the largest softmax weight
    of the row of scores, since the largest numerator is exp 0 = 1.
  * A layer: y = x · Wᵀ + b, then batch normalisation over the 4096 rows with the biased variance
    (mean = Σ_r y / 4096 taken as a product with 1/4096, v = Σ_r (y − mean)² · 1/4096),
    (y − mean) / √(v + ε) · g + be, then the positive part.
  * A propagation step: (aff · h)(b, k) = Σ_r h r k · aff b r.
  The float words are kept as the words the programs print (1/8, 1, 1/4096, ε, −∞, 0): only where two
  sides spell a number differently is a word evaluated.
-/
import Idealize.ShloMosaic.PureOps.Ideal
import Idealize.ShloMosaic.PureOps.Ideal.Laws

noncomputable section

namespace Cert.Spec

open Idealize.ShloMosaic

/-- The word of 1/8. -/
def wEighth : EReal := Ideal.ofBits .f32 0x3E000000#32
/-- The word of 1. -/
def wOne : EReal := Ideal.ofBits .f32 0x3F800000#32
/-- The word of 1/4096. -/
def wInvRows : EReal := Ideal.ofBits .f32 0x39800000#32
/-- The word of the variance's ε. -/
def wEps : EReal := Ideal.ofBits .f32 0x3727C5AC#32
/-- The word of −∞. -/
def wNegInf : EReal := Ideal.ofBits .f32 0xFF800000#32
/-- The word of 0. -/
def wZero : EReal := Ideal.ofBits .f32 0x00000000#32

/-- The score of text entry i against image entry j of one row. -/
def score (t im : Fin 64 → EReal) (i j : Fin 64) : EReal := (t i * wEighth) * im j

/-- The largest of 64 values, folded from −∞. -/
def rowMax (s : Fin 64 → EReal) : EReal := (Finset.univ : Finset (Fin 64)).fold max wNegInf s

/-- One pooled entry of a row: the reciprocal of the softmax denominator of the row of scores. -/
def pool (t im : Fin 64 → EReal) (i : Fin 64) : EReal :=
  Ideal.div wOne (∑ j : Fin 64, Ideal.exp (score t im i j - rowMax (score t im i)))

/-- The linear map of a layer: y r k = Σ_c x r c · wt c k + b k (wt is the transposed weight). -/
def lin (x : Fin 4096 → Fin 64 → EReal) (wt : Fin 64 → Fin 64 → EReal) (b : Fin 64 → EReal)
    (r : Fin 4096) (k : Fin 64) : EReal :=
  (∑ c : Fin 64, x r c * wt c k) + b k

/-- The column sum over the 4096 rows. -/
def colSum (y : Fin 4096 → Fin 64 → EReal) (k : Fin 64) : EReal := ∑ r : Fin 4096, y r k

/-- The centred value y r k − mean_k. -/
def centred (y : Fin 4096 → Fin 64 → EReal) (r : Fin 4096) (k : Fin 64) : EReal :=
  y r k - colSum y k * wInvRows

/-- The biased variance of column k. -/
def variance (y : Fin 4096 → Fin 64 → EReal) (k : Fin 64) : EReal :=
  colSum (fun r k' => centred y r k' * centred y r k') k * wInvRows

/-- Batch normalisation followed by the positive part. -/
def bnRelu (y : Fin 4096 → Fin 64 → EReal) (g be : Fin 64 → EReal) (r : Fin 4096) (k : Fin 64) : EReal :=
  max (Ideal.div (centred y r k) (Ideal.sqrt (variance y k + wEps)) * g k + be k) wZero

/-- A whole layer. -/
def layer (x : Fin 4096 → Fin 64 → EReal) (wt : Fin 64 → Fin 64 → EReal) (b g be : Fin 64 → EReal) :
    Fin 4096 → Fin 64 → EReal :=
  bnRelu (lin x wt b) g be

/-- A propagation step (aff · h). -/
def prop (aff : Fin 4096 → Fin 4096 → EReal) (h : Fin 4096 → Fin 64 → EReal) (b : Fin 4096) (k : Fin 64) : EReal :=
  ∑ r : Fin 4096, h r k * aff b r

/-- The whole pipeline's result as one function of the sixteen argument arrays. -/
def out (text image : Fin 4096 → Fin 64 → EReal) (inAff outAff : Fin 4096 → Fin 4096 → EReal)
    (Wc : Fin 64 → Fin 64 → EReal) (bc gc bec : Fin 64 → EReal)
    (W1 : Fin 64 → Fin 64 → EReal) (b1 g1 be1 : Fin 64 → EReal)
    (W2 : Fin 64 → Fin 64 → EReal) (b2 g2 be2 : Fin 64 → EReal) : Fin 4096 → Fin 64 → EReal :=
  layer (prop outAff (layer (prop inAff (layer (fun b i => pool (text b) (image b) i)
    (fun c k => Wc k c) bc gc bec)) (fun c k => W1 k c) b1 g1 be1)) (fun c k => W2 k c) b2 g2 be2

end Cert.Spec

end
-- ==== Proof.KernelRun.lean ====
/-
  The idealized kernel's run with its result array named. The program is six kernel regions after one stretch of
  host operations; its run through the regions ends, on every core, with every unscoped buffer at the contents the
  last boundary names. Read at the result array that is the last region's output array after its write-backs, and at
  the sixteen argument arrays it is their launch contents.
-/
import proofs.«169346_g86071144612153_cont_sun_m_685_13_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the last
    boundary's contents and the sixteen argument arrays as launched. -/
theorem run_result : θ_run defs (onTc (τ := τ) (main (F := F))) ⟨m, fun _ => 0, ρ⟩ (fun r => ∀ c : Dev nD,
      r.2.mem ((c.tc : Thread nD τ).loc main_v12) = W7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v12 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.Run

end
-- ==== Proof.Region0.lean ====
/-
  Region 0 of the idealized kernel (the pooling), at any entry contents. Grid point t takes rows 256·t … 256·t + 255 of
  the text and of the image and writes the same rows of the pooled array; the sixteen blocks tile the 4096 rows, so the
  output array after the region is: entry (b, i) = the pooled entry i of row b of the text against row b of the image.
-/
import proofs.«169346_g86071144612153_cont_sun_m_685_13_alg».proof.Proof.Gen.KernelIdeal.Frame
import proofs.«169346_g86071144612153_cont_sun_m_685_13_alg».proof.Proof.Spec
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The pooled array of a text array and an image array. -/
def pooled (T IM : Vec Ideal S4096x64 .f32) : Vec Ideal S4096x64 .f32 :=
  fun i => Cert.Spec.pool (fun j => T (ix2 (n0 := 4096) (n1 := 64) (i 0) j)) (fun j => IM (ix2 (n0 := 4096) (n1 := 64) (i 0) j)) (i 1)

/-- The index maps over the grid: the three blocks move together down the rows, and there are sixteen of them. -/
theorem idx_facts : ∀ t : Fin cfg0.N, win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 15 :=
  (by decide +kernel : ∀ t : Fin grid0.N, _)

/-- Every block of rows is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point t writes back is block t of the pooled array of the arrays as the region finds them, given the body's
    result on a block of 256 rows (hpool: row p of the block's result is the pooled row of row p of its two inputs). -/
theorem flushed_eq
    (hpool : ∀ (x0 x1 : Vec Ideal S256x64 .f32) (p : Fin 256) (i : Fin 64),
      out0_2 (F := Ideal) x0 x1 (ix2 p i) = Cert.Spec.pool (fun j => x0 (ix2 p j)) (fun j => x1 (ix2 p j)) i)
    (c : Dev nD) (t : Fin cfg0.N) :
    (dat0 V c).flushed 2 t = ((cfg0.win 2).blk t).view.read (Elt Ideal) (pooled (V c main_arg0) (V c main_arg1)) := by
  show (cfg0.win 2).cut (grid0.coords t) ((dat0 V c).after 2 t) = _
  rw [after0_2]
  obtain ⟨e0, e1, e2, e3, e4, e5⟩ := idx_facts t
  funext j
  obtain ⟨p, i, rfl⟩ : ∃ (p : Fin 256) (i : Fin 64), j = ix2 p i := ⟨j 0, j 1, eq_ix2 j⟩
  show out0_2 (F := Ideal) (iblk0 V c 0 t) (iblk0 V c 1 t) (ix2 p i) = pooled _ _ (((cfg0.win 2).blk t).view.emb (ix2 p i))
  rw [hpool]
  unfold pooled
  have hi : ((((cfg0.win 2).blk t).view.emb (ix2 p i)) 1 : Fin 64) = i := by
    apply Fin.ext
    show win0_2.index t (1 : Fin 2) * 64 + 1 * i.val = i.val; omega
  have h0 : ∀ j : Fin 64, iblk0 V c 0 t (ix2 p j) = V c main_arg0 (ix2 (n0 := 4096) (n1 := 64) ((((cfg0.win 2).blk t).view.emb (ix2 p i)) 0) j) := by
    intro j
    show V c main_arg0 (((cfg0.win 0).blk t).view.emb (ix2 p j)) = _
    refine congrArg _ (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 64 + 1 * j.val = j.val; omega
  have h1 : ∀ j : Fin 64, iblk0 V c 1 t (ix2 p j) = V c main_arg1 (ix2 (n0 := 4096) (n1 := 64) ((((cfg0.win 2).blk t).view.emb (ix2 p i)) 0) j) := by
    intro j
    show V c main_arg1 (((cfg0.win 1).blk t).view.emb (ix2 p j)) = _
    refine congrArg _ (funext fun a => Fin.ext ?_)
    match a with
    | ⟨0, _⟩ => show win0_1.index t (0 : Fin 2) * 256 + 1 * p.val = win0_2.index t (0 : Fin 2) * 256 + 1 * p.val; omega
    | ⟨1, _⟩ => show win0_1.index t (1 : Fin 2) * 64 + 1 * j.val = j.val; omega
  rw [hi]
  simp only [h0, h1]

/-- An index of the array is in point t's block iff each coordinate is in the block's range on its axis. -/
theorem mem_blk (t : Fin cfg0.N) (i : S4096x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_call0_v0).slice (win0_2.rect t)).set ↔ _
  rw [View.set_slice_whole, Rect.mem_set_unit]
  exact Iff.rfl

/-- Every index of the array is in some point's block: the point that covers row b is b / 256. -/
theorem covered (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 64 ≤ (i 1).val ∧ (i 1).val < win0_2.index t (1 : Fin 2) * 64 + 64; omega

/-- The output array after the region is the whole pooled array. -/
theorem final
    (hpool : ∀ (x0 x1 : Vec Ideal S256x64 .f32) (p : Fin 256) (i : Fin 64),
      out0_2 (F := Ideal) x0 x1 (ix2 p i) = Cert.Spec.pool (fun j => x0 (ix2 p j)) (fun j => x1 (ix2 p j)) i)
    (c : Dev nD) : (dat0 V c).arrAt 2 cfg0.N = pooled (V c main_arg0) (V c main_arg1) :=
  (dat0 V c).arrAt_eq_of_cover 2 _ (fun t _ => flushed_eq V hpool c t) (covered)

end Cert.KernelIdeal.Region0

end
-- ==== Proof.Region1.lean ====
/-
  Region 1 of the idealized kernel (a layer: linear map, batch normalisation, positive part), at any entry contents:
  each of its six windows takes its whole array as the one block of the one grid point, so the output array after
  the region is the body's result on the five input arrays.
-/
import proofs.«169346_g86071144612153_cont_sun_m_685_13_alg».proof.Proof.Gen.KernelIdeal.Frame
import proofs.«169346_g86071144612153_cont_sun_m_685_13_alg».proof.Proof.Spec
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- Input window 0 takes the whole array as its one block. -/
theorem iblk1_0 (c : Dev nD) (t : Fin cfg1.N) : iblk1 V c 0 t = V c main_call0_v0 := by
  funext y
  show V c main_call0_v0 (((cfg1.win 0).blk t).view.emb y) = V c main_call0_v0 y
  refine congrArg _ (funext fun a => Fin.ext ?_)
  match a with
  | ⟨0, _⟩ => show 0 * 4096 + 1 * (y 0).val = (y 0).val; omega
  | ⟨1, _⟩ => show 0 * 64 + 1 * (y 1).val = (y 1).val; omega

/-- Input window 1 takes the whole array as its one block. -/
theorem iblk1_1 (c : Dev nD) (t : Fin cfg1.N) : iblk1 V c 1 t = V c main_v0 := by
  funext y
  show V c main_v0 (((cfg1.win 1).blk t).view.emb y) = V c main_v0 y
  refine congrArg _ (funext fun a => Fin.ext ?_)
  match a with
  | ⟨0, _⟩ => show 0 * 64 + 1 * (y 0).val = (y 0).val; omega
  | ⟨1, _⟩ => show 0 * 64 + 1 * (y 1).val = (y 1).val; omega

/-- Input window 2 takes the whole array as its one block. -/
theorem iblk1_2 (c : Dev nD) (t : Fin cfg1.N) : iblk1 V c 2 t = V c main_v1 := by
  funext y
  show V c main_v1 (((cfg1.win 2).blk t).view.emb y) = V c main_v1 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 3 takes the whole array as its one block. -/
theorem iblk1_3 (c : Dev nD) (t : Fin cfg1.N) : iblk1 V c 3 t = V c main_v2 := by
  funext y
  show V c main_v2 (((cfg1.win 3).blk t).view.emb y) = V c main_v2 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 4 takes the whole array as its one block. -/
theorem iblk1_4 (c : Dev nD) (t : Fin cfg1.N) : iblk1 V c 4 t = V c main_v3 := by
  funext y
  show V c main_v3 (((cfg1.win 4).blk t).view.emb y) = V c main_v3 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- What the region's one point writes back is the body's result on the five whole arrays. -/
theorem flushed1 (c : Dev nD) (t : Fin cfg1.N) (G : Vec Ideal S64x4096 .f32)
    (hG : out1_5 (F := Ideal) (V c main_call0_v0) (V c main_v0) (V c main_v1) (V c main_v2) (V c main_v3) = G) :
    (dat1 V c).flushed 5 t = ((cfg1.win 5).blk t).view.read (Elt Ideal) G := by
  show (cfg1.win 5).cut (grid1.coords t) ((dat1 V c).after 5 t) = _
  rw [after1_5, iblk1_0, iblk1_1, iblk1_2, iblk1_3, iblk1_4, hG]
  funext j
  show G j = G (((cfg1.win 5).blk t).view.emb j)
  refine congrArg _ (funext fun a => Fin.ext ?_)
  match a with
  | ⟨0, _⟩ => show (j 0).val = 0 * 64 + 1 * (j 0).val; omega
  | ⟨1, _⟩ => show (j 1).val = 0 * 4096 + 1 * (j 1).val; omega

/-- The output array after the region: the body's result on the five whole arrays. -/
theorem final1 (c : Dev nD) (G : Vec Ideal S64x4096 .f32)
    (hG : out1_5 (F := Ideal) (V c main_call0_v0) (V c main_v0) (V c main_v1) (V c main_v2) (V c main_v3) = G) :
    (dat1 V c).arrAt 5 cfg1.N = G :=
  (dat1 V c).arrAt_eq_of_cover 5 G (fun t _ => flushed1 V c t G hG) (fun i => by
    refine ⟨t1_0, rfl, ?_⟩
    show i ∈ ((View.whole main_call0_v1).slice (win1_5.rect t1_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩)

end Cert.KernelIdeal.Region1

end
-- ==== Proof.MmPay.lean ====
/-
  The two propagation kernels' arithmetic at an index. Each grid point multiplies the whole transposed activations
  hT (64 × 4096) with a block of 512 rows of the affinity matrix, contracting the second axis of both, and stores the
  product transposed: entry (b, k) of the block is Σ_r hT(k, r) · aff(b, r).
-/
import proofs.«169346_g86071144612153_cont_sun_m_685_13_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MmPay

open Cert.KernelIdeal Cert.KernelIdeal.Gen
open Idealize.ShloMosaic Idealize.ShloMosaic.ValueIdx

/-- The body's product at (b, k): the sum over the 4096 contracted positions r of hT(k, r) · aff(b, r) — a matrix
    product into the zero splat contracting the second axis of both operands, read transposed; the changes of float
    format are the identity on the extended reals. -/
theorem k2_pay1_apply (x0 : Vec Ideal S64x4096 .f32) (x1 : Vec Ideal S512x4096 .f32) (b : Fin 512) (k : Fin 64) :
    k2_pay1 (F := Ideal) x0 x1 (ix2 b k) = ∑ r : Fin 4096, x0 (ix2 k r) * x1 (ix2 b r) := by
  unfold k2_pay1
  dsimp only
  rw [transpose_apply [1, 0] _ transposes_S64x512_p1_0_S512x64 (ix2 b k) (ix2 k b)
    (by intro a; match a with | ⟨0, _⟩ => rfl | ⟨1, _⟩ => rfl)]
  simp only [matmul]
  rw [Ideal.matmul_constant_zero_apply]
  rw [← Equiv.sum_comp (contrEquiv1 dot_S64x4096_S512x4096_S64x512_1_1_0_0_n_n 4096 rfl rfl).symm]
  refine Finset.sum_congr rfl fun r _ => ?_
  rw [truncf_apply, truncf_apply, shapeCast_self]
  have hl : dot_S64x4096_S512x4096_S64x512_1_1_0_0_n_n.lhsIdx (ix2 k b)
      ((contrEquiv1 dot_S64x4096_S512x4096_S64x512_1_1_0_0_n_n 4096 rfl rfl).symm r) = ix2 k r := by
    funext a; apply Fin.ext
    match a with
    | ⟨0, _⟩ => rfl
    | ⟨1, _⟩ =>
      exact (DotDims.lhsIdx_val_of_single dot_S64x4096_S512x4096_S64x512_1_1_0_0_n_n (cl := 1) rfl _ _).trans
        (contrEquiv1_symm_val dot_S64x4096_S512x4096_S64x512_1_1_0_0_n_n 4096 rfl rfl r)
  have hr : dot_S64x4096_S512x4096_S64x512_1_1_0_0_n_n.rhsIdx (ix2 k b)
      ((contrEquiv1 dot_S64x4096_S512x4096_S64x512_1_1_0_0_n_n 4096 rfl rfl).symm r) = ix2 b r := by
    funext a; apply Fin.ext
    match a with
    | ⟨0, _⟩ => rfl
    | ⟨1, _⟩ =>
      exact (DotDims.rhsIdx_val_of_single dot_S64x4096_S512x4096_S64x512_1_1_0_0_n_n (cr := 1) rfl _ _).trans
        (contrEquiv1_symm_val dot_S64x4096_S512x4096_S64x512_1_1_0_0_n_n 4096 rfl rfl r)
  rw [hl, hr]

/-- The body's product at (b, k): the sum over the 4096 contracted positions r of hT(k, r) · aff(b, r) — a matrix
    product into the zero splat contracting the second axis of both operands, read transposed; the changes of float
    format are the identity on the extended reals. -/
theorem k4_pay1_apply (x0 : Vec Ideal S64x4096 .f32) (x1 : Vec Ideal S512x4096 .f32) (b : Fin 512) (k : Fin 64) :
    k4_pay1 (F := Ideal) x0 x1 (ix2 b k) = ∑ r : Fin 4096, x0 (ix2 k r) * x1 (ix2 b r) := by
  unfold k4_pay1
  dsimp only
  rw [transpose_apply [1, 0] _ transposes_S64x512_p1_0_S512x64 (ix2 b k) (ix2 k b)
    (by intro a; match a with | ⟨0, _⟩ => rfl | ⟨1, _⟩ => rfl)]
  simp only [matmul]
  rw [Ideal.matmul_constant_zero_apply]
  rw [← Equiv.sum_comp (contrEquiv1 dot_S64x4096_S512x4096_S64x512_1_1_0_0_n_n 4096 rfl rfl).symm]
  refine Finset.sum_congr rfl fun r _ => ?_
  rw [truncf_apply, truncf_apply, shapeCast_self]
  have hl : dot_S64x4096_S512x4096_S64x512_1_1_0_0_n_n.lhsIdx (ix2 k b)
      ((contrEquiv1 dot_S64x4096_S512x4096_S64x512_1_1_0_0_n_n 4096 rfl rfl).symm r) = ix2 k r := by
    funext a; apply Fin.ext
    match a with
    | ⟨0, _⟩ => rfl
    | ⟨1, _⟩ =>
      exact (DotDims.lhsIdx_val_of_single dot_S64x4096_S512x4096_S64x512_1_1_0_0_n_n (cl := 1) rfl _ _).trans
        (contrEquiv1_symm_val dot_S64x4096_S512x4096_S64x512_1_1_0_0_n_n 4096 rfl rfl r)
  have hr : dot_S64x4096_S512x4096_S64x512_1_1_0_0_n_n.rhsIdx (ix2 k b)
      ((contrEquiv1 dot_S64x4096_S512x4096_S64x512_1_1_0_0_n_n 4096 rfl rfl).symm r) = ix2 b r := by
    funext a; apply Fin.ext
    match a with
    | ⟨0, _⟩ => rfl
    | ⟨1, _⟩ =>
      exact (DotDims.rhsIdx_val_of_single dot_S64x4096_S512x4096_S64x512_1_1_0_0_n_n (cr := 1) rfl _ _).trans
        (contrEquiv1_symm_val dot_S64x4096_S512x4096_S64x512_1_1_0_0_n_n 4096 rfl rfl r)
  rw [hl, hr]

end Cert.KernelIdeal.MmPay

end
-- ==== Proof.Region2.lean ====
/-
  Region 2 of the idealized kernel (the first propagation step aff · h), at any entry contents. Grid point t takes the
  whole transposed activations hT (64 × 4096) and rows 512·t … 512·t + 511 of the affinity matrix, and writes rows
  512·t … 512·t + 511 of the product; the eight blocks tile the 4096 rows, so the output array after the region is the
  whole product: entry (b, k) is Σ_r hT(k, r) · aff(b, r).
-/
import proofs.«169346_g86071144612153_cont_sun_m_685_13_alg».proof.Proof.Gen.KernelIdeal.Frame
import proofs.«169346_g86071144612153_cont_sun_m_685_13_alg».proof.Proof.MmPay
import Idealize.ShloMosaic.Lib.ValueIdx
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product array: entry (b, k) is the sum over r of hT(k, r) · aff(b, r). -/
def prodArr (H : Vec Ideal S64x4096 .f32) (A : Vec Ideal S4096x4096 .f32) : Vec Ideal S4096x64 .f32 :=
  fun i => ∑ r : Fin 4096, H (ix2 (n0 := 64) (n1 := 4096) (i 1) r) * A (ix2 (n0 := 4096) (n1 := 4096) (i 0) r)

/-- The index maps over the grid: hT's block never moves, the affinity block and the output block move together down
    the rows, and there are eight of them. -/
theorem idx_facts : ∀ t : Fin cfg2.N, win2_0.index t (0 : Fin 2) = 0 ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) ≤ 7 :=
  (by decide +kernel : ∀ t : Fin grid2.N, _)

/-- Every block of rows is some point's. -/
theorem idx_onto : ∀ q : Fin 8, ∃ t : Fin cfg2.N, win2_2.index t = ![q.val, 0] :=
  (by decide +kernel : ∀ q : Fin 8, ∃ t : Fin grid2.N, win2_2.index t = ![q.val, 0])

/-- What point t writes back is block t of the product of the arrays as the region finds them. -/
theorem flushed_eq (c : Dev nD) (t : Fin cfg2.N) :
    (dat2 V c).flushed 2 t = ((cfg2.win 2).blk t).view.read (Elt Ideal) (prodArr (V c main_call0_v1) (V c main_arg2)) := by
  show (cfg2.win 2).cut (grid2.coords t) ((dat2 V c).after 2 t) = _
  rw [after2_2]
  unfold out2_2
  rw [View.canon_unit_zero hz]
  simp only [View.ld_unit_zero (S := S64x4096) hz, View.ld_unit_zero (S := S512x4096) hz]
  obtain ⟨e0, e1, e2, e3, e4, e5⟩ := idx_facts t
  funext j
  obtain ⟨b, k, rfl⟩ : ∃ (b : Fin 512) (k : Fin 64), j = ix2 b k := ⟨j 0, j 1, eq_ix2 j⟩
  show k2_pay1 (F := Ideal) (iblk2 V c 0 t) (iblk2 V c 1 t) (ix2 b k) = prodArr _ _ (((cfg2.win 2).blk t).view.emb (ix2 b k))
  rw [MmPay.k2_pay1_apply]
  unfold prodArr
  refine Finset.sum_congr rfl fun r _ => ?_
  have h0 : iblk2 V c 0 t (ix2 k r) = V c main_call0_v1 (ix2 (n0 := 64) (n1 := 4096) ((((cfg2.win 2).blk t).view.emb (ix2 b k)) 1) r) := by
    show V c main_call0_v1 (((cfg2.win 0).blk t).view.emb (ix2 k r)) = _
    refine congrArg _ (funext fun a => Fin.ext ?_)
    match a with
    | ⟨0, _⟩ => show win2_0.index t (0 : Fin 2) * 64 + 1 * k.val = win2_2.index t (1 : Fin 2) * 64 + 1 * k.val; omega
    | ⟨1, _⟩ => show win2_0.index t (1 : Fin 2) * 4096 + 1 * r.val = r.val; omega
  have h1 : iblk2 V c 1 t (ix2 b r) = V c main_arg2 (ix2 (n0 := 4096) (n1 := 4096) ((((cfg2.win 2).blk t).view.emb (ix2 b k)) 0) r) := by
    show V c main_arg2 (((cfg2.win 1).blk t).view.emb (ix2 b r)) = _
    refine congrArg _ (funext fun a => Fin.ext ?_)
    match a with
    | ⟨0, _⟩ => show win2_1.index t (0 : Fin 2) * 512 + 1 * b.val = win2_2.index t (0 : Fin 2) * 512 + 1 * b.val; omega
    | ⟨1, _⟩ => show win2_1.index t (1 : Fin 2) * 4096 + 1 * r.val = r.val; omega
  rw [h0, h1]

/-- An index of the array is in point t's block iff each coordinate is in the block's range on its axis. -/
theorem mem_blk (t : Fin cfg2.N) (i : S4096x64.Idx) :
    i ∈ ((cfg2.win 2).blk t).view.set ↔ ∀ a : Fin 2, win2_2.index t a * S512x64.size a ≤ (i a).val ∧ (i a).val < win2_2.index t a * S512x64.size a + S512x64.size a := by
  show i ∈ ((View.whole main_call0_v2).slice (win2_2.rect t)).set ↔ _
  rw [View.set_slice_whole, Rect.mem_set_unit]
  exact Iff.rfl

/-- Every index of the array is in some point's block: the point that covers row b is b / 512. -/
theorem covered (i : S4096x64.Idx) : ∃ t : Fin cfg2.N, (cfg2.win 2).flush t = true ∧ i ∈ ((cfg2.win 2).blk t).view.set := by
  have hi0 : (i 0).val < 4096 := (i 0).isLt
  have hi1 : (i 1).val < 64 := (i 1).isLt
  obtain ⟨t, ht⟩ := idx_onto ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 64 ≤ (i 1).val ∧ (i 1).val < win2_2.index t (1 : Fin 2) * 64 + 64; omega

/-- The output array after the region is the whole product. -/
theorem final (c : Dev nD) : (dat2 V c).arrAt 2 cfg2.N = prodArr (V c main_call0_v1) (V c main_arg2) :=
  (dat2 V c).arrAt_eq_of_cover 2 _ (fun t _ => flushed_eq V c t) (covered)

end Cert.KernelIdeal.Region2

end
-- ==== Proof.Region3.lean ====
/-
  Region 3 of the idealized kernel (a layer: linear map, batch normalisation, positive part), at any entry contents:
  each of its six windows takes its whole array as the one block of the one grid point, so the output array after
  the region is the body's result on the five input arrays.
-/
import proofs.«169346_g86071144612153_cont_sun_m_685_13_alg».proof.Proof.Gen.KernelIdeal.Frame
import proofs.«169346_g86071144612153_cont_sun_m_685_13_alg».proof.Proof.Spec
import Idealize.ShloMosaic.Lib.ValueIdx
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- Input window 0 takes the whole array as its one block. -/
theorem iblk3_0 (c : Dev nD) (t : Fin cfg3.N) : iblk3 V c 0 t = V c main_call0_v2 := by
  funext y
  show V c main_call0_v2 (((cfg3.win 0).blk t).view.emb y) = V c main_call0_v2 y
  refine congrArg _ (funext fun a => Fin.ext ?_)
  match a with
  | ⟨0, _⟩ => show 0 * 4096 + 1 * (y 0).val = (y 0).val; omega
  | ⟨1, _⟩ => show 0 * 64 + 1 * (y 1).val = (y 1).val; omega

/-- Input window 1 takes the whole array as its one block. -/
theorem iblk3_1 (c : Dev nD) (t : Fin cfg3.N) : iblk3 V c 1 t = V c main_v4 := by
  funext y
  show V c main_v4 (((cfg3.win 1).blk t).view.emb y) = V c main_v4 y
  refine congrArg _ (funext fun a => Fin.ext ?_)
  match a with
  | ⟨0, _⟩ => show 0 * 64 + 1 * (y 0).val = (y 0).val; omega
  | ⟨1, _⟩ => show 0 * 64 + 1 * (y 1).val = (y 1).val; omega

/-- Input window 2 takes the whole array as its one block. -/
theorem iblk3_2 (c : Dev nD) (t : Fin cfg3.N) : iblk3 V c 2 t = V c main_v5 := by
  funext y
  show V c main_v5 (((cfg3.win 2).blk t).view.emb y) = V c main_v5 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 3 takes the whole array as its one block. -/
theorem iblk3_3 (c : Dev nD) (t : Fin cfg3.N) : iblk3 V c 3 t = V c main_v6 := by
  funext y
  show V c main_v6 (((cfg3.win 3).blk t).view.emb y) = V c main_v6 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 4 takes the whole array as its one block. -/
theorem iblk3_4 (c : Dev nD) (t : Fin cfg3.N) : iblk3 V c 4 t = V c main_v7 := by
  funext y
  show V c main_v7 (((cfg3.win 4).blk t).view.emb y) = V c main_v7 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- What the region's one point writes back is the body's result on the five whole arrays. -/
theorem flushed3 (c : Dev nD) (t : Fin cfg3.N) (G : Vec Ideal S64x4096 .f32)
    (hG : out3_5 (F := Ideal) (V c main_call0_v2) (V c main_v4) (V c main_v5) (V c main_v6) (V c main_v7) = G) :
    (dat3 V c).flushed 5 t = ((cfg3.win 5).blk t).view.read (Elt Ideal) G := by
  show (cfg3.win 5).cut (grid3.coords t) ((dat3 V c).after 5 t) = _
  rw [after3_5, iblk3_0, iblk3_1, iblk3_2, iblk3_3, iblk3_4, hG]
  funext j
  show G j = G (((cfg3.win 5).blk t).view.emb j)
  refine congrArg _ (funext fun a => Fin.ext ?_)
  match a with
  | ⟨0, _⟩ => show (j 0).val = 0 * 64 + 1 * (j 0).val; omega
  | ⟨1, _⟩ => show (j 1).val = 0 * 4096 + 1 * (j 1).val; omega

/-- The output array after the region: the body's result on the five whole arrays. -/
theorem final3 (c : Dev nD) (G : Vec Ideal S64x4096 .f32)
    (hG : out3_5 (F := Ideal) (V c main_call0_v2) (V c main_v4) (V c main_v5) (V c main_v6) (V c main_v7) = G) :
    (dat3 V c).arrAt 5 cfg3.N = G :=
  (dat3 V c).arrAt_eq_of_cover 5 G (fun t _ => flushed3 V c t G hG) (fun i => by
    refine ⟨t3_0, rfl, ?_⟩
    show i ∈ ((View.whole main_call0_v3).slice (win3_5.rect t3_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩)

end Cert.KernelIdeal.Region3

end
-- ==== Proof.Region4.lean ====
/-
  Region 4 of the idealized kernel (the second propagation step aff · h), at any entry contents. Grid point t takes the
  whole transposed activations hT (64 × 4096) and rows 512·t … 512·t + 511 of the affinity matrix, and writes rows
  512·t … 512·t + 511 of the product; the eight blocks tile the 4096 rows, so the output array after the region is the
  whole product: entry (b, k) is Σ_r hT(k, r) · aff(b, r).
-/
import proofs.«169346_g86071144612153_cont_sun_m_685_13_alg».proof.Proof.Gen.KernelIdeal.Frame
import proofs.«169346_g86071144612153_cont_sun_m_685_13_alg».proof.Proof.MmPay
import Idealize.ShloMosaic.Lib.ValueIdx
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The product array: entry (b, k) is the sum over r of hT(k, r) · aff(b, r). -/
def prodArr (H : Vec Ideal S64x4096 .f32) (A : Vec Ideal S4096x4096 .f32) : Vec Ideal S4096x64 .f32 :=
  fun i => ∑ r : Fin 4096, H (ix2 (n0 := 64) (n1 := 4096) (i 1) r) * A (ix2 (n0 := 4096) (n1 := 4096) (i 0) r)

/-- The index maps over the grid: hT's block never moves, the affinity block and the output block move together down
    the rows, and there are eight of them. -/
theorem idx_facts : ∀ t : Fin cfg4.N, win4_0.index t (0 : Fin 2) = 0 ∧ win4_0.index t (1 : Fin 2) = 0
    ∧ win4_1.index t (0 : Fin 2) = win4_2.index t (0 : Fin 2) ∧ win4_1.index t (1 : Fin 2) = 0
    ∧ win4_2.index t (1 : Fin 2) = 0 ∧ win4_2.index t (0 : Fin 2) ≤ 7 :=
  (by decide +kernel : ∀ t : Fin grid4.N, _)

/-- Every block of rows is some point's. -/
theorem idx_onto : ∀ q : Fin 8, ∃ t : Fin cfg4.N, win4_2.index t = ![q.val, 0] :=
  (by decide +kernel : ∀ q : Fin 8, ∃ t : Fin grid4.N, win4_2.index t = ![q.val, 0])

/-- What point t writes back is block t of the product of the arrays as the region finds them. -/
theorem flushed_eq (c : Dev nD) (t : Fin cfg4.N) :
    (dat4 V c).flushed 2 t = ((cfg4.win 2).blk t).view.read (Elt Ideal) (prodArr (V c main_call0_v3) (V c main_arg3)) := by
  show (cfg4.win 2).cut (grid4.coords t) ((dat4 V c).after 2 t) = _
  rw [after4_2]
  unfold out4_2
  rw [View.canon_unit_zero hz]
  simp only [View.ld_unit_zero (S := S64x4096) hz, View.ld_unit_zero (S := S512x4096) hz]
  obtain ⟨e0, e1, e2, e3, e4, e5⟩ := idx_facts t
  funext j
  obtain ⟨b, k, rfl⟩ : ∃ (b : Fin 512) (k : Fin 64), j = ix2 b k := ⟨j 0, j 1, eq_ix2 j⟩
  show k4_pay1 (F := Ideal) (iblk4 V c 0 t) (iblk4 V c 1 t) (ix2 b k) = prodArr _ _ (((cfg4.win 2).blk t).view.emb (ix2 b k))
  rw [MmPay.k4_pay1_apply]
  unfold prodArr
  refine Finset.sum_congr rfl fun r _ => ?_
  have h0 : iblk4 V c 0 t (ix2 k r) = V c main_call0_v3 (ix2 (n0 := 64) (n1 := 4096) ((((cfg4.win 2).blk t).view.emb (ix2 b k)) 1) r) := by
    show V c main_call0_v3 (((cfg4.win 0).blk t).view.emb (ix2 k r)) = _
    refine congrArg _ (funext fun a => Fin.ext ?_)
    match a with
    | ⟨0, _⟩ => show win4_0.index t (0 : Fin 2) * 64 + 1 * k.val = win4_2.index t (1 : Fin 2) * 64 + 1 * k.val; omega
    | ⟨1, _⟩ => show win4_0.index t (1 : Fin 2) * 4096 + 1 * r.val = r.val; omega
  have h1 : iblk4 V c 1 t (ix2 b r) = V c main_arg3 (ix2 (n0 := 4096) (n1 := 4096) ((((cfg4.win 2).blk t).view.emb (ix2 b k)) 0) r) := by
    show V c main_arg3 (((cfg4.win 1).blk t).view.emb (ix2 b r)) = _
    refine congrArg _ (funext fun a => Fin.ext ?_)
    match a with
    | ⟨0, _⟩ => show win4_1.index t (0 : Fin 2) * 512 + 1 * b.val = win4_2.index t (0 : Fin 2) * 512 + 1 * b.val; omega
    | ⟨1, _⟩ => show win4_1.index t (1 : Fin 2) * 4096 + 1 * r.val = r.val; omega
  rw [h0, h1]

/-- An index of the array is in point t's block iff each coordinate is in the block's range on its axis. -/
theorem mem_blk (t : Fin cfg4.N) (i : S4096x64.Idx) :
    i ∈ ((cfg4.win 2).blk t).view.set ↔ ∀ a : Fin 2, win4_2.index t a * S512x64.size a ≤ (i a).val ∧ (i a).val < win4_2.index t a * S512x64.size a + S512x64.size a := by
  show i ∈ ((View.whole main_call0_v4).slice (win4_2.rect t)).set ↔ _
  rw [View.set_slice_whole, Rect.mem_set_unit]
  exact Iff.rfl

/-- Every index of the array is in some point's block: the point that covers row b is b / 512. -/
theorem covered (i : S4096x64.Idx) : ∃ t : Fin cfg4.N, (cfg4.win 2).flush t = true ∧ i ∈ ((cfg4.win 2).blk t).view.set := by
  have hi0 : (i 0).val < 4096 := (i 0).isLt
  have hi1 : (i 1).val < 64 := (i 1).isLt
  obtain ⟨t, ht⟩ := idx_onto ⟨(i 0).val / 512, by omega⟩
  have q0 : win4_2.index t (0 : Fin 2) = (i 0).val / 512 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 64 ≤ (i 1).val ∧ (i 1).val < win4_2.index t (1 : Fin 2) * 64 + 64; omega

/-- The output array after the region is the whole product. -/
theorem final (c : Dev nD) : (dat4 V c).arrAt 2 cfg4.N = prodArr (V c main_call0_v3) (V c main_arg3) :=
  (dat4 V c).arrAt_eq_of_cover 2 _ (fun t _ => flushed_eq V c t) (covered)

end Cert.KernelIdeal.Region4

end
-- ==== Proof.Region5.lean ====
/-
  Region 5 of the idealized kernel (a layer: linear map, batch normalisation, positive part), at any entry contents:
  each of its six windows takes its whole array as the one block of the one grid point, so the output array after
  the region is the body's result on the five input arrays.
-/
import proofs.«169346_g86071144612153_cont_sun_m_685_13_alg».proof.Proof.Gen.KernelIdeal.Frame
import proofs.«169346_g86071144612153_cont_sun_m_685_13_alg».proof.Proof.Spec
import Idealize.ShloMosaic.Lib.ValueIdx
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- Input window 0 takes the whole array as its one block. -/
theorem iblk5_0 (c : Dev nD) (t : Fin cfg5.N) : iblk5 V c 0 t = V c main_call0_v4 := by
  funext y
  show V c main_call0_v4 (((cfg5.win 0).blk t).view.emb y) = V c main_call0_v4 y
  refine congrArg _ (funext fun a => Fin.ext ?_)
  match a with
  | ⟨0, _⟩ => show 0 * 4096 + 1 * (y 0).val = (y 0).val; omega
  | ⟨1, _⟩ => show 0 * 64 + 1 * (y 1).val = (y 1).val; omega

/-- Input window 1 takes the whole array as its one block. -/
theorem iblk5_1 (c : Dev nD) (t : Fin cfg5.N) : iblk5 V c 1 t = V c main_v8 := by
  funext y
  show V c main_v8 (((cfg5.win 1).blk t).view.emb y) = V c main_v8 y
  refine congrArg _ (funext fun a => Fin.ext ?_)
  match a with
  | ⟨0, _⟩ => show 0 * 64 + 1 * (y 0).val = (y 0).val; omega
  | ⟨1, _⟩ => show 0 * 64 + 1 * (y 1).val = (y 1).val; omega

/-- Input window 2 takes the whole array as its one block. -/
theorem iblk5_2 (c : Dev nD) (t : Fin cfg5.N) : iblk5 V c 2 t = V c main_v9 := by
  funext y
  show V c main_v9 (((cfg5.win 2).blk t).view.emb y) = V c main_v9 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 3 takes the whole array as its one block. -/
theorem iblk5_3 (c : Dev nD) (t : Fin cfg5.N) : iblk5 V c 3 t = V c main_v10 := by
  funext y
  show V c main_v10 (((cfg5.win 3).blk t).view.emb y) = V c main_v10 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- Input window 4 takes the whole array as its one block. -/
theorem iblk5_4 (c : Dev nD) (t : Fin cfg5.N) : iblk5 V c 4 t = V c main_v11 := by
  funext y
  show V c main_v11 (((cfg5.win 4).blk t).view.emb y) = V c main_v11 y
  refine congrArg _ (funext fun a => Fin.ext ?_)
  match a with
  | ⟨0, _⟩ => show 0 * 1 + 1 * (y 0).val = (y 0).val; omega
  | ⟨1, _⟩ => show 0 * 64 + 1 * (y 1).val = (y 1).val; omega

/-- What the region's one point writes back is the body's result on the five whole arrays. -/
theorem flushed5 (c : Dev nD) (t : Fin cfg5.N) (G : Vec Ideal S4096x64 .f32)
    (hG : out5_5 (F := Ideal) (V c main_call0_v4) (V c main_v8) (V c main_v9) (V c main_v10) (V c main_v11) = G) :
    (dat5 V c).flushed 5 t = ((cfg5.win 5).blk t).view.read (Elt Ideal) G := by
  show (cfg5.win 5).cut (grid5.coords t) ((dat5 V c).after 5 t) = _
  rw [after5_5, iblk5_0, iblk5_1, iblk5_2, iblk5_3, iblk5_4, hG]
  funext j
  show G j = G (((cfg5.win 5).blk t).view.emb j)
  refine congrArg _ (funext fun a => Fin.ext ?_)
  match a with
  | ⟨0, _⟩ => show (j 0).val = 0 * 4096 + 1 * (j 0).val; omega
  | ⟨1, _⟩ => show (j 1).val = 0 * 64 + 1 * (j 1).val; omega

/-- The output array after the region: the body's result on the five whole arrays. -/
theorem final5 (c : Dev nD) (G : Vec Ideal S4096x64 .f32)
    (hG : out5_5 (F := Ideal) (V c main_call0_v4) (V c main_v8) (V c main_v9) (V c main_v10) (V c main_v11) = G) :
    (dat5 V c).arrAt 5 cfg5.N = G :=
  (dat5 V c).arrAt_eq_of_cover 5 G (fun t _ => flushed5 V c t G hG) (fun i => by
    refine ⟨t5_0, rfl, ?_⟩
    show i ∈ ((View.whole main_v12).slice (win5_5.rect t5_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩)

end Cert.KernelIdeal.Region5

end
-- ==== Proof.KernelValue.lean ====
/-
  The idealized kernel's result array as one function of the sixteen argument arrays.

  The program is: a stretch of host operations (the three weights transposed, the nine rows of biases and scales
  reshaped to 1 × 64), then six kernel regions, each reading arrays the earlier ones left: the pooling of text against
  image; a layer (transposed output); the product of the first affinity matrix with that; a layer (transposed output);
  the product of the second affinity matrix with that; a layer. Each region's output array after the region is a
  function of the arrays it finds at entry (the six region modules), every other buffer keeps its contents through a
  region, and composing the six gives the pipeline's function of the launch contents.
-/
import proofs.«169346_g86071144612153_cont_sun_m_685_13_alg».proof.Proof.Gen.KernelIdeal.Frame
import proofs.«169346_g86071144612153_cont_sun_m_685_13_alg».proof.Proof.Spec
import proofs.«169346_g86071144612153_cont_sun_m_685_13_alg».proof.Proof.Region0
import proofs.«169346_g86071144612153_cont_sun_m_685_13_alg».proof.Proof.Region1
import proofs.«169346_g86071144612153_cont_sun_m_685_13_alg».proof.Proof.Region2
import proofs.«169346_g86071144612153_cont_sun_m_685_13_alg».proof.Proof.Region3
import proofs.«169346_g86071144612153_cont_sun_m_685_13_alg».proof.Proof.Region4
import proofs.«169346_g86071144612153_cont_sun_m_685_13_alg».proof.Proof.Region5
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.ValueIdx

/-! ## Small layout readings -/

/-- A row reshaped to 1 × 64, read at (0, k), is the row at k. -/
theorem row_apply (x : S64.Idx → EReal) (k : Fin 64) : shapeCast S1x64 x shapeCasts_S64_S1x64 (ix2 0 k) = x (ix1 k) := by
  refine shapeCast_apply x shapeCasts_S64_S1x64 (ix2 0 k) (ix1 k) ?_
  rw [Shape.rowMajor_val_one, Shape.rowMajor_val_two]
  show k.val = 0 * 64 + k.val
  omega

/-- A transposed 64 × 64 matrix read at (c, k) is the matrix at (k, c). -/
theorem tr_apply (x : S64x64.Idx → EReal) (cc k : Fin 64) :
    transpose S64x64 [1, 0] x transposes_S64x64_S64x64_1_0 (ix2 cc k) = x (ix2 k cc) :=
  transpose_apply [1, 0] x transposes_S64x64_S64x64_1_0 (ix2 cc k) (ix2 k cc)
    (by intro a; match a with | ⟨0, _⟩ => rfl | ⟨1, _⟩ => rfl)

/-! ## The stages as arrays -/

/-- A layer's result from the arrays it reads: the input x, the weight W (untransposed), and the three rows. -/
def layerOf (x : S4096x64.Idx → EReal) (W : S64x64.Idx → EReal) (b g be : S64.Idx → EReal) : Fin 4096 → Fin 64 → EReal :=
  Cert.Spec.layer (fun r cc => x (ix2 r cc)) (fun cc k => W (ix2 k cc)) (fun k => b (ix1 k)) (fun k => g (ix1 k)) (fun k => be (ix1 k))

/-- The same, stored transposed (64 × 4096). -/
def layerT (x : S4096x64.Idx → EReal) (W : S64x64.Idx → EReal) (b g be : S64.Idx → EReal) : S64x4096.Idx → EReal :=
  fun i => layerOf x W b g be (i 1) (i 0)

/-- The same, stored as it is (4096 × 64). -/
def layerN (x : S4096x64.Idx → EReal) (W : S64x64.Idx → EReal) (b g be : S64.Idx → EReal) : S4096x64.Idx → EReal :=
  fun i => layerOf x W b g be (i 0) (i 1)

variable (m : (ℓ : Loc nD τ sig) → Buf (Elt Ideal) ℓ) (ρ : Dev nD → PrngReg) (c : Dev nD)

/-- The launch contents of an argument array on core c. -/
abbrev arg (b : Ref sig .tc) : Buf (Elt Ideal) ((c : Thread nD τ).loc b) := m ((c : Thread nD τ).loc b)

/-! ## The host stretch: what region 0 finds -/

theorem at1_arg0 : V1 m ρ c main_arg0 = arg m c main_arg0 := by
  show StableHlo.after hostOps0 (W0 m ρ c) (Proc.devRef .tc main_arg0) = _; after_results
theorem at1_arg1 : V1 m ρ c main_arg1 = arg m c main_arg1 := by
  show StableHlo.after hostOps0 (W0 m ρ c) (Proc.devRef .tc main_arg1) = _; after_results
theorem at1_arg2 : V1 m ρ c main_arg2 = arg m c main_arg2 := by
  show StableHlo.after hostOps0 (W0 m ρ c) (Proc.devRef .tc main_arg2) = _; after_results
theorem at1_arg3 : V1 m ρ c main_arg3 = arg m c main_arg3 := by
  show StableHlo.after hostOps0 (W0 m ρ c) (Proc.devRef .tc main_arg3) = _; after_results
theorem at1_v0 : (V1 m ρ c main_v0 : S64x64.Idx → EReal) = transpose S64x64 [1, 0] (arg m c main_arg4) transposes_S64x64_S64x64_1_0 := by
  show StableHlo.after hostOps0 (W0 m ρ c) (Proc.devRef .tc main_v0) = _; after_results
theorem at1_v1 : (V1 m ρ c main_v1 : S1x64.Idx → EReal) = shapeCast S1x64 (arg m c main_arg5) shapeCasts_S64_S1x64 := by
  show StableHlo.after hostOps0 (W0 m ρ c) (Proc.devRef .tc main_v1) = _; after_results; rfl
theorem at1_v2 : (V1 m ρ c main_v2 : S1x64.Idx → EReal) = shapeCast S1x64 (arg m c main_arg6) shapeCasts_S64_S1x64 := by
  show StableHlo.after hostOps0 (W0 m ρ c) (Proc.devRef .tc main_v2) = _; after_results; rfl
theorem at1_v3 : (V1 m ρ c main_v3 : S1x64.Idx → EReal) = shapeCast S1x64 (arg m c main_arg7) shapeCasts_S64_S1x64 := by
  show StableHlo.after hostOps0 (W0 m ρ c) (Proc.devRef .tc main_v3) = _; after_results; rfl
theorem at1_v4 : (V1 m ρ c main_v4 : S64x64.Idx → EReal) = transpose S64x64 [1, 0] (arg m c main_arg8) transposes_S64x64_S64x64_1_0 := by
  show StableHlo.after hostOps0 (W0 m ρ c) (Proc.devRef .tc main_v4) = _; after_results
theorem at1_v5 : (V1 m ρ c main_v5 : S1x64.Idx → EReal) = shapeCast S1x64 (arg m c main_arg9) shapeCasts_S64_S1x64 := by
  show StableHlo.after hostOps0 (W0 m ρ c) (Proc.devRef .tc main_v5) = _; after_results; rfl
theorem at1_v6 : (V1 m ρ c main_v6 : S1x64.Idx → EReal) = shapeCast S1x64 (arg m c main_arg10) shapeCasts_S64_S1x64 := by
  show StableHlo.after hostOps0 (W0 m ρ c) (Proc.devRef .tc main_v6) = _; after_results; rfl
theorem at1_v7 : (V1 m ρ c main_v7 : S1x64.Idx → EReal) = shapeCast S1x64 (arg m c main_arg11) shapeCasts_S64_S1x64 := by
  show StableHlo.after hostOps0 (W0 m ρ c) (Proc.devRef .tc main_v7) = _; after_results; rfl
theorem at1_v8 : (V1 m ρ c main_v8 : S64x64.Idx → EReal) = transpose S64x64 [1, 0] (arg m c main_arg12) transposes_S64x64_S64x64_1_0 := by
  show StableHlo.after hostOps0 (W0 m ρ c) (Proc.devRef .tc main_v8) = _; after_results
theorem at1_v9 : (V1 m ρ c main_v9 : S1x64.Idx → EReal) = shapeCast S1x64 (arg m c main_arg13) shapeCasts_S64_S1x64 := by
  show StableHlo.after hostOps0 (W0 m ρ c) (Proc.devRef .tc main_v9) = _; after_results; rfl
theorem at1_v10 : (V1 m ρ c main_v10 : S1x64.Idx → EReal) = shapeCast S1x64 (arg m c main_arg14) shapeCasts_S64_S1x64 := by
  show StableHlo.after hostOps0 (W0 m ρ c) (Proc.devRef .tc main_v10) = _; after_results; rfl
theorem at1_v11 : (V1 m ρ c main_v11 : S1x64.Idx → EReal) = shapeCast S1x64 (arg m c main_arg15) shapeCasts_S64_S1x64 := by
  show StableHlo.after hostOps0 (W0 m ρ c) (Proc.devRef .tc main_v11) = _; after_results; rfl

/-! ## Buffers a region does not own keep their contents through it -/

theorem keep2 (b : Ref sig .tc) (h : ∀ w, Pipeline.arrRef spec0 w ≠ b) : V2 m ρ c b = V1 m ρ c b := W2_of_ne m ρ c b h
theorem keep3 (b : Ref sig .tc) (h : ∀ w, Pipeline.arrRef spec1 w ≠ b) : V3 m ρ c b = V2 m ρ c b := W3_of_ne m ρ c b h
theorem keep4 (b : Ref sig .tc) (h : ∀ w, Pipeline.arrRef spec2 w ≠ b) : V4 m ρ c b = V3 m ρ c b := W4_of_ne m ρ c b h
theorem keep5 (b : Ref sig .tc) (h : ∀ w, Pipeline.arrRef spec3 w ≠ b) : V5 m ρ c b = V4 m ρ c b := W5_of_ne m ρ c b h
theorem keep6 (b : Ref sig .tc) (h : ∀ w, Pipeline.arrRef spec4 w ≠ b) : V6 m ρ c b = V5 m ρ c b := W6_of_ne m ρ c b h

/-! ## The regions in order -/

/-- A layer's body reads the transposed weight and the three reshaped rows: in terms of the arrays themselves. -/
theorem layer_args (x0 : S4096x64.Idx → EReal) (W : S64x64.Idx → EReal) (b g be : S64.Idx → EReal) :
    Cert.Spec.layer (fun r cc => x0 (ix2 r cc))
      (fun cc k => transpose S64x64 [1, 0] W transposes_S64x64_S64x64_1_0 (ix2 cc k))
      (fun k => shapeCast S1x64 b shapeCasts_S64_S1x64 (ix2 0 k))
      (fun k => shapeCast S1x64 g shapeCasts_S64_S1x64 (ix2 0 k))
      (fun k => shapeCast S1x64 be shapeCasts_S64_S1x64 (ix2 0 k)) = layerOf x0 W b g be := by
  unfold layerOf
  have hW : (fun cc k => transpose S64x64 [1, 0] W transposes_S64x64_S64x64_1_0 (ix2 cc k)) = fun cc k => W (ix2 k cc) :=
    funext fun cc => funext fun k => tr_apply W cc k
  simp only [row_apply]
  exact congrArg (fun wt => Cert.Spec.layer (fun r cc => x0 (ix2 r cc)) wt (fun k => b (ix1 k)) (fun k => g (ix1 k)) (fun k => be (ix1 k))) hW

section Chain

variable
    (hpool : ∀ (x0 x1 : Vec Ideal S256x64 .f32) (p : Fin 256) (i : Fin 64),
      out0_2 (F := Ideal) x0 x1 (ix2 p i) = Cert.Spec.pool (fun j => x0 (ix2 p j)) (fun j => x1 (ix2 p j)) i)
    (hl1 : ∀ (x0 : Vec Ideal S4096x64 .f32) (x1 : Vec Ideal S64x64 .f32) (x2 x3 x4 : Vec Ideal S1x64 .f32) (k : Fin 64) (r : Fin 4096),
      out1_5 (F := Ideal) x0 x1 x2 x3 x4 (ix2 k r) = Cert.Spec.layer (fun r cc => x0 (ix2 r cc)) (fun cc k => x1 (ix2 cc k))
        (fun k => x2 (ix2 0 k)) (fun k => x3 (ix2 0 k)) (fun k => x4 (ix2 0 k)) r k)
    (hl3 : ∀ (x0 : Vec Ideal S4096x64 .f32) (x1 : Vec Ideal S64x64 .f32) (x2 x3 x4 : Vec Ideal S1x64 .f32) (k : Fin 64) (r : Fin 4096),
      out3_5 (F := Ideal) x0 x1 x2 x3 x4 (ix2 k r) = Cert.Spec.layer (fun r cc => x0 (ix2 r cc)) (fun cc k => x1 (ix2 cc k))
        (fun k => x2 (ix2 0 k)) (fun k => x3 (ix2 0 k)) (fun k => x4 (ix2 0 k)) r k)
    (hl5 : ∀ (x0 : Vec Ideal S4096x64 .f32) (x1 : Vec Ideal S64x64 .f32) (x2 x3 x4 : Vec Ideal S1x64 .f32) (r : Fin 4096) (k : Fin 64),
      out5_5 (F := Ideal) x0 x1 x2 x3 x4 (ix2 r k) = Cert.Spec.layer (fun r cc => x0 (ix2 r cc)) (fun cc k => x1 (ix2 cc k))
        (fun k => x2 (ix2 0 k)) (fun k => x3 (ix2 0 k)) (fun k => x4 (ix2 0 k)) r k)

/-- The pooled array of the launch contents. -/
def stP : S4096x64.Idx → EReal := Region0.pooled (arg m c main_arg0) (arg m c main_arg1)
/-- The first layer, transposed. -/
def stH0 : S64x4096.Idx → EReal :=
  layerT (stP m c) (arg m c main_arg4) (arg m c main_arg5) (arg m c main_arg6) (arg m c main_arg7)
/-- The first propagation. -/
def stA1 : S4096x64.Idx → EReal := Region2.prodArr (stH0 m c) (arg m c main_arg2)
/-- The second layer, transposed. -/
def stH1 : S64x4096.Idx → EReal :=
  layerT (stA1 m c) (arg m c main_arg8) (arg m c main_arg9) (arg m c main_arg10) (arg m c main_arg11)
/-- The second propagation. -/
def stA2 : S4096x64.Idx → EReal := Region4.prodArr (stH1 m c) (arg m c main_arg3)
/-- The third layer: the result. -/
def stOut : S4096x64.Idx → EReal :=
  layerN (stA2 m c) (arg m c main_arg12) (arg m c main_arg13) (arg m c main_arg14) (arg m c main_arg15)

include hpool in
theorem arr0 : (dat0 (V1 m ρ) c).arrAt 2 cfg0.N = stP m c := by
  rw [Region0.final (V1 m ρ) hpool c, at1_arg0, at1_arg1]; rfl

include hpool hl1 in
theorem arr1 : (dat1 (V2 m ρ) c).arrAt 5 cfg1.N = stH0 m c := by
  refine Region1.final1 (V2 m ρ) c _ ?_
  have e0 : V2 m ρ c main_call0_v0 = stP m c := by
    show W2 m ρ c (Proc.devRef .tc (Pipeline.arrRef spec0 2)) = _
    exact (W2_arr m ρ c 2).trans (arr0 m ρ c hpool)
  have e1 := (keep2 m ρ c main_v0 (by decide)).trans (at1_v0 m ρ c)
  have e2 := (keep2 m ρ c main_v1 (by decide)).trans (at1_v1 m ρ c)
  have e3 := (keep2 m ρ c main_v2 (by decide)).trans (at1_v2 m ρ c)
  have e4 := (keep2 m ρ c main_v3 (by decide)).trans (at1_v3 m ρ c)
  rw [e0, e1, e2, e3, e4]
  funext i
  obtain ⟨k, r, rfl⟩ : ∃ (k : Fin 64) (r : Fin 4096), i = ix2 k r := ⟨i 0, i 1, eq_ix2 i⟩
  rw [hl1, layer_args]; rfl

include hpool hl1 in
theorem arr2 : (dat2 (V3 m ρ) c).arrAt 2 cfg2.N = stA1 m c := by
  have e0 : V3 m ρ c main_call0_v1 = stH0 m c := by
    show W3 m ρ c (Proc.devRef .tc (Pipeline.arrRef spec1 5)) = _
    exact (W3_arr m ρ c 5).trans (arr1 m ρ c hpool hl1)
  have e1 : V3 m ρ c main_arg2 = arg m c main_arg2 :=
    (keep3 m ρ c main_arg2 (by decide)).trans ((keep2 m ρ c main_arg2 (by decide)).trans (at1_arg2 m ρ c))
  rw [Region2.final (V3 m ρ) c, e0, e1]; rfl

include hpool hl1 hl3 in
theorem arr3 : (dat3 (V4 m ρ) c).arrAt 5 cfg3.N = stH1 m c := by
  refine Region3.final3 (V4 m ρ) c _ ?_
  have e0 : V4 m ρ c main_call0_v2 = stA1 m c := by
    show W4 m ρ c (Proc.devRef .tc (Pipeline.arrRef spec2 2)) = _
    exact (W4_arr m ρ c 2).trans (arr2 m ρ c hpool hl1)
  have e1 := (keep4 m ρ c main_v4 (by decide)).trans ((keep3 m ρ c main_v4 (by decide)).trans ((keep2 m ρ c main_v4 (by decide)).trans (at1_v4 m ρ c)))
  have e2 := (keep4 m ρ c main_v5 (by decide)).trans ((keep3 m ρ c main_v5 (by decide)).trans ((keep2 m ρ c main_v5 (by decide)).trans (at1_v5 m ρ c)))
  have e3 := (keep4 m ρ c main_v6 (by decide)).trans ((keep3 m ρ c main_v6 (by decide)).trans ((keep2 m ρ c main_v6 (by decide)).trans (at1_v6 m ρ c)))
  have e4 := (keep4 m ρ c main_v7 (by decide)).trans ((keep3 m ρ c main_v7 (by decide)).trans ((keep2 m ρ c main_v7 (by decide)).trans (at1_v7 m ρ c)))
  rw [e0, e1, e2, e3, e4]
  funext i
  obtain ⟨k, r, rfl⟩ : ∃ (k : Fin 64) (r : Fin 4096), i = ix2 k r := ⟨i 0, i 1, eq_ix2 i⟩
  rw [hl3, layer_args]; rfl

include hpool hl1 hl3 in
theorem arr4 : (dat4 (V5 m ρ) c).arrAt 2 cfg4.N = stA2 m c := by
  have e0 : V5 m ρ c main_call0_v3 = stH1 m c := by
    show W5 m ρ c (Proc.devRef .tc (Pipeline.arrRef spec3 5)) = _
    exact (W5_arr m ρ c 5).trans (arr3 m ρ c hpool hl1 hl3)
  have e1 : V5 m ρ c main_arg3 = arg m c main_arg3 :=
    (keep5 m ρ c main_arg3 (by decide)).trans ((keep4 m ρ c main_arg3 (by decide)).trans ((keep3 m ρ c main_arg3 (by decide)).trans
      ((keep2 m ρ c main_arg3 (by decide)).trans (at1_arg3 m ρ c))))
  rw [Region4.final (V5 m ρ) c, e0, e1]; rfl

include hpool hl1 hl3 hl5 in
theorem arr5 : (dat5 (V6 m ρ) c).arrAt 5 cfg5.N = stOut m c := by
  refine Region5.final5 (V6 m ρ) c _ ?_
  have e0 : V6 m ρ c main_call0_v4 = stA2 m c := by
    show W6 m ρ c (Proc.devRef .tc (Pipeline.arrRef spec4 2)) = _
    exact (W6_arr m ρ c 2).trans (arr4 m ρ c hpool hl1 hl3)
  have e1 := (keep6 m ρ c main_v8 (by decide)).trans ((keep5 m ρ c main_v8 (by decide)).trans ((keep4 m ρ c main_v8 (by decide)).trans ((keep3 m ρ c main_v8 (by decide)).trans ((keep2 m ρ c main_v8 (by decide)).trans (at1_v8 m ρ c)))))
  have e2 := (keep6 m ρ c main_v9 (by decide)).trans ((keep5 m ρ c main_v9 (by decide)).trans ((keep4 m ρ c main_v9 (by decide)).trans ((keep3 m ρ c main_v9 (by decide)).trans ((keep2 m ρ c main_v9 (by decide)).trans (at1_v9 m ρ c)))))
  have e3 := (keep6 m ρ c main_v10 (by decide)).trans ((keep5 m ρ c main_v10 (by decide)).trans ((keep4 m ρ c main_v10 (by decide)).trans ((keep3 m ρ c main_v10 (by decide)).trans ((keep2 m ρ c main_v10 (by decide)).trans (at1_v10 m ρ c)))))
  have e4 := (keep6 m ρ c main_v11 (by decide)).trans ((keep5 m ρ c main_v11 (by decide)).trans ((keep4 m ρ c main_v11 (by decide)).trans ((keep3 m ρ c main_v11 (by decide)).trans ((keep2 m ρ c main_v11 (by decide)).trans (at1_v11 m ρ c)))))
  rw [e0, e1, e2, e3, e4]
  funext i
  obtain ⟨r, k, rfl⟩ : ∃ (r : Fin 4096) (k : Fin 64), i = ix2 r k := ⟨i 0, i 1, eq_ix2 i⟩
  rw [hl5, layer_args]; rfl

include hpool hl1 hl3 hl5 in
/-- The result array at the last boundary is the third layer of the chain. -/
theorem result_arr : W7 m ρ c (Proc.devRef .tc main_v12) = stOut m c := by
  show W7 m ρ c (Proc.devRef .tc (Pipeline.arrRef spec5 5)) = _
  exact (W7_arr m ρ c 5).trans (arr5 m ρ c hpool hl1 hl3 hl5)

end Chain

/-- The chain is the pipeline's function of the launch contents, entry by entry. -/
theorem stOut_apply (r : Fin 4096) (k : Fin 64) :
    stOut m c (ix2 r k) = Cert.Spec.out
      (fun b j => arg m c main_arg0 (ix2 b j)) (fun b j => arg m c main_arg1 (ix2 b j))
      (fun b q => arg m c main_arg2 (ix2 b q)) (fun b q => arg m c main_arg3 (ix2 b q))
      (fun k' cc => arg m c main_arg4 (ix2 k' cc)) (fun k' => arg m c main_arg5 (ix1 k')) (fun k' => arg m c main_arg6 (ix1 k')) (fun k' => arg m c main_arg7 (ix1 k'))
      (fun k' cc => arg m c main_arg8 (ix2 k' cc)) (fun k' => arg m c main_arg9 (ix1 k')) (fun k' => arg m c main_arg10 (ix1 k')) (fun k' => arg m c main_arg11 (ix1 k'))
      (fun k' cc => arg m c main_arg12 (ix2 k' cc)) (fun k' => arg m c main_arg13 (ix1 k')) (fun k' => arg m c main_arg14 (ix1 k')) (fun k' => arg m c main_arg15 (ix1 k'))
      r k := rfl

end Cert.KernelIdeal.Value

end
-- ==== Proof.PoolBlockLayout.lean ====
/-
  Reading the pooling body's layout operations at an index given by coordinates.

  The body works on blocks turned so that the batch index rides last: a [64, 256] matrix is given a unit middle
  axis ([64, 1, 256]) or a unit leading axis ([1, 64, 256]) and spread over [64, 64, 256]; the middle axis of a
  [64, n, 256] array is cut into bands that are added to one another. Each lemma here reads one such operation
  at (i, j, p) as the operand at the coordinates it names. A column (i, ·, p) of a [64, n, 256] array is also
  read as a function of a natural number, so that a band's offset and a position inside the band add as numbers.
-/
import Idealize.ShloMosaic.Lib.ValueIdx
import Idealize.ShloMosaic.Lib.ValueLayout
import Idealize.ShloMosaic.Lib.Pipeline.Value

noncomputable section

namespace Cert.KernelIdeal.PoolBlock

open Idealize.ShloMosaic Idealize.ShloMosaic.ValueIdx

variable {α : Type}

/-! ## A unit middle axis added or dropped -/

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-! ## The two spreads over [64, 64, 256] -/

/-- A [64, 1, 256] array spread over [64, 64, 256] reads, at (i, j, p), the operand at (i, 0, p). -/
theorem broadcastTo_mid_apply (v : (⟨3, ![64, 1, 256]⟩ : Shape).Idx → α)
    (h : (⟨3, ![64, 1, 256]⟩ : Shape).Broadcasts ⟨3, ![64, 64, 256]⟩) (i : Fin 64) (j : Fin 64) (p : Fin 256) :
    broadcastTo ⟨3, ![64, 64, 256]⟩ v h (ix3 i j p) = v (ix3 i (0 : Fin 1) p) :=
  broadcastTo_apply v h (ix3 i j p) (ix3 i (0 : Fin 1) p) fun ax =>
    match ax with
    | ⟨0, _⟩ => rfl
    | ⟨1, _⟩ => rfl
    | ⟨2, _⟩ => rfl

/-- A [1, 64, 256] array spread over [64, 64, 256] reads, at (i, j, p), the operand at (0, j, p). -/
theorem broadcastTo_lead_apply (v : (⟨3, ![1, 64, 256]⟩ : Shape).Idx → α)
    (h : (⟨3, ![1, 64, 256]⟩ : Shape).Broadcasts ⟨3, ![64, 64, 256]⟩) (i : Fin 64) (j : Fin 64) (p : Fin 256) :
    broadcastTo ⟨3, ![64, 64, 256]⟩ v h (ix3 i j p) = v (ix3 (0 : Fin 1) j p) :=
  broadcastTo_apply v h (ix3 i j p) (ix3 (0 : Fin 1) j p) fun ax =>
    match ax with
    | ⟨0, _⟩ => rfl
    | ⟨1, _⟩ => rfl
    | ⟨2, _⟩ => rfl

/-! ## A column of a [64, n, 256] array as a function of a natural number -/

/-- The column (i, ·, p) of a [64, n, 256] array of extended reals, continued by zero past the end. -/
def col {n : ℕ} (X : (⟨3, ![64, n, 256]⟩ : Shape).Idx → EReal) (i : Fin 64) (p : Fin 256) (k : ℕ) : EReal :=
  if h : k < n then X (ix3 i ⟨k, h⟩ p) else 0

/-- An entry of the array is its column at the entry's middle coordinate. -/
theorem col_val {n : ℕ} (X : (⟨3, ![64, n, 256]⟩ : Shape).Idx → EReal) (i : Fin 64) (p : Fin 256) (j : Fin n) :
    X (ix3 i j p) = col X i p j.val := by
  unfold col; rw [dif_pos j.isLt]

/-- The column of a sum of two arrays is the sum of their columns. -/
theorem col_addf {n : ℕ} (A B : FVec Ideal ⟨3, ![64, n, 256]⟩ .f32) (i : Fin 64) (p : Fin 256) (k : ℕ) :
    col (addf A B) i p k = col A i p k + col B i p k := by
  unfold col
  by_cases h : k < n
  · rw [dif_pos h, dif_pos h, dif_pos h]; rfl
  · rw [dif_neg h, dif_neg h, dif_neg h, add_zero]

/-- The column of the band of m rows from row o, at a position k inside the band, is the array's column at o + k. -/
theorem col_slice {n m : ℕ} (o : ℕ) (X : (⟨3, ![64, n, 256]⟩ : Shape).Idx → EReal)
    (h : (⟨3, ![64, n, 256]⟩ : Shape).Slices ![0, o, 0] ⟨3, ![64, m, 256]⟩) (i : Fin 64) (p : Fin 256) (k : ℕ)
    (hk : k < m) :
    col (extractStridedSlice ⟨3, ![64, m, 256]⟩ ![0, o, 0] X h) i p k = col X i p (o + k) := by
  have hn : o + k < n := Nat.lt_of_lt_of_le (Nat.add_lt_add_left hk o) (h.2 1)
  unfold col
  rw [dif_pos hk, dif_pos hn]
  exact slice3_axis1_apply o X h i ⟨k, hk⟩ p ⟨o + k, hn⟩ rfl

end Cert.KernelIdeal.PoolBlock

end
-- ==== Proof.PoolBlockSum.lean ====
/-
  The pooling body's sum over the middle axis.

  The body adds the 64 rows of the middle axis of a [64, 64, 256] array not in order but as a tree: eight bands
  of eight rows are added in turn, giving a [64, 8, 256] array whose row a holds rows a, a + 8, …, a + 56; its
  halves are added (row a now also holds the rows of a + 4), then the halves of that (a + 2), then the two rows
  that are left. Every one of the 64 positions enters exactly once, and addition of extended reals is
  commutative and associative, so the result at (i, p) is Σ_j of the array at (i, j, p). The columns are read
  as functions of a natural number, so that offsets add as numbers.
-/
import proofs.«169346_g86071144612153_cont_sun_m_685_13_alg».proof.Proof.Gen.KernelIdeal
import proofs.«169346_g86071144612153_cont_sun_m_685_13_alg».proof.Proof.PoolBlockLayout

noncomputable section

namespace Cert.KernelIdeal.PoolBlock

open Idealize.ShloMosaic Idealize.ShloMosaic.ValueIdx
open Cert.KernelIdeal Cert.KernelIdeal.Gen

/-! ## The sum over the middle axis, as the body takes it -/

/-- Eight bands of eight rows of the middle axis, added in turn. -/
def bands8 (E : FVec Ideal S64x64x256 .f32) : FVec Ideal S64x8x256 .f32 :=
  addf (addf (addf (addf (addf (addf (addf
    (extractStridedSlice S64x8x256 ![0, 0, 0] E slices_S64x64x256_o0_0_0_S64x8x256)
    (extractStridedSlice S64x8x256 ![0, 8, 0] E slices_S64x64x256_o0_8_0_S64x8x256))
    (extractStridedSlice S64x8x256 ![0, 16, 0] E slices_S64x64x256_o0_16_0_S64x8x256))
    (extractStridedSlice S64x8x256 ![0, 24, 0] E slices_S64x64x256_o0_24_0_S64x8x256))
    (extractStridedSlice S64x8x256 ![0, 32, 0] E slices_S64x64x256_o0_32_0_S64x8x256))
    (extractStridedSlice S64x8x256 ![0, 40, 0] E slices_S64x64x256_o0_40_0_S64x8x256))
    (extractStridedSlice S64x8x256 ![0, 48, 0] E slices_S64x64x256_o0_48_0_S64x8x256))
    (extractStridedSlice S64x8x256 ![0, 56, 0] E slices_S64x64x256_o0_56_0_S64x8x256)

/-- The two halves of eight rows added. -/
def fold4 (X : FVec Ideal S64x8x256 .f32) : FVec Ideal S64x4x256 .f32 :=
  addf (extractStridedSlice S64x4x256 ![0, 0, 0] X slices_S64x8x256_o0_0_0_S64x4x256)
    (extractStridedSlice S64x4x256 ![0, 4, 0] X slices_S64x8x256_o0_4_0_S64x4x256)

/-- The two halves of four rows added. -/
def fold2 (X : FVec Ideal S64x4x256 .f32) : FVec Ideal S64x2x256 .f32 :=
  addf (extractStridedSlice S64x2x256 ![0, 0, 0] X slices_S64x4x256_o0_0_0_S64x2x256)
    (extractStridedSlice S64x2x256 ![0, 2, 0] X slices_S64x4x256_o0_2_0_S64x2x256)

/-- The two rows that are left added, the unit middle axis dropped. -/
def fold1 (X : FVec Ideal S64x2x256 .f32) : FVec Ideal S64x256 .f32 :=
  addf
    (shapeCast S64x256 (extractStridedSlice S64x1x256 ![0, 0, 0] X slices_S64x2x256_o0_0_0_S64x1x256)
      shapeCasts_S64x1x256_S64x256)
    (shapeCast S64x256 (extractStridedSlice S64x1x256 ![0, 1, 0] X slices_S64x2x256_o0_1_0_S64x1x256)
      shapeCasts_S64x1x256_S64x256)

theorem col_bands8 (E : FVec Ideal S64x64x256 .f32) (i : Fin 64) (p : Fin 256) (k : ℕ) (hk : k < 8) :
    col (bands8 E) i p k
      = col E i p (0 + k) + col E i p (8 + k) + col E i p (16 + k) + col E i p (24 + k) + col E i p (32 + k)
        + col E i p (40 + k) + col E i p (48 + k) + col E i p (56 + k) := by
  unfold bands8
  rw [col_addf, col_addf, col_addf, col_addf, col_addf, col_addf, col_addf,
    col_slice 0 E _ i p k hk, col_slice 8 E _ i p k hk, col_slice 16 E _ i p k hk, col_slice 24 E _ i p k hk,
    col_slice 32 E _ i p k hk, col_slice 40 E _ i p k hk, col_slice 48 E _ i p k hk, col_slice 56 E _ i p k hk]

theorem col_fold4 (X : FVec Ideal S64x8x256 .f32) (i : Fin 64) (p : Fin 256) (k : ℕ) (hk : k < 4) :
    col (fold4 X) i p k = col X i p (0 + k) + col X i p (4 + k) := by
  unfold fold4
  rw [col_addf, col_slice 0 X _ i p k hk, col_slice 4 X _ i p k hk]

theorem col_fold2 (X : FVec Ideal S64x4x256 .f32) (i : Fin 64) (p : Fin 256) (k : ℕ) (hk : k < 2) :
    col (fold2 X) i p k = col X i p (0 + k) + col X i p (2 + k) := by
  unfold fold2
  rw [col_addf, col_slice 0 X _ i p k hk, col_slice 2 X _ i p k hk]

theorem fold1_apply (X : FVec Ideal S64x2x256 .f32) (i : Fin 64) (p : Fin 256) :
    fold1 X (ix2 i p) = col X i p 0 + col X i p 1 := by
  unfold fold1
  rw [addf_apply, shapeCast_a1b_ab_apply, shapeCast_a1b_ab_apply]
  refine congrArg₂ (· + ·) ?_ ?_
  · exact (slice3_axis1_apply 0 X _ i (0 : Fin 1) p (0 : Fin 2) rfl).trans (col_val X i p (0 : Fin 2))
  · exact (slice3_axis1_apply 1 X _ i (0 : Fin 1) p (1 : Fin 2) rfl).trans (col_val X i p (1 : Fin 2))

/-- The sum over the middle axis as the body takes it. -/
def denom (E : FVec Ideal S64x64x256 .f32) : FVec Ideal S64x256 .f32 := fold1 (fold2 (fold4 (bands8 E)))

/-- It is the sum over the middle axis: each of the 64 positions enters once. -/
theorem denom_apply (E : FVec Ideal S64x64x256 .f32) (i : Fin 64) (p : Fin 256) :
    denom E (ix2 i p) = ∑ j : Fin 64, E (ix3 i j p) := by
  unfold denom
  rw [fold1_apply]
  simp (disch := omega) only [col_fold2, col_fold4, col_bands8, Nat.reduceAdd]
  rw [show (∑ j : Fin 64, E (ix3 i j p)) = ∑ j : Fin 64, col E i p j.val from
    Finset.sum_congr rfl fun j _ => col_val E i p j]
  rw [Fin.sum_univ_eq_sum_range (fun k => col E i p k) 64]
  simp only [Finset.sum_range_succ, Finset.sum_range_zero, zero_add]
  ac_rfl

end Cert.KernelIdeal.PoolBlock

end
-- ==== Proof.PoolBlock.lean ====
/-
  The pooling body at an index.

  For one block of 256 rows the body receives the text block and the image block (256 × 64 each) and leaves the
  256 × 64 block whose entry (p, i) is 1 / Σ_j exp (s_j − max_j s_j), with s_j = (text p i · 1/8) · image p j.
  It computes this with the batch index p riding last:
    * the scores, a [64, 64, 256] array: entry (i, j, p) is (text p i · 1/8) · image p j;
    * their maximum over the middle axis, subtracted, and the exponential;
    * the sum over the middle axis, taken as a tree of additions of bands of rows (read as the plain sum in the
      module of that sum);
    * 1 divided by that, turned back to 256 × 64.
  Each stage is named as a function of the stage before it and read at an index; the body's value is their
  composition, by unfolding.
-/
import proofs.«169346_g86071144612153_cont_sun_m_685_13_alg».proof.Proof.Gen.KernelIdeal.Frame
import proofs.«169346_g86071144612153_cont_sun_m_685_13_alg».proof.Proof.Spec
import proofs.«169346_g86071144612153_cont_sun_m_685_13_alg».proof.Proof.PoolBlockLayout
import proofs.«169346_g86071144612153_cont_sun_m_685_13_alg».proof.Proof.PoolBlockSum
import Idealize.ShloMosaic.PureOps.Ideal.Laws

noncomputable section

namespace Cert.KernelIdeal.PoolBlock

open Idealize.ShloMosaic Idealize.ShloMosaic.ValueIdx
open Cert.KernelIdeal Cert.KernelIdeal.Gen

/-! ## The scores -/

/-- The scores of a block, the batch index last. -/
def scores (v0 v4 : Vec Ideal S256x64 .f32) : FVec Ideal S64x64x256 .f32 :=
  mulf
    (broadcastTo S64x64x256
      (shapeCast S64x1x256
        (mulf (transpose S64x256 [1, 0] v0 transposes_S256x64_p1_0_S64x256)
          (broadcast S64x256 (Scalar.ofBits (F := Ideal) .f32 0x3E000000#32)))
        shapeCasts_S64x256_S64x1x256)
      broadcasts_S64x1x256_S64x64x256)
    (broadcastTo S64x64x256
      (shapeCast S1x64x256 (transpose S64x256 [1, 0] v4 transposes_S256x64_p1_0_S64x256)
        shapeCasts_S64x256_S1x64x256)
      broadcasts_S1x64x256_S64x64x256)

/-- Entry (i, j, p) of the scores is (text p i · 1/8) · image p j. -/
theorem scores_apply (v0 v4 : Vec Ideal S256x64 .f32) (i j : Fin 64) (p : Fin 256) :
    scores v0 v4 (ix3 i j p) = (v0 (ix2 p i) * Cert.Spec.wEighth) * v4 (ix2 p j) := by
  unfold scores
  rw [mulf_apply, broadcastTo_mid_apply, broadcastTo_lead_apply, shapeCast_ab_a1b_apply, shapeCast_ab_1ab_apply,
    mulf_apply, transpose_ix2_apply, transpose_ix2_apply, broadcast_apply]
  rfl

/-! ## The maximum over the middle axis, the shift and the exponential -/

/-- The maximum over the middle axis of a [64, 64, 256] array, at (i, p): the 64 values of the column (i, ·, p)
    folded with max from −∞. -/
theorem colMax_apply (s : FVec Ideal S64x64x256 .f32) (i : Fin 64) (p : Fin 256) :
    multiReduction .maximumf [1] S64x256 s 0xFF800000#32 reduces_S64x64x256_S64x256 (.inl rfl) rfl (ix2 i p)
      = (Finset.univ : Finset (Fin 64)).fold max Cert.Spec.wNegInf (fun k => s (ix3 i k p)) := by
  refine (Ideal.multiReduction_maximumf_single s 0xFF800000#32 reduces_S64x64x256_S64x256 (.inl rfl) rfl (ix2 i p)).trans ?_
  show (Finset.univ : Finset (Fin 64)).fold max Cert.Spec.wNegInf
      (fun k => s (reduces_S64x64x256_S64x256.lift (ix2 i p) k)) = _
  refine congrArg (fun f => (Finset.univ : Finset (Fin 64)).fold max Cert.Spec.wNegInf f) (funext fun k => ?_)
  refine congrArg s (funext fun c => ?_)
  match c with
  | ⟨0, _⟩ => exact Fin.ext rfl
  | ⟨1, _⟩ => exact Fin.ext rfl
  | ⟨2, _⟩ => exact Fin.ext rfl

/-- The scores less their maximum over the middle axis, exponentiated. -/
def expShifted (s : FVec Ideal S64x64x256 .f32) : FVec Ideal S64x64x256 .f32 :=
  exp (subf s
    (broadcastTo S64x64x256
      (shapeCast S64x1x256
        (multiReduction .maximumf [1] S64x256 s 0xFF800000#32 reduces_S64x64x256_S64x256 (.inl rfl) rfl)
        shapeCasts_S64x256_S64x1x256)
      broadcasts_S64x1x256_S64x64x256))

/-- Entry (i, j, p) of it is exp (s (i, j, p) − max_k s (i, k, p)). -/
theorem expShifted_apply (s : FVec Ideal S64x64x256 .f32) (i j : Fin 64) (p : Fin 256) :
    expShifted s (ix3 i j p)
      = Ideal.exp (s (ix3 i j p) - (Finset.univ : Finset (Fin 64)).fold max Cert.Spec.wNegInf (fun k => s (ix3 i k p))) := by
  unfold expShifted
  show Ideal.exp (subf s _ (ix3 i j p)) = _
  rw [subf_apply, broadcastTo_mid_apply, shapeCast_ab_a1b_apply, colMax_apply]

/-! ## The reciprocal, the turn back, and the whole body -/

/-- 1 over a [64, 256] array, turned to [256, 64]. -/
def recipT (d : FVec Ideal S64x256 .f32) : FVec Ideal S256x64 .f32 :=
  transpose S256x64 [1, 0] (divf (broadcast S64x256 (Scalar.ofBits (F := Ideal) .f32 0x3F800000#32)) d)
    transposes_S64x256_p1_0_S256x64

/-- Entry (p, i) of it is 1 / d (i, p). -/
theorem recipT_apply (d : FVec Ideal S64x256 .f32) (p : Fin 256) (i : Fin 64) :
    recipT d (ix2 p i) = Ideal.div Cert.Spec.wOne (d (ix2 i p)) := by
  unfold recipT
  rw [transpose_ix2_apply, divf_apply, broadcast_apply]
  rfl

/-- The body's one stored value is the composition of the stages: its text is theirs, unfolded. -/
theorem pay_eq (v0 v4 : Vec Ideal S256x64 .f32) :
    k0_pay1 (F := Ideal) v0 v4 = recipT (denom (expShifted (scores v0 v4))) := rfl

/-- The whole-block rectangle's offsets are zero. -/
theorem offsets_zero : (![0, 0] : Fin 2 → Nat) = fun _ => 0 := funext fun a => by fin_cases a <;> rfl

/-- What the body leaves in the output block, at row p and entry i: the pooled entry of the row's text and image. -/
theorem out0_2_apply (x0 x1 : Vec Ideal S256x64 .f32) (p : Fin 256) (i : Fin 64) :
    Cert.KernelIdeal.Gen.out0_2 (F := Ideal) x0 x1 (ix2 p i)
      = Cert.Spec.pool (fun j => x0 (ix2 p j)) (fun j => x1 (ix2 p j)) i := by
  have e : Cert.KernelIdeal.Gen.out0_2 (F := Ideal) x0 x1 = recipT (denom (expShifted (scores x0 x1))) := by
    unfold Cert.KernelIdeal.Gen.out0_2
    rw [View.canon_unit_zero offsets_zero]
    simp only [View.ld_unit_zero (S := S256x64) offsets_zero]
    exact pay_eq x0 x1
  rw [e, recipT_apply, denom_apply]
  simp only [expShifted_apply, scores_apply]
  rfl

end Cert.KernelIdeal.PoolBlock

end
-- ==== Proof.LibBlockedRowSum.lean ====
/-
  A column sum over 4096 rows, taken the way a row-blocked reduction takes it, is the plain sum.

  The rows are numbered r = 128·m + 8·u + l with m < 32, u < 16, l < 8. The reduction first adds the 32
  slices m = 0, …, 31 one after another, then the 16 slices u = 0, …, 15 one after another, and at last folds
  the 8 remaining rows l by halves: (l, l + 4), then (l, l + 2), then (0, 1). Addition in a commutative monoid
  is associative and commutative, so every such order gives the sum over all 4096 rows; the three stages are
  stated here as three small functions and each is shown to be the sum over its index, and the three-fold sum
  is re-indexed along the bijection (l, u, m) ↦ 128·m + 8·u + l.
-/
import Mathlib.Algebra.BigOperators.Fin
import Mathlib.Logic.Equiv.Fin.Basic

namespace Cert.BlockedRowSum

variable {M : Type*}

/-- Thirty-two terms added one after another, first to last. -/
def seq32 [Add M] (g : Fin 32 → M) : M :=
  g 0 + g 1 + g 2 + g 3 + g 4 + g 5 + g 6 + g 7 + g 8 + g 9 + g 10 + g 11 + g 12 + g 13 + g 14 + g 15
    + g 16 + g 17 + g 18 + g 19 + g 20 + g 21 + g 22 + g 23 + g 24 + g 25 + g 26 + g 27 + g 28 + g 29 + g 30 + g 31

/-- Sixteen terms added one after another, first to last. -/
def seq16 [Add M] (g : Fin 16 → M) : M :=
  g 0 + g 1 + g 2 + g 3 + g 4 + g 5 + g 6 + g 7 + g 8 + g 9 + g 10 + g 11 + g 12 + g 13 + g 14 + g 15

/-- Eight terms folded by halves: l with l + 4, then l with l + 2, then 0 with 1. -/
def fold8 [Add M] (g : Fin 8 → M) : M :=
  ((g 0 + g 4) + (g 2 + g 6)) + ((g 1 + g 5) + (g 3 + g 7))

theorem seq32_eq_sum [AddCommMonoid M] (g : Fin 32 → M) : seq32 g = ∑ m, g m := by
  simp only [Fin.sum_univ_castSucc, Fin.sum_univ_zero, zero_add]
  rfl

theorem seq16_eq_sum [AddCommMonoid M] (g : Fin 16 → M) : seq16 g = ∑ u, g u := by
  simp only [Fin.sum_univ_castSucc, Fin.sum_univ_zero, zero_add]
  rfl

theorem fold8_eq_sum [AddCommMonoid M] (g : Fin 8 → M) : fold8 g = ∑ l, g l := by
  rw [Fin.sum_univ_eight]
  unfold fold8
  ac_rfl

/-- Row 128·m + 8·u + l of the 4096. -/
def row (m : Fin 32) (u : Fin 16) (l : Fin 8) : Fin 4096 :=
  ⟨(m.val * 16 + u.val) * 8 + l.val, by omega⟩

/-- The rows are exactly the triples (l, u, m). -/
def rowEquiv : Fin 8 × Fin 16 × Fin 32 ≃ Fin 4096 where
  toFun p := row p.2.2 p.2.1 p.1
  invFun r := (⟨r.val % 8, by omega⟩, ⟨r.val / 8 % 16, by omega⟩, ⟨r.val / 128, by omega⟩)
  left_inv p := by
    obtain ⟨l, u, m⟩ := p
    refine Prod.ext (Fin.ext ?_) (Prod.ext (Fin.ext ?_) (Fin.ext ?_))
    · show ((m.val * 16 + u.val) * 8 + l.val) % 8 = l.val
      omega
    · show ((m.val * 16 + u.val) * 8 + l.val) / 8 % 16 = u.val
      omega
    · show ((m.val * 16 + u.val) * 8 + l.val) / 128 = m.val
      omega
  right_inv r := by
    apply Fin.ext
    show (r.val / 128 * 16 + r.val / 8 % 16) * 8 + r.val % 8 = r.val
    omega

/-- The three-fold sum over (l, u, m) is the sum over the 4096 rows. -/
theorem sum_rows [AddCommMonoid M] (f : Fin 4096 → M) :
    ∑ l : Fin 8, ∑ u : Fin 16, ∑ m : Fin 32, f (row m u l) = ∑ r, f r := by
  rw [← Equiv.sum_comp rowEquiv f, Fintype.sum_prod_type]
  refine Finset.sum_congr rfl fun l _ => ?_
  rw [Fintype.sum_prod_type]
  rfl

/-- The blocked reduction — 32 slices in sequence, 16 slices in sequence, 8 rows by halves — is the sum over
    the 4096 rows. -/
theorem blocked_eq_sum [AddCommMonoid M] (f : Fin 4096 → M) :
    fold8 (fun l => seq16 fun u => seq32 fun m => f (row m u l)) = ∑ r, f r := by
  rw [fold8_eq_sum, ← sum_rows f]
  refine Finset.sum_congr rfl fun l _ => ?_
  rw [seq16_eq_sum]
  refine Finset.sum_congr rfl fun u _ => ?_
  rw [seq32_eq_sum]

end Cert.BlockedRowSum
-- ==== Proof.LibBlockedRowLayout.lean ====
/-
  Layout operations of the row-blocked reduction, read at an index given by coordinates.

  * A slab cut along the LEADING axis of a rank-4 or rank-3 array at offset o and of thickness 1, with its unit
    axis dropped, reads at (a, b, c) the source at (o, a, b, c).
  * A slab cut along the leading axis of a rank-3 array, kept with its axis, reads at (j, b, c) the source at
    (o + j, b, c).
  * A [4096, 64] array regrouped as [32, 16, 8, 64] reads at (m, u, l, c) row 128·m + 8·u + l, column c: both
    positions in row-major order are ((m·16 + u)·8 + l)·64 + c.
  They are the library's index lemmas (a slice shifts by its offsets, a shape cast keeps the row-major position)
  at these ranks.
-/
import Idealize.ShloMosaic.Lib.ValueIdx
import Idealize.ShloMosaic.Lib.Pipeline.Value
import Idealize.ShloMosaic.Lib.ValueLayout
import proofs.«169346_g86071144612153_cont_sun_m_685_13_alg».proof.Proof.LibBlockedRowSum

namespace Cert.BlockedRowLayout

open Idealize.ShloMosaic Idealize.ShloMosaic.ValueIdx

variable {α : Type}

/-- A rank-4 array cut along axis 0 from `o` reads, at `(j, a, b, c)`, the source at `(o + j, a, b, c)`. -/
theorem slice4_axis0_eq {n0 n1 n2 n3 m : Nat} (o : Nat) (X : (⟨4, ![n0, n1, n2, n3]⟩ : Shape).Idx → α)
    (h : (⟨4, ![n0, n1, n2, n3]⟩ : Shape).Slices ![o, 0, 0, 0] ⟨4, ![m, n1, n2, n3]⟩)
    (j : Fin m) (a : Fin n1) (b : Fin n2) (c : Fin n3) :
    extractStridedSlice ⟨4, ![m, n1, n2, n3]⟩ ![o, 0, 0, 0] X h (ix4 j a b c)
      = X (ix4 ⟨o + j.val, Nat.lt_of_lt_of_le (Nat.add_lt_add_left j.isLt o) (h.2 0)⟩ a b c) :=
  extractStridedSlice_apply _ _ _ _ _ (fun ax => by
    match ax with
    | ⟨0, _⟩ => rfl
    | ⟨1, _⟩ => exact (Nat.zero_add _).symm
    | ⟨2, _⟩ => exact (Nat.zero_add _).symm
    | ⟨3, _⟩ => exact (Nat.zero_add _).symm)

/-- A rank-3 array cut along axis 0 from `o` reads, at `(j, b, c)`, the source at `(o + j, b, c)`. -/
theorem slice3_axis0_eq {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) :
    extractStridedSlice ⟨3, ![m, n1, n2]⟩ ![o, 0, 0] X h (ix3 j b c)
      = X (ix3 ⟨o + j.val, Nat.lt_of_lt_of_le (Nat.add_lt_add_left j.isLt o) (h.2 0)⟩ b c) :=
  extractStridedSlice_apply _ _ _ _ _ (fun ax => by
    match ax with
    | ⟨0, _⟩ => rfl
    | ⟨1, _⟩ => exact (Nat.zero_add _).symm
    | ⟨2, _⟩ => exact (Nat.zero_add _).symm)

/-- Slab `o` of a rank-4 array, its unit axis dropped, reads at `(a, b, c)` the source at `(o, a, b, c)`. -/
theorem slab4_apply {n0 n1 n2 n3 : Nat} (o : Nat) (X : (⟨4, ![n0, n1, n2, n3]⟩ : Shape).Idx → α)
    (h : (⟨4, ![n0, n1, n2, n3]⟩ : Shape).Slices ![o, 0, 0, 0] ⟨4, ![1, n1, n2, n3]⟩)
    (h2 : (⟨4, ![1, n1, n2, n3]⟩ : Shape).ShapeCasts ⟨3, ![n1, n2, n3]⟩) (a : Fin n1) (b : Fin n2) (c : Fin n3) :
    shapeCast ⟨3, ![n1, n2, n3]⟩ (extractStridedSlice ⟨4, ![1, n1, n2, n3]⟩ ![o, 0, 0, 0] X h) h2 (ix3 a b c)
      = X (ix4 ⟨o, Nat.lt_of_lt_of_le (Nat.lt_succ_self o) (h.2 0)⟩ a b c) :=
  (shapeCast_1abc_abc_apply _ h2 a b c).trans (slice4_axis0_eq o X h 0 a b c)

/-- Slab `o` of a rank-3 array, its unit axis dropped, reads at `(b, c)` the source at `(o, b, c)`. -/
theorem slab3_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (h2 : (⟨3, ![1, n1, n2]⟩ : Shape).ShapeCasts ⟨2, ![n1, n2]⟩) (b : Fin n1) (c : Fin n2) :
    shapeCast ⟨2, ![n1, n2]⟩ (extractStridedSlice ⟨3, ![1, n1, n2]⟩ ![o, 0, 0] X h) h2 (ix2 b c)
      = X (ix3 ⟨o, Nat.lt_of_lt_of_le (Nat.lt_succ_self o) (h.2 0)⟩ b c) :=
  (shapeCast_1ab_ab_apply _ h2 b c).trans (slice3_axis0_eq o X h 0 b c)

/-- The 4096 rows regrouped as 32 × 16 × 8: entry `(m, u, l, c)` is row 128·m + 8·u + l, column `c`. -/
theorem regroup_apply (X : (⟨2, ![4096, 64]⟩ : Shape).Idx → α)
    (h : (⟨2, ![4096, 64]⟩ : Shape).ShapeCasts ⟨4, ![32, 16, 8, 64]⟩)
    (m : Fin 32) (u : Fin 16) (l : Fin 8) (c : Fin 64) :
    shapeCast ⟨4, ![32, 16, 8, 64]⟩ X h (ix4 m u l c) = X (ix2 (Cert.BlockedRowSum.row m u l) c) :=
  shapeCast_apply X h _ _ (by
    rw [Shape.rowMajor_val_two, Shape.rowMajor_val_four]
    rfl)

end Cert.BlockedRowLayout
-- ==== Proof.BnLinCentred1.lean ====
/-
  Linear + batch normalisation + positive part, first half: the linear map and the centred value.

  With x the layer's input (4096 rows of 64), wt the transposed weight (64 × 64) and b the bias row, the body first
  forms y = x · wt + b (a block product of the two operands narrowed to 16 bits — the identity on the extended
  reals — into the zero accumulator, plus the bias broadcast down the rows), then the column sums of y the blocked
  way: y is regrouped as [32, 16, 8, 64] (row 128·m + 8·u + l), the 32 slabs m are added one after another, then the
  16 slabs u one after another, then the 8 rows l are folded by halves; the total is multiplied by the word of
  1/4096 and subtracted from y. Both are read here at an entry (r, k) and identified with the specification's
  `lin` and `centred`: the sum of products by re-indexing the one contracted coordinate, the blocked sum by the
  general lemma that it is the sum over the 4096 rows.
-/
import proofs.«169346_g86071144612153_cont_sun_m_685_13_alg».proof.Proof.Gen.KernelIdeal.Skeleton
import proofs.«169346_g86071144612153_cont_sun_m_685_13_alg».proof.Proof.Spec
import proofs.«169346_g86071144612153_cont_sun_m_685_13_alg».proof.Proof.LibBlockedRowLayout
import Idealize.ShloMosaic.PureOps.Ideal.Laws

namespace Cert.KernelIdeal.BnLinCentred1

open Idealize.ShloMosaic Idealize.ShloMosaic.ValueIdx Cert.KernelIdeal Cert.BlockedRowSum Cert.BlockedRowLayout

/-- The linear map: the block product into the zero accumulator, read at (r, k), is the sum over the one contracted
    coordinate c of x (r, c) · wt (c, k) — the narrowing of both operands is the identity on the extended reals —
    and the bias row, broadcast down the rows, adds b k. -/
theorem lin_apply (x0 : Vec Ideal S4096x64 .f32) (x1 : Vec Ideal S64x64 .f32) (x2 : Vec Ideal S1x64 .f32)
    (r : Fin 4096) (k : Fin 64) :
    Gen.k1_pay1 (F := Ideal) x0 x1 x2 (ix2 r k)
      = Cert.Spec.lin (fun r c => x0 (ix2 r c)) (fun c k => x1 (ix2 c k)) (fun k => x2 (ix2 0 k)) r k := by
  unfold Gen.k1_pay1
  simp only [addf_apply, shapeCast_self, broadcastTo_1b_ab_apply, matmul, Ideal.matmul_constant_zero_apply, truncf_apply]
  unfold Cert.Spec.lin
  refine congrArg (· + x2 (ix2 0 k)) ?_
  -- the contraction index has one coordinate, ranging over the 64 columns of x
  rw [← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  -- the left operand is read at (r, c): its row is the output's row, its column the contracted coordinate
  have l2 : dot_S4096x64_S64x64_S4096x64_1_0_0_1_n_n.lhsIdx (ix2 r k) ((contrEquiv1 _ 64 rfl rfl).symm c) = ix2 r c := by
    funext ax; apply Fin.ext
    match ax with
    | ⟨0, _⟩ => simp [DotDims.lhsIdx, dot_S4096x64_S64x64_S4096x64_1_0_0_1_n_n]; rfl
    | ⟨1, _⟩ => exact (DotDims.lhsIdx_val_of_single _ rfl _ _).trans c2
  -- the right operand is read at (c, k): its row is the contracted coordinate, its column the output's column
  have r2 : dot_S4096x64_S64x64_S4096x64_1_0_0_1_n_n.rhsIdx (ix2 r k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S4096x64_S64x64_S4096x64_1_0_0_1_n_n]; rfl
  rw [l2, r2]

/-- The regrouped array at (m, u, l, c) is y at row 128·m + 8·u + l, column c. -/
theorem pay2_apply (x0 : Vec Ideal S4096x64 .f32) (x1 : Vec Ideal S64x64 .f32) (x2 : Vec Ideal S1x64 .f32)
    (m : Fin 32) (u : Fin 16) (l : Fin 8) (c : Fin 64) :
    Gen.k1_pay2 (F := Ideal) x0 x1 x2 (ix4 m u l c) = Gen.k1_pay1 x0 x1 x2 (ix2 (row m u l) c) := by
  unfold Gen.k1_pay2
  exact regroup_apply _ _ m u l c

/-- After the two runs of slab additions (slabs 0 … 13, then 14 … 31) entry (u, l, c) holds the 32 slabs m of the
    regrouped array at (m, u, l, c), added first to last. -/
theorem pay4_apply (x0 : Vec Ideal S4096x64 .f32) (x1 : Vec Ideal S64x64 .f32) (x2 : Vec Ideal S1x64 .f32)
    (u : Fin 16) (l : Fin 8) (c : Fin 64) :
    Gen.k1_pay4 (F := Ideal) (Gen.k1_pay2 x0 x1 x2) (Gen.k1_pay3 x0 x1 x2) (ix3 u l c)
      = seq32 fun m => Gen.k1_pay2 x0 x1 x2 (ix4 m u l c) := by
  unfold Gen.k1_pay4 Gen.k1_pay3
  simp only [addf_apply, slab4_apply]
  rfl

/-- The first two slabs u = 0, 1 of that partial sum, added. -/
theorem pay5_apply (v11 : FVec Ideal S32x16x8x64 .f32) (v52 : FVec Ideal S16x8x64 .f32) (l : Fin 8) (c : Fin 64) :
    Gen.k1_pay5 (F := Ideal) v11 v52 (ix2 l c)
      = Gen.k1_pay4 v11 v52 (ix3 0 l c) + Gen.k1_pay4 v11 v52 (ix3 1 l c) := by
  unfold Gen.k1_pay5
  simp only [addf_apply, slab3_apply]
  rfl

/-- The third slab u = 2 of that partial sum, kept with its unit axis. -/
theorem pay6_apply (v11 : FVec Ideal S32x16x8x64 .f32) (v52 : FVec Ideal S16x8x64 .f32) (l : Fin 8) (c : Fin 64) :
    Gen.k1_pay6 (F := Ideal) v11 v52 (ix3 (0 : Fin 1) l c) = Gen.k1_pay4 v11 v52 (ix3 2 l c) := by
  unfold Gen.k1_pay6
  exact slice3_axis0_eq 2 _ _ 0 l c

/-- The centred value in terms of the three carried pieces: row l of the second stage is the two slabs already added,
    the third, and slabs 3 … 15 of the partial sum, added in that order; the eight rows are folded by halves; the total
    times the word of 1/4096 is broadcast down the rows and subtracted from y. -/
theorem pay7_apply (v10 : FVec Ideal S4096x64 .f32) (v106 : FVec Ideal S16x8x64 .f32) (v111 : FVec Ideal S8x64 .f32)
    (v112 : FVec Ideal S1x8x64 .f32) (r : Fin 4096) (k : Fin 64) :
    Gen.k1_pay7 (F := Ideal) v10 v106 v111 v112 (ix2 r k)
      = v10 (ix2 r k) - fold8 (fun l => v111 (ix2 l k) + v112 (ix3 (0 : Fin 1) l k) + v106 (ix3 3 l k) + v106 (ix3 4 l k)
          + v106 (ix3 5 l k) + v106 (ix3 6 l k) + v106 (ix3 7 l k) + v106 (ix3 8 l k) + v106 (ix3 9 l k)
          + v106 (ix3 10 l k) + v106 (ix3 11 l k) + v106 (ix3 12 l k) + v106 (ix3 13 l k) + v106 (ix3 14 l k)
          + v106 (ix3 15 l k)) * Ideal.ofBits .f32 0x39800000#32 := by
  unfold Gen.k1_pay7
  simp only [subf_apply, broadcastTo_1b_ab_apply, mulf_apply, broadcast_apply, addf_apply, slice2_axis0_eq, slab3_apply,
    shapeCast_1ab_ab_apply, slice3_axis0_eq]
  rfl

/-- The centred value: the blocked reduction is the column sum over the 4096 rows (the general lemma on blocked sums),
    so the body's y (r, k) − total · 1/4096 is the specification's centred value of the linear map. -/
theorem centred_apply (x0 : Vec Ideal S4096x64 .f32) (x1 : Vec Ideal S64x64 .f32) (x2 : Vec Ideal S1x64 .f32)
    (r : Fin 4096) (k : Fin 64) :
    Gen.k1_pay7 (F := Ideal) (Gen.k1_pay1 x0 x1 x2)
        (Gen.k1_pay4 (Gen.k1_pay2 x0 x1 x2) (Gen.k1_pay3 x0 x1 x2))
        (Gen.k1_pay5 (Gen.k1_pay2 x0 x1 x2) (Gen.k1_pay3 x0 x1 x2))
        (Gen.k1_pay6 (Gen.k1_pay2 x0 x1 x2) (Gen.k1_pay3 x0 x1 x2)) (ix2 r k)
      = Cert.Spec.centred (Cert.Spec.lin (fun r c => x0 (ix2 r c)) (fun c k => x1 (ix2 c k)) (fun k => x2 (ix2 0 k))) r k := by
  calc Gen.k1_pay7 (F := Ideal) (Gen.k1_pay1 x0 x1 x2)
          (Gen.k1_pay4 (Gen.k1_pay2 x0 x1 x2) (Gen.k1_pay3 x0 x1 x2))
          (Gen.k1_pay5 (Gen.k1_pay2 x0 x1 x2) (Gen.k1_pay3 x0 x1 x2))
          (Gen.k1_pay6 (Gen.k1_pay2 x0 x1 x2) (Gen.k1_pay3 x0 x1 x2)) (ix2 r k)
      = Gen.k1_pay1 x0 x1 x2 (ix2 r k)
          - fold8 (fun l => seq16 fun u => seq32 fun m => Gen.k1_pay1 x0 x1 x2 (ix2 (row m u l) k))
            * Ideal.ofBits .f32 0x39800000#32 := by
        rw [pay7_apply]
        simp only [pay5_apply, pay6_apply, pay4_apply, pay2_apply]
        rfl
    _ = Cert.Spec.centred (Cert.Spec.lin (fun r c => x0 (ix2 r c)) (fun c k => x1 (ix2 c k)) (fun k => x2 (ix2 0 k))) r k := by
        rw [blocked_eq_sum (fun r' => Gen.k1_pay1 x0 x1 x2 (ix2 r' k))]
        unfold Cert.Spec.centred Cert.Spec.colSum Cert.Spec.wInvRows
        simp only [lin_apply]

end Cert.KernelIdeal.BnLinCentred1
-- ==== Proof.BnLinCentred3.lean ====
/-
  Linear + batch normalisation + positive part, first half: the linear map and the centred value.

  With x the layer's input (4096 rows of 64), wt the transposed weight (64 × 64) and b the bias row, the body first
  forms y = x · wt + b (a block product of the two operands narrowed to 16 bits — the identity on the extended
  reals — into the zero accumulator, plus the bias broadcast down the rows), then the column sums of y the blocked
  way: y is regrouped as [32, 16, 8, 64] (row 128·m + 8·u + l), the 32 slabs m are added one after another, then the
  16 slabs u one after another, then the 8 rows l are folded by halves; the total is multiplied by the word of
  1/4096 and subtracted from y. Both are read here at an entry (r, k) and identified with the specification's
  `lin` and `centred`: the sum of products by re-indexing the one contracted coordinate, the blocked sum by the
  general lemma that it is the sum over the 4096 rows.
-/
import proofs.«169346_g86071144612153_cont_sun_m_685_13_alg».proof.Proof.Gen.KernelIdeal.Skeleton
import proofs.«169346_g86071144612153_cont_sun_m_685_13_alg».proof.Proof.Spec
import proofs.«169346_g86071144612153_cont_sun_m_685_13_alg».proof.Proof.LibBlockedRowLayout
import Idealize.ShloMosaic.PureOps.Ideal.Laws

namespace Cert.KernelIdeal.BnLinCentred3

open Idealize.ShloMosaic Idealize.ShloMosaic.ValueIdx Cert.KernelIdeal Cert.BlockedRowSum Cert.BlockedRowLayout

/-- The linear map: the block product into the zero accumulator, read at (r, k), is the sum over the one contracted
    coordinate c of x (r, c) · wt (c, k) — the narrowing of both operands is the identity on the extended reals —
    and the bias row, broadcast down the rows, adds b k. -/
theorem lin_apply (x0 : Vec Ideal S4096x64 .f32) (x1 : Vec Ideal S64x64 .f32) (x2 : Vec Ideal S1x64 .f32)
    (r : Fin 4096) (k : Fin 64) :
    Gen.k3_pay1 (F := Ideal) x0 x1 x2 (ix2 r k)
      = Cert.Spec.lin (fun r c => x0 (ix2 r c)) (fun c k => x1 (ix2 c k)) (fun k => x2 (ix2 0 k)) r k := by
  unfold Gen.k3_pay1
  simp only [addf_apply, shapeCast_self, broadcastTo_1b_ab_apply, matmul, Ideal.matmul_constant_zero_apply, truncf_apply]
  unfold Cert.Spec.lin
  refine congrArg (· + x2 (ix2 0 k)) ?_
  -- the contraction index has one coordinate, ranging over the 64 columns of x
  rw [← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  -- the left operand is read at (r, c): its row is the output's row, its column the contracted coordinate
  have l2 : dot_S4096x64_S64x64_S4096x64_1_0_0_1_n_n.lhsIdx (ix2 r k) ((contrEquiv1 _ 64 rfl rfl).symm c) = ix2 r c := by
    funext ax; apply Fin.ext
    match ax with
    | ⟨0, _⟩ => simp [DotDims.lhsIdx, dot_S4096x64_S64x64_S4096x64_1_0_0_1_n_n]; rfl
    | ⟨1, _⟩ => exact (DotDims.lhsIdx_val_of_single _ rfl _ _).trans c2
  -- the right operand is read at (c, k): its row is the contracted coordinate, its column the output's column
  have r2 : dot_S4096x64_S64x64_S4096x64_1_0_0_1_n_n.rhsIdx (ix2 r k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S4096x64_S64x64_S4096x64_1_0_0_1_n_n]; rfl
  rw [l2, r2]

/-- The regrouped array at (m, u, l, c) is y at row 128·m + 8·u + l, column c. -/
theorem pay2_apply (x0 : Vec Ideal S4096x64 .f32) (x1 : Vec Ideal S64x64 .f32) (x2 : Vec Ideal S1x64 .f32)
    (m : Fin 32) (u : Fin 16) (l : Fin 8) (c : Fin 64) :
    Gen.k3_pay2 (F := Ideal) x0 x1 x2 (ix4 m u l c) = Gen.k3_pay1 x0 x1 x2 (ix2 (row m u l) c) := by
  unfold Gen.k3_pay2
  exact regroup_apply _ _ m u l c

/-- After the two runs of slab additions (slabs 0 … 13, then 14 … 31) entry (u, l, c) holds the 32 slabs m of the
    regrouped array at (m, u, l, c), added first to last. -/
theorem pay4_apply (x0 : Vec Ideal S4096x64 .f32) (x1 : Vec Ideal S64x64 .f32) (x2 : Vec Ideal S1x64 .f32)
    (u : Fin 16) (l : Fin 8) (c : Fin 64) :
    Gen.k3_pay4 (F := Ideal) (Gen.k3_pay2 x0 x1 x2) (Gen.k3_pay3 x0 x1 x2) (ix3 u l c)
      = seq32 fun m => Gen.k3_pay2 x0 x1 x2 (ix4 m u l c) := by
  unfold Gen.k3_pay4 Gen.k3_pay3
  simp only [addf_apply, slab4_apply]
  rfl

/-- The first two slabs u = 0, 1 of that partial sum, added. -/
theorem pay5_apply (v11 : FVec Ideal S32x16x8x64 .f32) (v52 : FVec Ideal S16x8x64 .f32) (l : Fin 8) (c : Fin 64) :
    Gen.k3_pay5 (F := Ideal) v11 v52 (ix2 l c)
      = Gen.k3_pay4 v11 v52 (ix3 0 l c) + Gen.k3_pay4 v11 v52 (ix3 1 l c) := by
  unfold Gen.k3_pay5
  simp only [addf_apply, slab3_apply]
  rfl

/-- The third slab u = 2 of that partial sum, kept with its unit axis. -/
theorem pay6_apply (v11 : FVec Ideal S32x16x8x64 .f32) (v52 : FVec Ideal S16x8x64 .f32) (l : Fin 8) (c : Fin 64) :
    Gen.k3_pay6 (F := Ideal) v11 v52 (ix3 (0 : Fin 1) l c) = Gen.k3_pay4 v11 v52 (ix3 2 l c) := by
  unfold Gen.k3_pay6
  exact slice3_axis0_eq 2 _ _ 0 l c

/-- The centred value in terms of the three carried pieces: row l of the second stage is the two slabs already added,
    the third, and slabs 3 … 15 of the partial sum, added in that order; the eight rows are folded by halves; the total
    times the word of 1/4096 is broadcast down the rows and subtracted from y. -/
theorem pay7_apply (v10 : FVec Ideal S4096x64 .f32) (v106 : FVec Ideal S16x8x64 .f32) (v111 : FVec Ideal S8x64 .f32)
    (v112 : FVec Ideal S1x8x64 .f32) (r : Fin 4096) (k : Fin 64) :
    Gen.k3_pay7 (F := Ideal) v10 v106 v111 v112 (ix2 r k)
      = v10 (ix2 r k) - fold8 (fun l => v111 (ix2 l k) + v112 (ix3 (0 : Fin 1) l k) + v106 (ix3 3 l k) + v106 (ix3 4 l k)
          + v106 (ix3 5 l k) + v106 (ix3 6 l k) + v106 (ix3 7 l k) + v106 (ix3 8 l k) + v106 (ix3 9 l k)
          + v106 (ix3 10 l k) + v106 (ix3 11 l k) + v106 (ix3 12 l k) + v106 (ix3 13 l k) + v106 (ix3 14 l k)
          + v106 (ix3 15 l k)) * Ideal.ofBits .f32 0x39800000#32 := by
  unfold Gen.k3_pay7
  simp only [subf_apply, broadcastTo_1b_ab_apply, mulf_apply, broadcast_apply, addf_apply, slice2_axis0_eq, slab3_apply,
    shapeCast_1ab_ab_apply, slice3_axis0_eq]
  rfl

/-- The centred value: the blocked reduction is the column sum over the 4096 rows (the general lemma on blocked sums),
    so the body's y (r, k) − total · 1/4096 is the specification's centred value of the linear map. -/
theorem centred_apply (x0 : Vec Ideal S4096x64 .f32) (x1 : Vec Ideal S64x64 .f32) (x2 : Vec Ideal S1x64 .f32)
    (r : Fin 4096) (k : Fin 64) :
    Gen.k3_pay7 (F := Ideal) (Gen.k3_pay1 x0 x1 x2)
        (Gen.k3_pay4 (Gen.k3_pay2 x0 x1 x2) (Gen.k3_pay3 x0 x1 x2))
        (Gen.k3_pay5 (Gen.k3_pay2 x0 x1 x2) (Gen.k3_pay3 x0 x1 x2))
        (Gen.k3_pay6 (Gen.k3_pay2 x0 x1 x2) (Gen.k3_pay3 x0 x1 x2)) (ix2 r k)
      = Cert.Spec.centred (Cert.Spec.lin (fun r c => x0 (ix2 r c)) (fun c k => x1 (ix2 c k)) (fun k => x2 (ix2 0 k))) r k := by
  calc Gen.k3_pay7 (F := Ideal) (Gen.k3_pay1 x0 x1 x2)
          (Gen.k3_pay4 (Gen.k3_pay2 x0 x1 x2) (Gen.k3_pay3 x0 x1 x2))
          (Gen.k3_pay5 (Gen.k3_pay2 x0 x1 x2) (Gen.k3_pay3 x0 x1 x2))
          (Gen.k3_pay6 (Gen.k3_pay2 x0 x1 x2) (Gen.k3_pay3 x0 x1 x2)) (ix2 r k)
      = Gen.k3_pay1 x0 x1 x2 (ix2 r k)
          - fold8 (fun l => seq16 fun u => seq32 fun m => Gen.k3_pay1 x0 x1 x2 (ix2 (row m u l) k))
            * Ideal.ofBits .f32 0x39800000#32 := by
        rw [pay7_apply]
        simp only [pay5_apply, pay6_apply, pay4_apply, pay2_apply]
        rfl
    _ = Cert.Spec.centred (Cert.Spec.lin (fun r c => x0 (ix2 r c)) (fun c k => x1 (ix2 c k)) (fun k => x2 (ix2 0 k))) r k := by
        rw [blocked_eq_sum (fun r' => Gen.k3_pay1 x0 x1 x2 (ix2 r' k))]
        unfold Cert.Spec.centred Cert.Spec.colSum Cert.Spec.wInvRows
        simp only [lin_apply]

end Cert.KernelIdeal.BnLinCentred3
-- ==== Proof.BnLinCentred5.lean ====
/-
  Linear + batch normalisation + positive part, first half: the linear map and the centred value.

  With x the layer's input (4096 rows of 64), wt the transposed weight (64 × 64) and b the bias row, the body first
  forms y = x · wt + b (a block product of the two operands narrowed to 16 bits — the identity on the extended
  reals — into the zero accumulator, plus the bias broadcast down the rows), then the column sums of y the blocked
  way: y is regrouped as [32, 16, 8, 64] (row 128·m + 8·u + l), the 32 slabs m are added one after another, then the
  16 slabs u one after another, then the 8 rows l are folded by halves; the total is multiplied by the word of
  1/4096 and subtracted from y. Both are read here at an entry (r, k) and identified with the specification's
  `lin` and `centred`: the sum of products by re-indexing the one contracted coordinate, the blocked sum by the
  general lemma that it is the sum over the 4096 rows.
-/
import proofs.«169346_g86071144612153_cont_sun_m_685_13_alg».proof.Proof.Gen.KernelIdeal.Skeleton
import proofs.«169346_g86071144612153_cont_sun_m_685_13_alg».proof.Proof.Spec
import proofs.«169346_g86071144612153_cont_sun_m_685_13_alg».proof.Proof.LibBlockedRowLayout
import Idealize.ShloMosaic.PureOps.Ideal.Laws

namespace Cert.KernelIdeal.BnLinCentred5

open Idealize.ShloMosaic Idealize.ShloMosaic.ValueIdx Cert.KernelIdeal Cert.BlockedRowSum Cert.BlockedRowLayout

/-- The linear map: the block product into the zero accumulator, read at (r, k), is the sum over the one contracted
    coordinate c of x (r, c) · wt (c, k) — the narrowing of both operands is the identity on the extended reals —
    and the bias row, broadcast down the rows, adds b k. -/
theorem lin_apply (x0 : Vec Ideal S4096x64 .f32) (x1 : Vec Ideal S64x64 .f32) (x2 : Vec Ideal S1x64 .f32)
    (r : Fin 4096) (k : Fin 64) :
    Gen.k5_pay1 (F := Ideal) x0 x1 x2 (ix2 r k)
      = Cert.Spec.lin (fun r c => x0 (ix2 r c)) (fun c k => x1 (ix2 c k)) (fun k => x2 (ix2 0 k)) r k := by
  unfold Gen.k5_pay1
  simp only [addf_apply, shapeCast_self, broadcastTo_1b_ab_apply, matmul, Ideal.matmul_constant_zero_apply, truncf_apply]
  unfold Cert.Spec.lin
  refine congrArg (· + x2 (ix2 0 k)) ?_
  -- the contraction index has one coordinate, ranging over the 64 columns of x
  rw [← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  -- the left operand is read at (r, c): its row is the output's row, its column the contracted coordinate
  have l2 : dot_S4096x64_S64x64_S4096x64_1_0_0_1_n_n.lhsIdx (ix2 r k) ((contrEquiv1 _ 64 rfl rfl).symm c) = ix2 r c := by
    funext ax; apply Fin.ext
    match ax with
    | ⟨0, _⟩ => simp [DotDims.lhsIdx, dot_S4096x64_S64x64_S4096x64_1_0_0_1_n_n]; rfl
    | ⟨1, _⟩ => exact (DotDims.lhsIdx_val_of_single _ rfl _ _).trans c2
  -- the right operand is read at (c, k): its row is the contracted coordinate, its column the output's column
  have r2 : dot_S4096x64_S64x64_S4096x64_1_0_0_1_n_n.rhsIdx (ix2 r k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S4096x64_S64x64_S4096x64_1_0_0_1_n_n]; rfl
  rw [l2, r2]

/-- The regrouped array at (m, u, l, c) is y at row 128·m + 8·u + l, column c. -/
theorem pay2_apply (x0 : Vec Ideal S4096x64 .f32) (x1 : Vec Ideal S64x64 .f32) (x2 : Vec Ideal S1x64 .f32)
    (m : Fin 32) (u : Fin 16) (l : Fin 8) (c : Fin 64) :
    Gen.k5_pay2 (F := Ideal) x0 x1 x2 (ix4 m u l c) = Gen.k5_pay1 x0 x1 x2 (ix2 (row m u l) c) := by
  unfold Gen.k5_pay2
  exact regroup_apply _ _ m u l c

/-- After the two runs of slab additions (slabs 0 … 13, then 14 … 31) entry (u, l, c) holds the 32 slabs m of the
    regrouped array at (m, u, l, c), added first to last. -/
theorem pay4_apply (x0 : Vec Ideal S4096x64 .f32) (x1 : Vec Ideal S64x64 .f32) (x2 : Vec Ideal S1x64 .f32)
    (u : Fin 16) (l : Fin 8) (c : Fin 64) :
    Gen.k5_pay4 (F := Ideal) (Gen.k5_pay2 x0 x1 x2) (Gen.k5_pay3 x0 x1 x2) (ix3 u l c)
      = seq32 fun m => Gen.k5_pay2 x0 x1 x2 (ix4 m u l c) := by
  unfold Gen.k5_pay4 Gen.k5_pay3
  simp only [addf_apply, slab4_apply]
  rfl

/-- The first two slabs u = 0, 1 of that partial sum, added. -/
theorem pay5_apply (v11 : FVec Ideal S32x16x8x64 .f32) (v52 : FVec Ideal S16x8x64 .f32) (l : Fin 8) (c : Fin 64) :
    Gen.k5_pay5 (F := Ideal) v11 v52 (ix2 l c)
      = Gen.k5_pay4 v11 v52 (ix3 0 l c) + Gen.k5_pay4 v11 v52 (ix3 1 l c) := by
  unfold Gen.k5_pay5
  simp only [addf_apply, slab3_apply]
  rfl

/-- The third slab u = 2 of that partial sum, kept with its unit axis. -/
theorem pay6_apply (v11 : FVec Ideal S32x16x8x64 .f32) (v52 : FVec Ideal S16x8x64 .f32) (l : Fin 8) (c : Fin 64) :
    Gen.k5_pay6 (F := Ideal) v11 v52 (ix3 (0 : Fin 1) l c) = Gen.k5_pay4 v11 v52 (ix3 2 l c) := by
  unfold Gen.k5_pay6
  exact slice3_axis0_eq 2 _ _ 0 l c

/-- The centred value in terms of the three carried pieces: row l of the second stage is the two slabs already added,
    the third, and slabs 3 … 15 of the partial sum, added in that order; the eight rows are folded by halves; the total
    times the word of 1/4096 is broadcast down the rows and subtracted from y. -/
theorem pay7_apply (v10 : FVec Ideal S4096x64 .f32) (v106 : FVec Ideal S16x8x64 .f32) (v111 : FVec Ideal S8x64 .f32)
    (v112 : FVec Ideal S1x8x64 .f32) (r : Fin 4096) (k : Fin 64) :
    Gen.k5_pay7 (F := Ideal) v10 v106 v111 v112 (ix2 r k)
      = v10 (ix2 r k) - fold8 (fun l => v111 (ix2 l k) + v112 (ix3 (0 : Fin 1) l k) + v106 (ix3 3 l k) + v106 (ix3 4 l k)
          + v106 (ix3 5 l k) + v106 (ix3 6 l k) + v106 (ix3 7 l k) + v106 (ix3 8 l k) + v106 (ix3 9 l k)
          + v106 (ix3 10 l k) + v106 (ix3 11 l k) + v106 (ix3 12 l k) + v106 (ix3 13 l k) + v106 (ix3 14 l k)
          + v106 (ix3 15 l k)) * Ideal.ofBits .f32 0x39800000#32 := by
  unfold Gen.k5_pay7
  simp only [subf_apply, broadcastTo_1b_ab_apply, mulf_apply, broadcast_apply, addf_apply, slice2_axis0_eq, slab3_apply,
    shapeCast_1ab_ab_apply, slice3_axis0_eq]
  rfl

/-- The centred value: the blocked reduction is the column sum over the 4096 rows (the general lemma on blocked sums),
    so the body's y (r, k) − total · 1/4096 is the specification's centred value of the linear map. -/
theorem centred_apply (x0 : Vec Ideal S4096x64 .f32) (x1 : Vec Ideal S64x64 .f32) (x2 : Vec Ideal S1x64 .f32)
    (r : Fin 4096) (k : Fin 64) :
    Gen.k5_pay7 (F := Ideal) (Gen.k5_pay1 x0 x1 x2)
        (Gen.k5_pay4 (Gen.k5_pay2 x0 x1 x2) (Gen.k5_pay3 x0 x1 x2))
        (Gen.k5_pay5 (Gen.k5_pay2 x0 x1 x2) (Gen.k5_pay3 x0 x1 x2))
        (Gen.k5_pay6 (Gen.k5_pay2 x0 x1 x2) (Gen.k5_pay3 x0 x1 x2)) (ix2 r k)
      = Cert.Spec.centred (Cert.Spec.lin (fun r c => x0 (ix2 r c)) (fun c k => x1 (ix2 c k)) (fun k => x2 (ix2 0 k))) r k := by
  calc Gen.k5_pay7 (F := Ideal) (Gen.k5_pay1 x0 x1 x2)
          (Gen.k5_pay4 (Gen.k5_pay2 x0 x1 x2) (Gen.k5_pay3 x0 x1 x2))
          (Gen.k5_pay5 (Gen.k5_pay2 x0 x1 x2) (Gen.k5_pay3 x0 x1 x2))
          (Gen.k5_pay6 (Gen.k5_pay2 x0 x1 x2) (Gen.k5_pay3 x0 x1 x2)) (ix2 r k)
      = Gen.k5_pay1 x0 x1 x2 (ix2 r k)
          - fold8 (fun l => seq16 fun u => seq32 fun m => Gen.k5_pay1 x0 x1 x2 (ix2 (row m u l) k))
            * Ideal.ofBits .f32 0x39800000#32 := by
        rw [pay7_apply]
        simp only [pay5_apply, pay6_apply, pay4_apply, pay2_apply]
        rfl
    _ = Cert.Spec.centred (Cert.Spec.lin (fun r c => x0 (ix2 r c)) (fun c k => x1 (ix2 c k)) (fun k => x2 (ix2 0 k))) r k := by
        rw [blocked_eq_sum (fun r' => Gen.k5_pay1 x0 x1 x2 (ix2 r' k))]
        unfold Cert.Spec.centred Cert.Spec.colSum Cert.Spec.wInvRows
        simp only [lin_apply]

end Cert.KernelIdeal.BnLinCentred5
-- ==== Proof.LibBatchSum.lean ====
/-
  Sums over the rows of a 4096-row column, taken in the order a blocked reduction takes them.

  A row index b of 4096 is written b = 128·m + 8·u + l with m < 32, u < 16, l < 8 (the row-major
  position of (m, u, l) in a 32 × 16 × 8 box). A blocked reduction adds the 32 slabs m = 0 … 31 one after
  the other, then the 16 slabs u = 0 … 15 one after the other, then folds the 8 remaining rows by halves:
  (l, l + 4), then (l, l + 2), then (0, 1). In a commutative monoid each of these is the plain sum, and
  the three nested sums are the sum over all 4096 rows, through the bijection (l, u, m) ↦ 128·m + 8·u + l.
-/
import Mathlib.Algebra.BigOperators.Fin
import Mathlib.Algebra.BigOperators.Ring.Finset
import Mathlib.Logic.Equiv.Fin.Basic

namespace Cert.BatchSum

open scoped BigOperators

variable {M : Type*} [AddCommMonoid M]

/-- The 32 slabs added one after the other, from the left, are the sum over the 32. -/
theorem sum32 (g : Fin 32 → M) :
    g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 + g 31 = ∑ m : Fin 32, g m := by
  simp only [Fin.sum_univ_castSucc, Fin.sum_univ_zero, zero_add]
  rfl

/-- The 16 slabs added one after the other, from the left, are the sum over the 16. -/
theorem sum16 (g : Fin 16 → M) :
    g 0 + g 1 + g 2 + g 3 + g 4 + g 5 + g 6 + g 7 + g 8 + g 9 + g 10 + g 11 + g 12 + g 13 + g 14 + g 15 = ∑ u : Fin 16, g u := by
  simp only [Fin.sum_univ_castSucc, Fin.sum_univ_zero, zero_add]
  rfl

/-- Eight rows folded by halves — (l, l + 4), then (l, l + 2), then (0, 1) — are the sum over the eight. -/
theorem fold8 (g : Fin 8 → M) :
    ((g 0 + g 4) + (g 2 + g 6)) + ((g 1 + g 5) + (g 3 + g 7)) = ∑ l : Fin 8, g l := by
  rw [Fin.sum_univ_eight]
  ac_rfl

/-- Row 128·m + 8·u + l of 4096, from its three coordinates, written as its row-major position (m·16 + u)·8 + l. -/
def row (m : Fin 32) (u : Fin 16) (l : Fin 8) : Fin 4096 :=
  ⟨(m.val * 16 + u.val) * 8 + l.val, by have := m.isLt; have := u.isLt; have := l.isLt; omega⟩

@[simp] theorem row_val (m : Fin 32) (u : Fin 16) (l : Fin 8) : (row m u l).val = (m.val * 16 + u.val) * 8 + l.val := rfl

/-- (l, u, m) ↦ 128·m + 8·u + l is a bijection onto the 4096 rows. -/
def rowEquiv : Fin 8 × Fin 16 × Fin 32 ≃ Fin 4096 where
  toFun p := row p.2.2 p.2.1 p.1
  invFun b := (⟨b.val % 8, Nat.mod_lt _ (by decide)⟩, ⟨b.val / 8 % 16, Nat.mod_lt _ (by decide)⟩,
    ⟨b.val / 128, by have := b.isLt; omega⟩)
  left_inv p := by
    obtain ⟨l, u, m⟩ := p
    have := m.isLt; have := u.isLt; have := l.isLt
    refine Prod.ext (Fin.ext ?_) (Prod.ext (Fin.ext ?_) (Fin.ext ?_))
    · show ((m.val * 16 + u.val) * 8 + l.val) % 8 = l.val; omega
    · show ((m.val * 16 + u.val) * 8 + l.val) / 8 % 16 = u.val; omega
    · show ((m.val * 16 + u.val) * 8 + l.val) / 128 = m.val; omega
  right_inv b := by
    have := b.isLt
    refine Fin.ext ?_
    show (b.val / 128 * 16 + b.val / 8 % 16) * 8 + b.val % 8 = b.val
    omega

/-- The sum over the 4096 rows is the three nested sums over the coordinates. -/
theorem sum_rows (f : Fin 4096 → M) :
    ∑ b : Fin 4096, f b = ∑ l : Fin 8, ∑ u : Fin 16, ∑ m : Fin 32, f (row m u l) := by
  rw [← rowEquiv.sum_comp f, Fintype.sum_prod_type]
  refine Finset.sum_congr rfl fun l _ => ?_
  rw [Fintype.sum_prod_type]
  rfl

end Cert.BatchSum
-- ==== Proof.BnLinOutLayout.lean ====
/-
  Layout operations of a row-blocked column reduction, read at an index given by coordinates.

  * A slab of thickness 1 cut along the LEADING axis of a rank-4 or rank-3 array at offset o reads, at
    (z, a, b, c) with z the only value of the unit axis, the source at (o, a, b, c).
  * A [4096, 64] array regrouped as [32, 16, 8, 64] reads at (m, u, l, c) row (m·16 + u)·8 + l = 128·m + 8·u + l,
    column c: both entries have row-major position ((m·16 + u)·8 + l)·64 + c.
  Each is the library's index lemma for the operation (a slice shifts by its offsets, a shape cast keeps the
  row-major position) at these ranks.
-/
import Idealize.ShloMosaic.Lib.ValueIdx
import Idealize.ShloMosaic.Lib.Pipeline.Value
import Idealize.ShloMosaic.Lib.ValueLayout
import proofs.«169346_g86071144612153_cont_sun_m_685_13_alg».proof.Proof.LibBatchSum

namespace Cert.BnLinOutLayout

open Idealize.ShloMosaic Idealize.ShloMosaic.ValueIdx

variable {α : Type}

/-- Slab o of a rank-4 array, cut along axis 0 with thickness 1: at (z, a, b, c) it is the source at (o, a, b, c). -/
theorem slab4_apply {n0 n1 n2 n3 : Nat} (o : Nat) (X : (⟨4, ![n0, n1, n2, n3]⟩ : Shape).Idx → α)
    (h : (⟨4, ![n0, n1, n2, n3]⟩ : Shape).Slices ![o, 0, 0, 0] ⟨4, ![1, n1, n2, n3]⟩)
    (z : Fin 1) (a : Fin n1) (b : Fin n2) (c : Fin n3) :
    extractStridedSlice ⟨4, ![1, n1, n2, n3]⟩ ![o, 0, 0, 0] X h (ix4 z a b c)
      = X (ix4 ⟨o, Nat.lt_of_lt_of_le (Nat.lt_succ_self o) (h.2 0)⟩ a b c) :=
  extractStridedSlice_apply _ _ _ _ _ (fun ax => by
    match ax with
    | ⟨0, _⟩ => show o = o + z.val; omega
    | ⟨1, _⟩ => exact (Nat.zero_add _).symm
    | ⟨2, _⟩ => exact (Nat.zero_add _).symm
    | ⟨3, _⟩ => exact (Nat.zero_add _).symm)

/-- Slab o of a rank-3 array, cut along axis 0 with thickness 1: at (z, b, c) it is the source at (o, b, c). -/
theorem slab3_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (z : Fin 1) (b : Fin n1) (c : Fin n2) :
    extractStridedSlice ⟨3, ![1, n1, n2]⟩ ![o, 0, 0] X h (ix3 z b c)
      = X (ix3 ⟨o, Nat.lt_of_lt_of_le (Nat.lt_succ_self o) (h.2 0)⟩ b c) :=
  extractStridedSlice_apply _ _ _ _ _ (fun ax => by
    match ax with
    | ⟨0, _⟩ => show o = o + z.val; omega
    | ⟨1, _⟩ => exact (Nat.zero_add _).symm
    | ⟨2, _⟩ => exact (Nat.zero_add _).symm)

/-- The 4096 rows regrouped as 32 × 16 × 8: entry (m, u, l, c) is row 128·m + 8·u + l, column c. -/
theorem regroup_apply (X : (⟨2, ![4096, 64]⟩ : Shape).Idx → α)
    (h : (⟨2, ![4096, 64]⟩ : Shape).ShapeCasts ⟨4, ![32, 16, 8, 64]⟩)
    (m : Fin 32) (u : Fin 16) (l : Fin 8) (c : Fin 64) :
    shapeCast ⟨4, ![32, 16, 8, 64]⟩ X h (ix4 m u l c) = X (ix2 (Cert.BatchSum.row m u l) c) :=
  shapeCast_apply X h _ _ (by
    rw [Shape.rowMajor_val_two, Shape.rowMajor_val_four]
    rfl)

end Cert.BnLinOutLayout
-- ==== Proof.BnLinOut1.lean ====
/-
  Region 1 (linear map, batch normalisation, positive part, stored transposed): the second half of the body,
  the variance and the output, read entry by entry on the extended reals.

  Write D for the centred value y − mean (a [4096, 64] array; the first half of the body). The body squares D,
  regroups the 4096 rows as 32 × 16 × 8 (row 128·m + 8·u + l) and sums the squares of each column in three
  stages: the 32 slabs m = 0 … 31 are added one after the other (the payloads carry the running sum across
  slabs 0–1, 2–20, 21, 22–31), then the 16 slabs u = 0 … 15 one after the other (0–8, 9, 10–15), then the 8
  remaining rows are folded by halves, (l, l + 4), (l, l + 2), (0, 1). Addition of extended reals is commutative
  and associative, so this is Σ_r D(r, k)² over all 4096 rows. The body then multiplies by the word of 1/4096,
  adds the word of ε, takes the square root, divides D by it, multiplies by the scale row, adds the shift row
  and takes the maximum with the word of 0; last it transposes, so entry (k, r) of the block is the layer at (r, k).
  With D the centred value of the linear map (the hypothesis, proved with the first half) this is the layer of
  the specification, entry by entry.
-/
import proofs.«169346_g86071144612153_cont_sun_m_685_13_alg».proof.Proof.Gen.KernelIdeal.Frame
import proofs.«169346_g86071144612153_cont_sun_m_685_13_alg».proof.Proof.Spec
import proofs.«169346_g86071144612153_cont_sun_m_685_13_alg».proof.Proof.BnLinOutLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BnLinOut1

open Idealize.ShloMosaic Idealize.ShloMosaic.ValueIdx
open Cert.KernelIdeal Cert.KernelIdeal.Gen Cert.BnLinOutLayout
open scoped BigOperators

/-! ## The running sums over the 32 slabs, at an entry (u, l, k) -/

/-- Slabs 2 … 20 added to the running sum A + B, one after the other. -/
theorem pay11_apply (SQ : FVec Ideal S32x16x8x64 .f32) (A : FVec Ideal S16x8x64 .f32) (B : FVec Ideal S1x16x8x64 .f32)
    (u : Fin 16) (l : Fin 8) (k : Fin 64) :
    k1_pay11 SQ A B (ix3 u l k)
      = A (ix3 u l k) + B (ix4 0 u l k) + SQ (ix4 2 u l k) + SQ (ix4 3 u l k) + SQ (ix4 4 u l k) + SQ (ix4 5 u l k) + SQ (ix4 6 u l k) + SQ (ix4 7 u l k) + SQ (ix4 8 u l k) + SQ (ix4 9 u l k) + SQ (ix4 10 u l k) + SQ (ix4 11 u l k) + SQ (ix4 12 u l k) + SQ (ix4 13 u l k) + SQ (ix4 14 u l k) + SQ (ix4 15 u l k) + SQ (ix4 16 u l k) + SQ (ix4 17 u l k) + SQ (ix4 18 u l k) + SQ (ix4 19 u l k) + SQ (ix4 20 u l k) := by
  unfold k1_pay11
  simp only [addf_apply, shapeCast_1abc_abc_apply, slab4_apply]
  rfl

/-- Slab 21. -/
theorem pay12_apply (SQ : FVec Ideal S32x16x8x64 .f32) (z : Fin 1) (u : Fin 16) (l : Fin 8) (k : Fin 64) :
    k1_pay12 SQ (ix4 z u l k) = SQ (ix4 21 u l k) := by
  unfold k1_pay12
  simp only [slab4_apply]
  rfl

/-- Slabs 22 … 31 added to the running sum A + B, one after the other. -/
theorem pay13_apply (SQ : FVec Ideal S32x16x8x64 .f32) (A : FVec Ideal S16x8x64 .f32) (B : FVec Ideal S1x16x8x64 .f32)
    (u : Fin 16) (l : Fin 8) (k : Fin 64) :
    k1_pay13 SQ A B (ix3 u l k)
      = A (ix3 u l k) + B (ix4 0 u l k) + SQ (ix4 22 u l k) + SQ (ix4 23 u l k) + SQ (ix4 24 u l k) + SQ (ix4 25 u l k) + SQ (ix4 26 u l k) + SQ (ix4 27 u l k) + SQ (ix4 28 u l k) + SQ (ix4 29 u l k) + SQ (ix4 30 u l k) + SQ (ix4 31 u l k) := by
  unfold k1_pay13
  simp only [addf_apply, shapeCast_1abc_abc_apply, slab4_apply]
  rfl

/-- The square root of a vector, entry by entry. -/
theorem sqrt_apply {s : Shape} (v : FVec Ideal s .f32) (i : s.Idx) : sqrt v i = Ideal.sqrt (v i) := rfl

/-- The squares regrouped: entry (m, u, l, k) is the square of the centred value at row 128·m + 8·u + l. -/
theorem pay8_apply (a : FVec Ideal S4096x64 .f32) (b : FVec Ideal S16x8x64 .f32) (c : FVec Ideal S8x64 .f32) (d : FVec Ideal S1x8x64 .f32) (m : Fin 32) (u : Fin 16) (l : Fin 8) (k : Fin 64) :
    k1_pay8 a b c d (ix4 m u l k)
      = k1_pay7 a b c d (ix2 (Cert.BatchSum.row m u l) k) * k1_pay7 a b c d (ix2 (Cert.BatchSum.row m u l) k) := by
  unfold k1_pay8
  simp only [regroup_apply, mulf_apply]

/-- Slab 0 of the squares. -/
theorem pay9_apply (a : FVec Ideal S4096x64 .f32) (b : FVec Ideal S16x8x64 .f32) (c : FVec Ideal S8x64 .f32) (d : FVec Ideal S1x8x64 .f32) (u : Fin 16) (l : Fin 8) (k : Fin 64) :
    k1_pay9 a b c d (ix3 u l k) = k1_pay8 a b c d (ix4 0 u l k) := by
  unfold k1_pay9
  simp only [shapeCast_1abc_abc_apply, slab4_apply]
  rfl

/-- Slab 1 of the squares. -/
theorem pay10_apply (a : FVec Ideal S4096x64 .f32) (b : FVec Ideal S16x8x64 .f32) (c : FVec Ideal S8x64 .f32) (d : FVec Ideal S1x8x64 .f32) (z : Fin 1) (u : Fin 16) (l : Fin 8) (k : Fin 64) :
    k1_pay10 a b c d (ix4 z u l k) = k1_pay8 a b c d (ix4 1 u l k) := by
  unfold k1_pay10
  simp only [slab4_apply]
  rfl

/-! ## The running sums over the 16 slabs, at an entry (l, k) -/

/-- Slabs 0 … 8 of the 16, added one after the other. -/
theorem pay14_apply (SQ : FVec Ideal S32x16x8x64 .f32) (A : FVec Ideal S16x8x64 .f32) (B : FVec Ideal S1x16x8x64 .f32)
    (l : Fin 8) (k : Fin 64) :
    k1_pay14 SQ A B (ix2 l k) = k1_pay13 SQ A B (ix3 0 l k) + k1_pay13 SQ A B (ix3 1 l k) + k1_pay13 SQ A B (ix3 2 l k) + k1_pay13 SQ A B (ix3 3 l k) + k1_pay13 SQ A B (ix3 4 l k) + k1_pay13 SQ A B (ix3 5 l k) + k1_pay13 SQ A B (ix3 6 l k) + k1_pay13 SQ A B (ix3 7 l k) + k1_pay13 SQ A B (ix3 8 l k) := by
  unfold k1_pay14
  simp only [addf_apply, shapeCast_1ab_ab_apply, slab3_apply]
  rfl

/-- Slab 9 of the 16. -/
theorem pay15_apply (SQ : FVec Ideal S32x16x8x64 .f32) (A : FVec Ideal S16x8x64 .f32) (B : FVec Ideal S1x16x8x64 .f32)
    (l : Fin 8) (k : Fin 64) :
    k1_pay15 SQ A B (ix2 l k) = k1_pay13 SQ A B (ix3 9 l k) := by
  unfold k1_pay15
  simp only [shapeCast_1ab_ab_apply, slab3_apply]
  rfl

/-! ## The last payload at an entry -/

/-- The last payload at entry (k, r) of the transposed block: slabs 10 … 15 added to P + Q, the 8 rows folded by halves, times the
    word of 1/4096, plus the word of ε, the root, D over it, times the scale, plus the shift, the maximum with the
    word of 0. -/
theorem pay16_apply (D : FVec Ideal S4096x64 .f32) (T : FVec Ideal S16x8x64 .f32) (P Q : FVec Ideal S8x64 .f32)
    (g be : Vec Ideal S1x64 .f32) (k : Fin 64) (r : Fin 4096) :
    k1_pay16 D T P Q g be (ix2 k r)
      = max (Ideal.div (D (ix2 r k)) (Ideal.sqrt
          (((((P (ix2 0 k) + Q (ix2 0 k) + T (ix3 10 0 k) + T (ix3 11 0 k) + T (ix3 12 0 k) + T (ix3 13 0 k) + T (ix3 14 0 k) + T (ix3 15 0 k)) + (P (ix2 4 k) + Q (ix2 4 k) + T (ix3 10 4 k) + T (ix3 11 4 k) + T (ix3 12 4 k) + T (ix3 13 4 k) + T (ix3 14 4 k) + T (ix3 15 4 k))) + ((P (ix2 2 k) + Q (ix2 2 k) + T (ix3 10 2 k) + T (ix3 11 2 k) + T (ix3 12 2 k) + T (ix3 13 2 k) + T (ix3 14 2 k) + T (ix3 15 2 k)) + (P (ix2 6 k) + Q (ix2 6 k) + T (ix3 10 6 k) + T (ix3 11 6 k) + T (ix3 12 6 k) + T (ix3 13 6 k) + T (ix3 14 6 k) + T (ix3 15 6 k)))) + (((P (ix2 1 k) + Q (ix2 1 k) + T (ix3 10 1 k) + T (ix3 11 1 k) + T (ix3 12 1 k) + T (ix3 13 1 k) + T (ix3 14 1 k) + T (ix3 15 1 k)) + (P (ix2 5 k) + Q (ix2 5 k) + T (ix3 10 5 k) + T (ix3 11 5 k) + T (ix3 12 5 k) + T (ix3 13 5 k) + T (ix3 14 5 k) + T (ix3 15 5 k))) + ((P (ix2 3 k) + Q (ix2 3 k) + T (ix3 10 3 k) + T (ix3 11 3 k) + T (ix3 12 3 k) + T (ix3 13 3 k) + T (ix3 14 3 k) + T (ix3 15 3 k)) + (P (ix2 7 k) + Q (ix2 7 k) + T (ix3 10 7 k) + T (ix3 11 7 k) + T (ix3 12 7 k) + T (ix3 13 7 k) + T (ix3 14 7 k) + T (ix3 15 7 k)))))
            * Cert.Spec.wInvRows + Cert.Spec.wEps)) * g (ix2 0 k) + be (ix2 0 k)) Cert.Spec.wZero := by
  unfold k1_pay16
  dsimp only
  refine (transpose_ix2_apply _ _ k r).trans ?_
  simp only [maximumf_apply, addf_apply, mulf_apply, divf_apply, broadcastTo_1b_ab_apply,
    shapeCast_self, broadcast_apply, sqrt_apply, slice2_axis0_eq, shapeCast_1ab_ab_apply, slab3_apply]
  rfl

/-! ## The three stages are the sum over the 4096 rows -/

/-- Column k of slab-row (u, l): the 32 slabs of the squares, added one after the other, are the sum over the 32
    rows 128·m + 8·u + l of the squared centred value. -/
theorem slabsum_apply (a : FVec Ideal S4096x64 .f32) (b : FVec Ideal S16x8x64 .f32) (c : FVec Ideal S8x64 .f32) (d : FVec Ideal S1x8x64 .f32)
    (u : Fin 16) (l : Fin 8) (k : Fin 64) :
    (k1_pay13 (k1_pay8 a b c d) (k1_pay11 (k1_pay8 a b c d) (k1_pay9 a b c d) (k1_pay10 a b c d)) (k1_pay12 (k1_pay8 a b c d))) (ix3 u l k)
      = ∑ m : Fin 32, k1_pay7 a b c d (ix2 (Cert.BatchSum.row m u l) k) * k1_pay7 a b c d (ix2 (Cert.BatchSum.row m u l) k) := by
  rw [pay13_apply, pay11_apply, pay9_apply, pay10_apply, pay12_apply]
  refine (Cert.BatchSum.sum32 (fun m => (k1_pay8 a b c d) (ix4 m u l k))).trans ?_
  exact Finset.sum_congr rfl fun m _ => pay8_apply a b c d m u l k

/-- Row l of the 8 left after the 16 slabs are added: the sum over u and m of the squares. -/
theorem rowsum_apply (a : FVec Ideal S4096x64 .f32) (b : FVec Ideal S16x8x64 .f32) (c : FVec Ideal S8x64 .f32) (d : FVec Ideal S1x8x64 .f32)
    (l : Fin 8) (k : Fin 64) :
    (k1_pay14 (k1_pay8 a b c d) (k1_pay11 (k1_pay8 a b c d) (k1_pay9 a b c d) (k1_pay10 a b c d)) (k1_pay12 (k1_pay8 a b c d))) (ix2 l k) + (k1_pay15 (k1_pay8 a b c d) (k1_pay11 (k1_pay8 a b c d) (k1_pay9 a b c d) (k1_pay10 a b c d)) (k1_pay12 (k1_pay8 a b c d))) (ix2 l k) + (k1_pay13 (k1_pay8 a b c d) (k1_pay11 (k1_pay8 a b c d) (k1_pay9 a b c d) (k1_pay10 a b c d)) (k1_pay12 (k1_pay8 a b c d))) (ix3 10 l k) + (k1_pay13 (k1_pay8 a b c d) (k1_pay11 (k1_pay8 a b c d) (k1_pay9 a b c d) (k1_pay10 a b c d)) (k1_pay12 (k1_pay8 a b c d))) (ix3 11 l k) + (k1_pay13 (k1_pay8 a b c d) (k1_pay11 (k1_pay8 a b c d) (k1_pay9 a b c d) (k1_pay10 a b c d)) (k1_pay12 (k1_pay8 a b c d))) (ix3 12 l k) + (k1_pay13 (k1_pay8 a b c d) (k1_pay11 (k1_pay8 a b c d) (k1_pay9 a b c d) (k1_pay10 a b c d)) (k1_pay12 (k1_pay8 a b c d))) (ix3 13 l k) + (k1_pay13 (k1_pay8 a b c d) (k1_pay11 (k1_pay8 a b c d) (k1_pay9 a b c d) (k1_pay10 a b c d)) (k1_pay12 (k1_pay8 a b c d))) (ix3 14 l k) + (k1_pay13 (k1_pay8 a b c d) (k1_pay11 (k1_pay8 a b c d) (k1_pay9 a b c d) (k1_pay10 a b c d)) (k1_pay12 (k1_pay8 a b c d))) (ix3 15 l k)
      = ∑ u : Fin 16, ∑ m : Fin 32, k1_pay7 a b c d (ix2 (Cert.BatchSum.row m u l) k) * k1_pay7 a b c d (ix2 (Cert.BatchSum.row m u l) k) := by
  rw [pay14_apply, pay15_apply]
  simp only [slabsum_apply]
  exact Cert.BatchSum.sum16 (fun u => ∑ m : Fin 32, k1_pay7 a b c d (ix2 (Cert.BatchSum.row m u l) k) * k1_pay7 a b c d (ix2 (Cert.BatchSum.row m u l) k))

/-- The last payload over the sums of squares: the 16 slab-rows, the fold of the 8 rows by halves and the three
    nested sums are the sum of the squared centred value over all 4096 rows of column k. -/
theorem body_apply (a : FVec Ideal S4096x64 .f32) (b : FVec Ideal S16x8x64 .f32) (c : FVec Ideal S8x64 .f32) (d : FVec Ideal S1x8x64 .f32)
    (g be : Vec Ideal S1x64 .f32) (k : Fin 64) (r : Fin 4096) :
    k1_pay16 (k1_pay7 a b c d) (k1_pay13 (k1_pay8 a b c d) (k1_pay11 (k1_pay8 a b c d) (k1_pay9 a b c d) (k1_pay10 a b c d)) (k1_pay12 (k1_pay8 a b c d))) (k1_pay14 (k1_pay8 a b c d) (k1_pay11 (k1_pay8 a b c d) (k1_pay9 a b c d) (k1_pay10 a b c d)) (k1_pay12 (k1_pay8 a b c d))) (k1_pay15 (k1_pay8 a b c d) (k1_pay11 (k1_pay8 a b c d) (k1_pay9 a b c d) (k1_pay10 a b c d)) (k1_pay12 (k1_pay8 a b c d))) g be (ix2 k r)
      = max (Ideal.div (k1_pay7 a b c d (ix2 r k)) (Ideal.sqrt
          ((∑ r' : Fin 4096, k1_pay7 a b c d (ix2 r' k) * k1_pay7 a b c d (ix2 r' k)) * Cert.Spec.wInvRows + Cert.Spec.wEps)) * g (ix2 0 k) + be (ix2 0 k))
          Cert.Spec.wZero := by
  refine (pay16_apply _ _ _ _ g be k r).trans ?_
  refine congrArg (fun X => max (Ideal.div (k1_pay7 a b c d (ix2 r k)) (Ideal.sqrt (X * Cert.Spec.wInvRows + Cert.Spec.wEps))
    * g (ix2 0 k) + be (ix2 0 k)) Cert.Spec.wZero) ?_
  refine Eq.trans ?_ (Cert.BatchSum.sum_rows (fun r' : Fin 4096 => k1_pay7 a b c d (ix2 r' k) * k1_pay7 a b c d (ix2 r' k))).symm
  refine Eq.trans ?_ (Cert.BatchSum.fold8 (fun l : Fin 8 => ∑ u : Fin 16, ∑ m : Fin 32, k1_pay7 a b c d (ix2 (Cert.BatchSum.row m u l) k) * k1_pay7 a b c d (ix2 (Cert.BatchSum.row m u l) k)))
  exact congrArg₂ (· + ·)
    (congrArg₂ (· + ·) (congrArg₂ (· + ·) (rowsum_apply a b c d 0 k) (rowsum_apply a b c d 4 k))
      (congrArg₂ (· + ·) (rowsum_apply a b c d 2 k) (rowsum_apply a b c d 6 k)))
    (congrArg₂ (· + ·) (congrArg₂ (· + ·) (rowsum_apply a b c d 1 k) (rowsum_apply a b c d 5 k))
      (congrArg₂ (· + ·) (rowsum_apply a b c d 3 k) (rowsum_apply a b c d 7 k)))

theorem hz : (![0, 0] : Fin 2 → Nat) = fun _ => 0 := funext fun a => by fin_cases a <;> rfl

/-- The block the body leaves, entry by entry: given the centred value of the linear map (the first half of the
    body), the output is the layer — the centred value over the root of the biased variance plus ε, scaled, shifted,
    and its positive part; the block is stored transposed, entry (k, r). -/
theorem out1_5_apply (x0 : Vec Ideal S4096x64 .f32) (x1 : Vec Ideal S64x64 .f32) (x2 x3 x4 : Vec Ideal S1x64 .f32)
    (hD : ∀ (r : Fin 4096) (k : Fin 64),
      k1_pay7 (k1_pay1 x0 x1 x2) (k1_pay4 (k1_pay2 x0 x1 x2) (k1_pay3 x0 x1 x2)) (k1_pay5 (k1_pay2 x0 x1 x2) (k1_pay3 x0 x1 x2)) (k1_pay6 (k1_pay2 x0 x1 x2) (k1_pay3 x0 x1 x2)) (ix2 r k)
        = Cert.Spec.centred (Cert.Spec.lin (fun r c => x0 (ix2 r c)) (fun c k => x1 (ix2 c k)) (fun k => x2 (ix2 0 k))) r k)
    (k : Fin 64) (r : Fin 4096) :
    Gen.out1_5 (F := Ideal) x0 x1 x2 x3 x4 (ix2 k r)
      = Cert.Spec.layer (fun r c => x0 (ix2 r c)) (fun c k => x1 (ix2 c k)) (fun k => x2 (ix2 0 k))
          (fun k => x3 (ix2 0 k)) (fun k => x4 (ix2 0 k)) r k := by
  unfold Gen.out1_5
  rw [View.canon_unit_zero hz]
  simp only [View.ld_unit_zero (S := S4096x64) hz, View.ld_unit_zero (S := S64x64) hz, View.ld_unit_zero (S := S1x64) hz]
  refine (body_apply _ _ _ _ x3 x4 k r).trans ?_
  simp only [hD]
  rfl

end Cert.KernelIdeal.BnLinOut1

end
-- ==== Proof.BnLinOut3.lean ====
/-
  Region 3 (linear map, batch normalisation, positive part, stored transposed): the second half of the body,
  the variance and the output, read entry by entry on the extended reals.

  Write D for the centred value y − mean (a [4096, 64] array; the first half of the body). The body squares D,
  regroups the 4096 rows as 32 × 16 × 8 (row 128·m + 8·u + l) and sums the squares of each column in three
  stages: the 32 slabs m = 0 … 31 are added one after the other (the payloads carry the running sum across
  slabs 0–1, 2–20, 21, 22–31), then the 16 slabs u = 0 … 15 one after the other (0–8, 9, 10–15), then the 8
  remaining rows are folded by halves, (l, l + 4), (l, l + 2), (0, 1). Addition of extended reals is commutative
  and associative, so this is Σ_r D(r, k)² over all 4096 rows. The body then multiplies by the word of 1/4096,
  adds the word of ε, takes the square root, divides D by it, multiplies by the scale row, adds the shift row
  and takes the maximum with the word of 0; last it transposes, so entry (k, r) of the block is the layer at (r, k).
  With D the centred value of the linear map (the hypothesis, proved with the first half) this is the layer of
  the specification, entry by entry.
-/
import proofs.«169346_g86071144612153_cont_sun_m_685_13_alg».proof.Proof.Gen.KernelIdeal.Frame
import proofs.«169346_g86071144612153_cont_sun_m_685_13_alg».proof.Proof.Spec
import proofs.«169346_g86071144612153_cont_sun_m_685_13_alg».proof.Proof.BnLinOutLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BnLinOut3

open Idealize.ShloMosaic Idealize.ShloMosaic.ValueIdx
open Cert.KernelIdeal Cert.KernelIdeal.Gen Cert.BnLinOutLayout
open scoped BigOperators

/-! ## The running sums over the 32 slabs, at an entry (u, l, k) -/

/-- Slabs 2 … 20 added to the running sum A + B, one after the other. -/
theorem pay11_apply (SQ : FVec Ideal S32x16x8x64 .f32) (A : FVec Ideal S16x8x64 .f32) (B : FVec Ideal S1x16x8x64 .f32)
    (u : Fin 16) (l : Fin 8) (k : Fin 64) :
    k3_pay11 SQ A B (ix3 u l k)
      = A (ix3 u l k) + B (ix4 0 u l k) + SQ (ix4 2 u l k) + SQ (ix4 3 u l k) + SQ (ix4 4 u l k) + SQ (ix4 5 u l k) + SQ (ix4 6 u l k) + SQ (ix4 7 u l k) + SQ (ix4 8 u l k) + SQ (ix4 9 u l k) + SQ (ix4 10 u l k) + SQ (ix4 11 u l k) + SQ (ix4 12 u l k) + SQ (ix4 13 u l k) + SQ (ix4 14 u l k) + SQ (ix4 15 u l k) + SQ (ix4 16 u l k) + SQ (ix4 17 u l k) + SQ (ix4 18 u l k) + SQ (ix4 19 u l k) + SQ (ix4 20 u l k) := by
  unfold k3_pay11
  simp only [addf_apply, shapeCast_1abc_abc_apply, slab4_apply]
  rfl

/-- Slab 21. -/
theorem pay12_apply (SQ : FVec Ideal S32x16x8x64 .f32) (z : Fin 1) (u : Fin 16) (l : Fin 8) (k : Fin 64) :
    k3_pay12 SQ (ix4 z u l k) = SQ (ix4 21 u l k) := by
  unfold k3_pay12
  simp only [slab4_apply]
  rfl

/-- Slabs 22 … 31 added to the running sum A + B, one after the other. -/
theorem pay13_apply (SQ : FVec Ideal S32x16x8x64 .f32) (A : FVec Ideal S16x8x64 .f32) (B : FVec Ideal S1x16x8x64 .f32)
    (u : Fin 16) (l : Fin 8) (k : Fin 64) :
    k3_pay13 SQ A B (ix3 u l k)
      = A (ix3 u l k) + B (ix4 0 u l k) + SQ (ix4 22 u l k) + SQ (ix4 23 u l k) + SQ (ix4 24 u l k) + SQ (ix4 25 u l k) + SQ (ix4 26 u l k) + SQ (ix4 27 u l k) + SQ (ix4 28 u l k) + SQ (ix4 29 u l k) + SQ (ix4 30 u l k) + SQ (ix4 31 u l k) := by
  unfold k3_pay13
  simp only [addf_apply, shapeCast_1abc_abc_apply, slab4_apply]
  rfl

/-- The square root of a vector, entry by entry. -/
theorem sqrt_apply {s : Shape} (v : FVec Ideal s .f32) (i : s.Idx) : sqrt v i = Ideal.sqrt (v i) := rfl

/-- The squares regrouped: entry (m, u, l, k) is the square of the centred value at row 128·m + 8·u + l. -/
theorem pay8_apply (a : FVec Ideal S4096x64 .f32) (b : FVec Ideal S16x8x64 .f32) (c : FVec Ideal S8x64 .f32) (d : FVec Ideal S1x8x64 .f32) (m : Fin 32) (u : Fin 16) (l : Fin 8) (k : Fin 64) :
    k3_pay8 a b c d (ix4 m u l k)
      = k3_pay7 a b c d (ix2 (Cert.BatchSum.row m u l) k) * k3_pay7 a b c d (ix2 (Cert.BatchSum.row m u l) k) := by
  unfold k3_pay8
  simp only [regroup_apply, mulf_apply]

/-- Slab 0 of the squares. -/
theorem pay9_apply (a : FVec Ideal S4096x64 .f32) (b : FVec Ideal S16x8x64 .f32) (c : FVec Ideal S8x64 .f32) (d : FVec Ideal S1x8x64 .f32) (u : Fin 16) (l : Fin 8) (k : Fin 64) :
    k3_pay9 a b c d (ix3 u l k) = k3_pay8 a b c d (ix4 0 u l k) := by
  unfold k3_pay9
  simp only [shapeCast_1abc_abc_apply, slab4_apply]
  rfl

/-- Slab 1 of the squares. -/
theorem pay10_apply (a : FVec Ideal S4096x64 .f32) (b : FVec Ideal S16x8x64 .f32) (c : FVec Ideal S8x64 .f32) (d : FVec Ideal S1x8x64 .f32) (z : Fin 1) (u : Fin 16) (l : Fin 8) (k : Fin 64) :
    k3_pay10 a b c d (ix4 z u l k) = k3_pay8 a b c d (ix4 1 u l k) := by
  unfold k3_pay10
  simp only [slab4_apply]
  rfl

/-! ## The running sums over the 16 slabs, at an entry (l, k) -/

/-- Slabs 0 … 8 of the 16, added one after the other. -/
theorem pay14_apply (SQ : FVec Ideal S32x16x8x64 .f32) (A : FVec Ideal S16x8x64 .f32) (B : FVec Ideal S1x16x8x64 .f32)
    (l : Fin 8) (k : Fin 64) :
    k3_pay14 SQ A B (ix2 l k) = k3_pay13 SQ A B (ix3 0 l k) + k3_pay13 SQ A B (ix3 1 l k) + k3_pay13 SQ A B (ix3 2 l k) + k3_pay13 SQ A B (ix3 3 l k) + k3_pay13 SQ A B (ix3 4 l k) + k3_pay13 SQ A B (ix3 5 l k) + k3_pay13 SQ A B (ix3 6 l k) + k3_pay13 SQ A B (ix3 7 l k) + k3_pay13 SQ A B (ix3 8 l k) := by
  unfold k3_pay14
  simp only [addf_apply, shapeCast_1ab_ab_apply, slab3_apply]
  rfl

/-- Slab 9 of the 16. -/
theorem pay15_apply (SQ : FVec Ideal S32x16x8x64 .f32) (A : FVec Ideal S16x8x64 .f32) (B : FVec Ideal S1x16x8x64 .f32)
    (l : Fin 8) (k : Fin 64) :
    k3_pay15 SQ A B (ix2 l k) = k3_pay13 SQ A B (ix3 9 l k) := by
  unfold k3_pay15
  simp only [shapeCast_1ab_ab_apply, slab3_apply]
  rfl

/-! ## The last payload at an entry -/

/-- The last payload at entry (k, r) of the transposed block: slabs 10 … 15 added to P + Q, the 8 rows folded by halves, times the
    word of 1/4096, plus the word of ε, the root, D over it, times the scale, plus the shift, the maximum with the
    word of 0. -/
theorem pay16_apply (D : FVec Ideal S4096x64 .f32) (T : FVec Ideal S16x8x64 .f32) (P Q : FVec Ideal S8x64 .f32)
    (g be : Vec Ideal S1x64 .f32) (k : Fin 64) (r : Fin 4096) :
    k3_pay16 D T P Q g be (ix2 k r)
      = max (Ideal.div (D (ix2 r k)) (Ideal.sqrt
          (((((P (ix2 0 k) + Q (ix2 0 k) + T (ix3 10 0 k) + T (ix3 11 0 k) + T (ix3 12 0 k) + T (ix3 13 0 k) + T (ix3 14 0 k) + T (ix3 15 0 k)) + (P (ix2 4 k) + Q (ix2 4 k) + T (ix3 10 4 k) + T (ix3 11 4 k) + T (ix3 12 4 k) + T (ix3 13 4 k) + T (ix3 14 4 k) + T (ix3 15 4 k))) + ((P (ix2 2 k) + Q (ix2 2 k) + T (ix3 10 2 k) + T (ix3 11 2 k) + T (ix3 12 2 k) + T (ix3 13 2 k) + T (ix3 14 2 k) + T (ix3 15 2 k)) + (P (ix2 6 k) + Q (ix2 6 k) + T (ix3 10 6 k) + T (ix3 11 6 k) + T (ix3 12 6 k) + T (ix3 13 6 k) + T (ix3 14 6 k) + T (ix3 15 6 k)))) + (((P (ix2 1 k) + Q (ix2 1 k) + T (ix3 10 1 k) + T (ix3 11 1 k) + T (ix3 12 1 k) + T (ix3 13 1 k) + T (ix3 14 1 k) + T (ix3 15 1 k)) + (P (ix2 5 k) + Q (ix2 5 k) + T (ix3 10 5 k) + T (ix3 11 5 k) + T (ix3 12 5 k) + T (ix3 13 5 k) + T (ix3 14 5 k) + T (ix3 15 5 k))) + ((P (ix2 3 k) + Q (ix2 3 k) + T (ix3 10 3 k) + T (ix3 11 3 k) + T (ix3 12 3 k) + T (ix3 13 3 k) + T (ix3 14 3 k) + T (ix3 15 3 k)) + (P (ix2 7 k) + Q (ix2 7 k) + T (ix3 10 7 k) + T (ix3 11 7 k) + T (ix3 12 7 k) + T (ix3 13 7 k) + T (ix3 14 7 k) + T (ix3 15 7 k)))))
            * Cert.Spec.wInvRows + Cert.Spec.wEps)) * g (ix2 0 k) + be (ix2 0 k)) Cert.Spec.wZero := by
  unfold k3_pay16
  dsimp only
  refine (transpose_ix2_apply _ _ k r).trans ?_
  simp only [maximumf_apply, addf_apply, mulf_apply, divf_apply, broadcastTo_1b_ab_apply,
    shapeCast_self, broadcast_apply, sqrt_apply, slice2_axis0_eq, shapeCast_1ab_ab_apply, slab3_apply]
  rfl

/-! ## The three stages are the sum over the 4096 rows -/

/-- Column k of slab-row (u, l): the 32 slabs of the squares, added one after the other, are the sum over the 32
    rows 128·m + 8·u + l of the squared centred value. -/
theorem slabsum_apply (a : FVec Ideal S4096x64 .f32) (b : FVec Ideal S16x8x64 .f32) (c : FVec Ideal S8x64 .f32) (d : FVec Ideal S1x8x64 .f32)
    (u : Fin 16) (l : Fin 8) (k : Fin 64) :
    (k3_pay13 (k3_pay8 a b c d) (k3_pay11 (k3_pay8 a b c d) (k3_pay9 a b c d) (k3_pay10 a b c d)) (k3_pay12 (k3_pay8 a b c d))) (ix3 u l k)
      = ∑ m : Fin 32, k3_pay7 a b c d (ix2 (Cert.BatchSum.row m u l) k) * k3_pay7 a b c d (ix2 (Cert.BatchSum.row m u l) k) := by
  rw [pay13_apply, pay11_apply, pay9_apply, pay10_apply, pay12_apply]
  refine (Cert.BatchSum.sum32 (fun m => (k3_pay8 a b c d) (ix4 m u l k))).trans ?_
  exact Finset.sum_congr rfl fun m _ => pay8_apply a b c d m u l k

/-- Row l of the 8 left after the 16 slabs are added: the sum over u and m of the squares. -/
theorem rowsum_apply (a : FVec Ideal S4096x64 .f32) (b : FVec Ideal S16x8x64 .f32) (c : FVec Ideal S8x64 .f32) (d : FVec Ideal S1x8x64 .f32)
    (l : Fin 8) (k : Fin 64) :
    (k3_pay14 (k3_pay8 a b c d) (k3_pay11 (k3_pay8 a b c d) (k3_pay9 a b c d) (k3_pay10 a b c d)) (k3_pay12 (k3_pay8 a b c d))) (ix2 l k) + (k3_pay15 (k3_pay8 a b c d) (k3_pay11 (k3_pay8 a b c d) (k3_pay9 a b c d) (k3_pay10 a b c d)) (k3_pay12 (k3_pay8 a b c d))) (ix2 l k) + (k3_pay13 (k3_pay8 a b c d) (k3_pay11 (k3_pay8 a b c d) (k3_pay9 a b c d) (k3_pay10 a b c d)) (k3_pay12 (k3_pay8 a b c d))) (ix3 10 l k) + (k3_pay13 (k3_pay8 a b c d) (k3_pay11 (k3_pay8 a b c d) (k3_pay9 a b c d) (k3_pay10 a b c d)) (k3_pay12 (k3_pay8 a b c d))) (ix3 11 l k) + (k3_pay13 (k3_pay8 a b c d) (k3_pay11 (k3_pay8 a b c d) (k3_pay9 a b c d) (k3_pay10 a b c d)) (k3_pay12 (k3_pay8 a b c d))) (ix3 12 l k) + (k3_pay13 (k3_pay8 a b c d) (k3_pay11 (k3_pay8 a b c d) (k3_pay9 a b c d) (k3_pay10 a b c d)) (k3_pay12 (k3_pay8 a b c d))) (ix3 13 l k) + (k3_pay13 (k3_pay8 a b c d) (k3_pay11 (k3_pay8 a b c d) (k3_pay9 a b c d) (k3_pay10 a b c d)) (k3_pay12 (k3_pay8 a b c d))) (ix3 14 l k) + (k3_pay13 (k3_pay8 a b c d) (k3_pay11 (k3_pay8 a b c d) (k3_pay9 a b c d) (k3_pay10 a b c d)) (k3_pay12 (k3_pay8 a b c d))) (ix3 15 l k)
      = ∑ u : Fin 16, ∑ m : Fin 32, k3_pay7 a b c d (ix2 (Cert.BatchSum.row m u l) k) * k3_pay7 a b c d (ix2 (Cert.BatchSum.row m u l) k) := by
  rw [pay14_apply, pay15_apply]
  simp only [slabsum_apply]
  exact Cert.BatchSum.sum16 (fun u => ∑ m : Fin 32, k3_pay7 a b c d (ix2 (Cert.BatchSum.row m u l) k) * k3_pay7 a b c d (ix2 (Cert.BatchSum.row m u l) k))

/-- The last payload over the sums of squares: the 16 slab-rows, the fold of the 8 rows by halves and the three
    nested sums are the sum of the squared centred value over all 4096 rows of column k. -/
theorem body_apply (a : FVec Ideal S4096x64 .f32) (b : FVec Ideal S16x8x64 .f32) (c : FVec Ideal S8x64 .f32) (d : FVec Ideal S1x8x64 .f32)
    (g be : Vec Ideal S1x64 .f32) (k : Fin 64) (r : Fin 4096) :
    k3_pay16 (k3_pay7 a b c d) (k3_pay13 (k3_pay8 a b c d) (k3_pay11 (k3_pay8 a b c d) (k3_pay9 a b c d) (k3_pay10 a b c d)) (k3_pay12 (k3_pay8 a b c d))) (k3_pay14 (k3_pay8 a b c d) (k3_pay11 (k3_pay8 a b c d) (k3_pay9 a b c d) (k3_pay10 a b c d)) (k3_pay12 (k3_pay8 a b c d))) (k3_pay15 (k3_pay8 a b c d) (k3_pay11 (k3_pay8 a b c d) (k3_pay9 a b c d) (k3_pay10 a b c d)) (k3_pay12 (k3_pay8 a b c d))) g be (ix2 k r)
      = max (Ideal.div (k3_pay7 a b c d (ix2 r k)) (Ideal.sqrt
          ((∑ r' : Fin 4096, k3_pay7 a b c d (ix2 r' k) * k3_pay7 a b c d (ix2 r' k)) * Cert.Spec.wInvRows + Cert.Spec.wEps)) * g (ix2 0 k) + be (ix2 0 k))
          Cert.Spec.wZero := by
  refine (pay16_apply _ _ _ _ g be k r).trans ?_
  refine congrArg (fun X => max (Ideal.div (k3_pay7 a b c d (ix2 r k)) (Ideal.sqrt (X * Cert.Spec.wInvRows + Cert.Spec.wEps))
    * g (ix2 0 k) + be (ix2 0 k)) Cert.Spec.wZero) ?_
  refine Eq.trans ?_ (Cert.BatchSum.sum_rows (fun r' : Fin 4096 => k3_pay7 a b c d (ix2 r' k) * k3_pay7 a b c d (ix2 r' k))).symm
  refine Eq.trans ?_ (Cert.BatchSum.fold8 (fun l : Fin 8 => ∑ u : Fin 16, ∑ m : Fin 32, k3_pay7 a b c d (ix2 (Cert.BatchSum.row m u l) k) * k3_pay7 a b c d (ix2 (Cert.BatchSum.row m u l) k)))
  exact congrArg₂ (· + ·)
    (congrArg₂ (· + ·) (congrArg₂ (· + ·) (rowsum_apply a b c d 0 k) (rowsum_apply a b c d 4 k))
      (congrArg₂ (· + ·) (rowsum_apply a b c d 2 k) (rowsum_apply a b c d 6 k)))
    (congrArg₂ (· + ·) (congrArg₂ (· + ·) (rowsum_apply a b c d 1 k) (rowsum_apply a b c d 5 k))
      (congrArg₂ (· + ·) (rowsum_apply a b c d 3 k) (rowsum_apply a b c d 7 k)))

theorem hz : (![0, 0] : Fin 2 → Nat) = fun _ => 0 := funext fun a => by fin_cases a <;> rfl

/-- The block the body leaves, entry by entry: given the centred value of the linear map (the first half of the
    body), the output is the layer — the centred value over the root of the biased variance plus ε, scaled, shifted,
    and its positive part; the block is stored transposed, entry (k, r). -/
theorem out3_5_apply (x0 : Vec Ideal S4096x64 .f32) (x1 : Vec Ideal S64x64 .f32) (x2 x3 x4 : Vec Ideal S1x64 .f32)
    (hD : ∀ (r : Fin 4096) (k : Fin 64),
      k3_pay7 (k3_pay1 x0 x1 x2) (k3_pay4 (k3_pay2 x0 x1 x2) (k3_pay3 x0 x1 x2)) (k3_pay5 (k3_pay2 x0 x1 x2) (k3_pay3 x0 x1 x2)) (k3_pay6 (k3_pay2 x0 x1 x2) (k3_pay3 x0 x1 x2)) (ix2 r k)
        = Cert.Spec.centred (Cert.Spec.lin (fun r c => x0 (ix2 r c)) (fun c k => x1 (ix2 c k)) (fun k => x2 (ix2 0 k))) r k)
    (k : Fin 64) (r : Fin 4096) :
    Gen.out3_5 (F := Ideal) x0 x1 x2 x3 x4 (ix2 k r)
      = Cert.Spec.layer (fun r c => x0 (ix2 r c)) (fun c k => x1 (ix2 c k)) (fun k => x2 (ix2 0 k))
          (fun k => x3 (ix2 0 k)) (fun k => x4 (ix2 0 k)) r k := by
  unfold Gen.out3_5
  rw [View.canon_unit_zero hz]
  simp only [View.ld_unit_zero (S := S4096x64) hz, View.ld_unit_zero (S := S64x64) hz, View.ld_unit_zero (S := S1x64) hz]
  refine (body_apply _ _ _ _ x3 x4 k r).trans ?_
  simp only [hD]
  rfl

end Cert.KernelIdeal.BnLinOut3

end
-- ==== Proof.BnLinOut5.lean ====
/-
  Region 5 (linear map, batch normalisation, positive part): the second half of the body,
  the variance and the output, read entry by entry on the extended reals.

  Write D for the centred value y − mean (a [4096, 64] array; the first half of the body). The body squares D,
  regroups the 4096 rows as 32 × 16 × 8 (row 128·m + 8·u + l) and sums the squares of each column in three
  stages: the 32 slabs m = 0 … 31 are added one after the other (the payloads carry the running sum across
  slabs 0–1, 2–20, 21, 22–31), then the 16 slabs u = 0 … 15 one after the other (0–8, 9, 10–15), then the 8
  remaining rows are folded by halves, (l, l + 4), (l, l + 2), (0, 1). Addition of extended reals is commutative
  and associative, so this is Σ_r D(r, k)² over all 4096 rows. The body then multiplies by the word of 1/4096,
  adds the word of ε, takes the square root, divides D by it, multiplies by the scale row, adds the shift row
  and takes the maximum with the word of 0.
  With D the centred value of the linear map (the hypothesis, proved with the first half) this is the layer of
  the specification, entry by entry.
-/
import proofs.«169346_g86071144612153_cont_sun_m_685_13_alg».proof.Proof.Gen.KernelIdeal.Frame
import proofs.«169346_g86071144612153_cont_sun_m_685_13_alg».proof.Proof.Spec
import proofs.«169346_g86071144612153_cont_sun_m_685_13_alg».proof.Proof.BnLinOutLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BnLinOut5

open Idealize.ShloMosaic Idealize.ShloMosaic.ValueIdx
open Cert.KernelIdeal Cert.KernelIdeal.Gen Cert.BnLinOutLayout
open scoped BigOperators

/-! ## The running sums over the 32 slabs, at an entry (u, l, k) -/

/-- Slabs 2 … 20 added to the running sum A + B, one after the other. -/
theorem pay11_apply (SQ : FVec Ideal S32x16x8x64 .f32) (A : FVec Ideal S16x8x64 .f32) (B : FVec Ideal S1x16x8x64 .f32)
    (u : Fin 16) (l : Fin 8) (k : Fin 64) :
    k5_pay11 SQ A B (ix3 u l k)
      = A (ix3 u l k) + B (ix4 0 u l k) + SQ (ix4 2 u l k) + SQ (ix4 3 u l k) + SQ (ix4 4 u l k) + SQ (ix4 5 u l k) + SQ (ix4 6 u l k) + SQ (ix4 7 u l k) + SQ (ix4 8 u l k) + SQ (ix4 9 u l k) + SQ (ix4 10 u l k) + SQ (ix4 11 u l k) + SQ (ix4 12 u l k) + SQ (ix4 13 u l k) + SQ (ix4 14 u l k) + SQ (ix4 15 u l k) + SQ (ix4 16 u l k) + SQ (ix4 17 u l k) + SQ (ix4 18 u l k) + SQ (ix4 19 u l k) + SQ (ix4 20 u l k) := by
  unfold k5_pay11
  simp only [addf_apply, shapeCast_1abc_abc_apply, slab4_apply]
  rfl

/-- Slab 21. -/
theorem pay12_apply (SQ : FVec Ideal S32x16x8x64 .f32) (z : Fin 1) (u : Fin 16) (l : Fin 8) (k : Fin 64) :
    k5_pay12 SQ (ix4 z u l k) = SQ (ix4 21 u l k) := by
  unfold k5_pay12
  simp only [slab4_apply]
  rfl

/-- Slabs 22 … 31 added to the running sum A + B, one after the other. -/
theorem pay13_apply (SQ : FVec Ideal S32x16x8x64 .f32) (A : FVec Ideal S16x8x64 .f32) (B : FVec Ideal S1x16x8x64 .f32)
    (u : Fin 16) (l : Fin 8) (k : Fin 64) :
    k5_pay13 SQ A B (ix3 u l k)
      = A (ix3 u l k) + B (ix4 0 u l k) + SQ (ix4 22 u l k) + SQ (ix4 23 u l k) + SQ (ix4 24 u l k) + SQ (ix4 25 u l k) + SQ (ix4 26 u l k) + SQ (ix4 27 u l k) + SQ (ix4 28 u l k) + SQ (ix4 29 u l k) + SQ (ix4 30 u l k) + SQ (ix4 31 u l k) := by
  unfold k5_pay13
  simp only [addf_apply, shapeCast_1abc_abc_apply, slab4_apply]
  rfl

/-- The square root of a vector, entry by entry. -/
theorem sqrt_apply {s : Shape} (v : FVec Ideal s .f32) (i : s.Idx) : sqrt v i = Ideal.sqrt (v i) := rfl

/-- The squares regrouped: entry (m, u, l, k) is the square of the centred value at row 128·m + 8·u + l. -/
theorem pay8_apply (a : FVec Ideal S4096x64 .f32) (b : FVec Ideal S16x8x64 .f32) (c : FVec Ideal S8x64 .f32) (d : FVec Ideal S1x8x64 .f32) (m : Fin 32) (u : Fin 16) (l : Fin 8) (k : Fin 64) :
    k5_pay8 a b c d (ix4 m u l k)
      = k5_pay7 a b c d (ix2 (Cert.BatchSum.row m u l) k) * k5_pay7 a b c d (ix2 (Cert.BatchSum.row m u l) k) := by
  unfold k5_pay8
  simp only [regroup_apply, mulf_apply]

/-- Slab 0 of the squares. -/
theorem pay9_apply (a : FVec Ideal S4096x64 .f32) (b : FVec Ideal S16x8x64 .f32) (c : FVec Ideal S8x64 .f32) (d : FVec Ideal S1x8x64 .f32) (u : Fin 16) (l : Fin 8) (k : Fin 64) :
    k5_pay9 a b c d (ix3 u l k) = k5_pay8 a b c d (ix4 0 u l k) := by
  unfold k5_pay9
  simp only [shapeCast_1abc_abc_apply, slab4_apply]
  rfl

/-- Slab 1 of the squares. -/
theorem pay10_apply (a : FVec Ideal S4096x64 .f32) (b : FVec Ideal S16x8x64 .f32) (c : FVec Ideal S8x64 .f32) (d : FVec Ideal S1x8x64 .f32) (z : Fin 1) (u : Fin 16) (l : Fin 8) (k : Fin 64) :
    k5_pay10 a b c d (ix4 z u l k) = k5_pay8 a b c d (ix4 1 u l k) := by
  unfold k5_pay10
  simp only [slab4_apply]
  rfl

/-! ## The running sums over the 16 slabs, at an entry (l, k) -/

/-- Slabs 0 … 8 of the 16, added one after the other. -/
theorem pay14_apply (SQ : FVec Ideal S32x16x8x64 .f32) (A : FVec Ideal S16x8x64 .f32) (B : FVec Ideal S1x16x8x64 .f32)
    (l : Fin 8) (k : Fin 64) :
    k5_pay14 SQ A B (ix2 l k) = k5_pay13 SQ A B (ix3 0 l k) + k5_pay13 SQ A B (ix3 1 l k) + k5_pay13 SQ A B (ix3 2 l k) + k5_pay13 SQ A B (ix3 3 l k) + k5_pay13 SQ A B (ix3 4 l k) + k5_pay13 SQ A B (ix3 5 l k) + k5_pay13 SQ A B (ix3 6 l k) + k5_pay13 SQ A B (ix3 7 l k) + k5_pay13 SQ A B (ix3 8 l k) := by
  unfold k5_pay14
  simp only [addf_apply, shapeCast_1ab_ab_apply, slab3_apply]
  rfl

/-- Slab 9 of the 16. -/
theorem pay15_apply (SQ : FVec Ideal S32x16x8x64 .f32) (A : FVec Ideal S16x8x64 .f32) (B : FVec Ideal S1x16x8x64 .f32)
    (l : Fin 8) (k : Fin 64) :
    k5_pay15 SQ A B (ix2 l k) = k5_pay13 SQ A B (ix3 9 l k) := by
  unfold k5_pay15
  simp only [shapeCast_1ab_ab_apply, slab3_apply]
  rfl

/-! ## The last payload at an entry -/

/-- The last payload at entry (r, k): slabs 10 … 15 added to P + Q, the 8 rows folded by halves, times the
    word of 1/4096, plus the word of ε, the root, D over it, times the scale, plus the shift, the maximum with the
    word of 0. -/
theorem pay16_apply (D : FVec Ideal S4096x64 .f32) (T : FVec Ideal S16x8x64 .f32) (P Q : FVec Ideal S8x64 .f32)
    (g be : Vec Ideal S1x64 .f32) (k : Fin 64) (r : Fin 4096) :
    k5_pay16 D T P Q g be (ix2 r k)
      = max (Ideal.div (D (ix2 r k)) (Ideal.sqrt
          (((((P (ix2 0 k) + Q (ix2 0 k) + T (ix3 10 0 k) + T (ix3 11 0 k) + T (ix3 12 0 k) + T (ix3 13 0 k) + T (ix3 14 0 k) + T (ix3 15 0 k)) + (P (ix2 4 k) + Q (ix2 4 k) + T (ix3 10 4 k) + T (ix3 11 4 k) + T (ix3 12 4 k) + T (ix3 13 4 k) + T (ix3 14 4 k) + T (ix3 15 4 k))) + ((P (ix2 2 k) + Q (ix2 2 k) + T (ix3 10 2 k) + T (ix3 11 2 k) + T (ix3 12 2 k) + T (ix3 13 2 k) + T (ix3 14 2 k) + T (ix3 15 2 k)) + (P (ix2 6 k) + Q (ix2 6 k) + T (ix3 10 6 k) + T (ix3 11 6 k) + T (ix3 12 6 k) + T (ix3 13 6 k) + T (ix3 14 6 k) + T (ix3 15 6 k)))) + (((P (ix2 1 k) + Q (ix2 1 k) + T (ix3 10 1 k) + T (ix3 11 1 k) + T (ix3 12 1 k) + T (ix3 13 1 k) + T (ix3 14 1 k) + T (ix3 15 1 k)) + (P (ix2 5 k) + Q (ix2 5 k) + T (ix3 10 5 k) + T (ix3 11 5 k) + T (ix3 12 5 k) + T (ix3 13 5 k) + T (ix3 14 5 k) + T (ix3 15 5 k))) + ((P (ix2 3 k) + Q (ix2 3 k) + T (ix3 10 3 k) + T (ix3 11 3 k) + T (ix3 12 3 k) + T (ix3 13 3 k) + T (ix3 14 3 k) + T (ix3 15 3 k)) + (P (ix2 7 k) + Q (ix2 7 k) + T (ix3 10 7 k) + T (ix3 11 7 k) + T (ix3 12 7 k) + T (ix3 13 7 k) + T (ix3 14 7 k) + T (ix3 15 7 k)))))
            * Cert.Spec.wInvRows + Cert.Spec.wEps)) * g (ix2 0 k) + be (ix2 0 k)) Cert.Spec.wZero := by
  unfold k5_pay16
  simp only [maximumf_apply, addf_apply, mulf_apply, divf_apply, broadcastTo_1b_ab_apply,
    shapeCast_self, broadcast_apply, sqrt_apply, slice2_axis0_eq, shapeCast_1ab_ab_apply, slab3_apply]
  rfl

/-! ## The three stages are the sum over the 4096 rows -/

/-- Column k of slab-row (u, l): the 32 slabs of the squares, added one after the other, are the sum over the 32
    rows 128·m + 8·u + l of the squared centred value. -/
theorem slabsum_apply (a : FVec Ideal S4096x64 .f32) (b : FVec Ideal S16x8x64 .f32) (c : FVec Ideal S8x64 .f32) (d : FVec Ideal S1x8x64 .f32)
    (u : Fin 16) (l : Fin 8) (k : Fin 64) :
    (k5_pay13 (k5_pay8 a b c d) (k5_pay11 (k5_pay8 a b c d) (k5_pay9 a b c d) (k5_pay10 a b c d)) (k5_pay12 (k5_pay8 a b c d))) (ix3 u l k)
      = ∑ m : Fin 32, k5_pay7 a b c d (ix2 (Cert.BatchSum.row m u l) k) * k5_pay7 a b c d (ix2 (Cert.BatchSum.row m u l) k) := by
  rw [pay13_apply, pay11_apply, pay9_apply, pay10_apply, pay12_apply]
  refine (Cert.BatchSum.sum32 (fun m => (k5_pay8 a b c d) (ix4 m u l k))).trans ?_
  exact Finset.sum_congr rfl fun m _ => pay8_apply a b c d m u l k

/-- Row l of the 8 left after the 16 slabs are added: the sum over u and m of the squares. -/
theorem rowsum_apply (a : FVec Ideal S4096x64 .f32) (b : FVec Ideal S16x8x64 .f32) (c : FVec Ideal S8x64 .f32) (d : FVec Ideal S1x8x64 .f32)
    (l : Fin 8) (k : Fin 64) :
    (k5_pay14 (k5_pay8 a b c d) (k5_pay11 (k5_pay8 a b c d) (k5_pay9 a b c d) (k5_pay10 a b c d)) (k5_pay12 (k5_pay8 a b c d))) (ix2 l k) + (k5_pay15 (k5_pay8 a b c d) (k5_pay11 (k5_pay8 a b c d) (k5_pay9 a b c d) (k5_pay10 a b c d)) (k5_pay12 (k5_pay8 a b c d))) (ix2 l k) + (k5_pay13 (k5_pay8 a b c d) (k5_pay11 (k5_pay8 a b c d) (k5_pay9 a b c d) (k5_pay10 a b c d)) (k5_pay12 (k5_pay8 a b c d))) (ix3 10 l k) + (k5_pay13 (k5_pay8 a b c d) (k5_pay11 (k5_pay8 a b c d) (k5_pay9 a b c d) (k5_pay10 a b c d)) (k5_pay12 (k5_pay8 a b c d))) (ix3 11 l k) + (k5_pay13 (k5_pay8 a b c d) (k5_pay11 (k5_pay8 a b c d) (k5_pay9 a b c d) (k5_pay10 a b c d)) (k5_pay12 (k5_pay8 a b c d))) (ix3 12 l k) + (k5_pay13 (k5_pay8 a b c d) (k5_pay11 (k5_pay8 a b c d) (k5_pay9 a b c d) (k5_pay10 a b c d)) (k5_pay12 (k5_pay8 a b c d))) (ix3 13 l k) + (k5_pay13 (k5_pay8 a b c d) (k5_pay11 (k5_pay8 a b c d) (k5_pay9 a b c d) (k5_pay10 a b c d)) (k5_pay12 (k5_pay8 a b c d))) (ix3 14 l k) + (k5_pay13 (k5_pay8 a b c d) (k5_pay11 (k5_pay8 a b c d) (k5_pay9 a b c d) (k5_pay10 a b c d)) (k5_pay12 (k5_pay8 a b c d))) (ix3 15 l k)
      = ∑ u : Fin 16, ∑ m : Fin 32, k5_pay7 a b c d (ix2 (Cert.BatchSum.row m u l) k) * k5_pay7 a b c d (ix2 (Cert.BatchSum.row m u l) k) := by
  rw [pay14_apply, pay15_apply]
  simp only [slabsum_apply]
  exact Cert.BatchSum.sum16 (fun u => ∑ m : Fin 32, k5_pay7 a b c d (ix2 (Cert.BatchSum.row m u l) k) * k5_pay7 a b c d (ix2 (Cert.BatchSum.row m u l) k))

/-- The last payload over the sums of squares: the 16 slab-rows, the fold of the 8 rows by halves and the three
    nested sums are the sum of the squared centred value over all 4096 rows of column k. -/
theorem body_apply (a : FVec Ideal S4096x64 .f32) (b : FVec Ideal S16x8x64 .f32) (c : FVec Ideal S8x64 .f32) (d : FVec Ideal S1x8x64 .f32)
    (g be : Vec Ideal S1x64 .f32) (k : Fin 64) (r : Fin 4096) :
    k5_pay16 (k5_pay7 a b c d) (k5_pay13 (k5_pay8 a b c d) (k5_pay11 (k5_pay8 a b c d) (k5_pay9 a b c d) (k5_pay10 a b c d)) (k5_pay12 (k5_pay8 a b c d))) (k5_pay14 (k5_pay8 a b c d) (k5_pay11 (k5_pay8 a b c d) (k5_pay9 a b c d) (k5_pay10 a b c d)) (k5_pay12 (k5_pay8 a b c d))) (k5_pay15 (k5_pay8 a b c d) (k5_pay11 (k5_pay8 a b c d) (k5_pay9 a b c d) (k5_pay10 a b c d)) (k5_pay12 (k5_pay8 a b c d))) g be (ix2 r k)
      = max (Ideal.div (k5_pay7 a b c d (ix2 r k)) (Ideal.sqrt
          ((∑ r' : Fin 4096, k5_pay7 a b c d (ix2 r' k) * k5_pay7 a b c d (ix2 r' k)) * Cert.Spec.wInvRows + Cert.Spec.wEps)) * g (ix2 0 k) + be (ix2 0 k))
          Cert.Spec.wZero := by
  refine (pay16_apply _ _ _ _ g be k r).trans ?_
  refine congrArg (fun X => max (Ideal.div (k5_pay7 a b c d (ix2 r k)) (Ideal.sqrt (X * Cert.Spec.wInvRows + Cert.Spec.wEps))
    * g (ix2 0 k) + be (ix2 0 k)) Cert.Spec.wZero) ?_
  refine Eq.trans ?_ (Cert.BatchSum.sum_rows (fun r' : Fin 4096 => k5_pay7 a b c d (ix2 r' k) * k5_pay7 a b c d (ix2 r' k))).symm
  refine Eq.trans ?_ (Cert.BatchSum.fold8 (fun l : Fin 8 => ∑ u : Fin 16, ∑ m : Fin 32, k5_pay7 a b c d (ix2 (Cert.BatchSum.row m u l) k) * k5_pay7 a b c d (ix2 (Cert.BatchSum.row m u l) k)))
  exact congrArg₂ (· + ·)
    (congrArg₂ (· + ·) (congrArg₂ (· + ·) (rowsum_apply a b c d 0 k) (rowsum_apply a b c d 4 k))
      (congrArg₂ (· + ·) (rowsum_apply a b c d 2 k) (rowsum_apply a b c d 6 k)))
    (congrArg₂ (· + ·) (congrArg₂ (· + ·) (rowsum_apply a b c d 1 k) (rowsum_apply a b c d 5 k))
      (congrArg₂ (· + ·) (rowsum_apply a b c d 3 k) (rowsum_apply a b c d 7 k)))

theorem hz : (![0, 0] : Fin 2 → Nat) = fun _ => 0 := funext fun a => by fin_cases a <;> rfl

/-- The block the body leaves, entry by entry: given the centred value of the linear map (the first half of the
    body), the output is the layer — the centred value over the root of the biased variance plus ε, scaled, shifted,
    and its positive part. -/
theorem out5_5_apply (x0 : Vec Ideal S4096x64 .f32) (x1 : Vec Ideal S64x64 .f32) (x2 x3 x4 : Vec Ideal S1x64 .f32)
    (hD : ∀ (r : Fin 4096) (k : Fin 64),
      k5_pay7 (k5_pay1 x0 x1 x2) (k5_pay4 (k5_pay2 x0 x1 x2) (k5_pay3 x0 x1 x2)) (k5_pay5 (k5_pay2 x0 x1 x2) (k5_pay3 x0 x1 x2)) (k5_pay6 (k5_pay2 x0 x1 x2) (k5_pay3 x0 x1 x2)) (ix2 r k)
        = Cert.Spec.centred (Cert.Spec.lin (fun r c => x0 (ix2 r c)) (fun c k => x1 (ix2 c k)) (fun k => x2 (ix2 0 k))) r k)
    (k : Fin 64) (r : Fin 4096) :
    Gen.out5_5 (F := Ideal) x0 x1 x2 x3 x4 (ix2 r k)
      = Cert.Spec.layer (fun r c => x0 (ix2 r c)) (fun c k => x1 (ix2 c k)) (fun k => x2 (ix2 0 k))
          (fun k => x3 (ix2 0 k)) (fun k => x4 (ix2 0 k)) r k := by
  unfold Gen.out5_5
  rw [View.canon_unit_zero hz]
  simp only [View.ld_unit_zero (S := S4096x64) hz, View.ld_unit_zero (S := S64x64) hz, View.ld_unit_zero (S := S1x64) hz]
  refine (body_apply _ _ _ _ x3 x4 k r).trans ?_
  simp only [hD]
  rfl

end Cert.KernelIdeal.BnLinOut5

end
-- ==== Proof.RefRunOps.lean ====
/- The reference program's host operations as a list, in program order: each statement of @main is one entry,
   and a call of an outlined function stands as the operations of the function's body over the call's own
   buffers. 180 operations in 5 consecutive windows; beside each window, the buffers it writes. -/
import proofs.«169346_g86071144612153_cont_sun_m_685_13_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of 180. -/
abbrev ops0 : List (HloOp τ sig (Elt F)) :=
  [ StableHlo.unary main_arg0 main_v0 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_arg1 main_v1 (broadcastInDim S4096x1x64 ![0, 2] bcast_S4096x64_S4096x1x64_0_2 : (⟨S4096x64, .f32⟩ : BufTy).Contents (Elt F) → (⟨S4096x1x64, .f32⟩ : BufTy).Contents (Elt F)),
    StableHlo.binary main_v0 main_v1 main_v2 ((fun l r => Host.dotGeneral dot_S4096x64x1_S4096x1x64_S4096x64x64_2_1_1_2_0_0 none l r) : (⟨S4096x64x1, .f32⟩ : BufTy).Contents (Elt F) → (⟨S4096x1x64, .f32⟩ : BufTy).Contents (Elt F) → (⟨S4096x64x64, .f32⟩ : BufTy).Contents (Elt F)),
    StableHlo.nullary main_cst (constant S_ .f32 0x41000000#32),
    StableHlo.unary main_cst main_v3 (broadcastInDim S4096x64x64 ![] bcast_S_S4096x64x64 : (⟨S_, .f32⟩ : BufTy).Contents (Elt F) → (⟨S4096x64x64, .f32⟩ : BufTy).Contents (Elt F)),
    StableHlo.binary main_v2 main_v3 main_v4 (Host.divf : (⟨S4096x64x64, .f32⟩ : BufTy).Contents (Elt F) → (⟨S4096x64x64, .f32⟩ : BufTy).Contents (Elt F) → (⟨S4096x64x64, .f32⟩ : BufTy).Contents (Elt F)),
    StableHlo.nullary main_cst_0 (constant S_ .f32 0xFF800000#32),
    StableHlo.binary main_v4 main_cst_0 main_v5 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.nullary main_cst_1 (constant S_ .f32 0xFF800000#32),
    StableHlo.unary main_cst_1 main_v6 (broadcastInDim S4096x64 ![] bcast_S_S4096x64 : (⟨S_, .f32⟩ : BufTy).Contents (Elt F) → (⟨S4096x64, .f32⟩ : BufTy).Contents (Elt F)),
    StableHlo.binary main_v6 main_v5 main_v7 (maximumf : (⟨S4096x64, .f32⟩ : BufTy).Contents (Elt F) → (⟨S4096x64, .f32⟩ : BufTy).Contents (Elt F) → (⟨S4096x64, .f32⟩ : BufTy).Contents (Elt F)),
    StableHlo.unary main_v7 main_v8 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_v8 main_v9 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    StableHlo.binary main_v4 main_v9 main_v10 (subf : (⟨S4096x64x64, .f32⟩ : BufTy).Contents (Elt F) → (⟨S4096x64x64, .f32⟩ : BufTy).Contents (Elt F) → (⟨S4096x64x64, .f32⟩ : BufTy).Contents (Elt F)),
    StableHlo.unary main_v10 main_v11 (Host.exp : (⟨S4096x64x64, .f32⟩ : BufTy).Contents (Elt F) → (⟨S4096x64x64, .f32⟩ : BufTy).Contents (Elt F)),
    StableHlo.nullary main_cst_2 (constant S_ .f32 0x00000000#32),
    StableHlo.binary main_v11 main_cst_2 main_v12 ((fun x v => Host.reduceAdd x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.unary main_v12 main_v13 (broadcastInDim S4096x64x1 ![0, 1] bcast_S4096x64_S4096x64x1_0_1 : (⟨S4096x64, .f32⟩ : BufTy).Contents (Elt F) → (⟨S4096x64x1, .f32⟩ : BufTy).Contents (Elt F)),
    StableHlo.unary main_v13 main_v14 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    StableHlo.binary main_v11 main_v14 main_v15 (Host.divf : (⟨S4096x64x64, .f32⟩ : BufTy).Contents (Elt F) → (⟨S4096x64x64, .f32⟩ : BufTy).Contents (Elt F) → (⟨S4096x64x64, .f32⟩ : BufTy).Contents (Elt F)),
    StableHlo.nullary main_cst_3 (constant S_ .f32 0xFF800000#32),
    StableHlo.binary main_v15 main_cst_3 main_v16 ((fun x v => Host.reduce FloatOps.maximumf x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)) ]

/-- The buffers operations 1 … 22 write, in order. -/
abbrev ops0_W : List (Ref sig .tc) :=
  [main_v0, main_v1, main_v2, main_cst, main_v3, main_v4, main_cst_0, main_v5, main_cst_1, main_v6, main_v7, main_v8, main_v9, main_v10, main_v11, main_cst_2, main_v12, main_v13, main_v14, main_v15, main_cst_3, main_v16]

/-- Operations 23 … 74 of 180. -/
abbrev ops1 : List (HloOp τ sig (Elt F)) :=
  [ StableHlo.unary main_arg4 main_v17 ((transpose S64x64 [1, 0] · transposes_S64x64_S64x64_1_0) : (⟨S64x64, .f32⟩ : BufTy).Contents (Elt F) → (⟨S64x64, .f32⟩ : BufTy).Contents (Elt F)),
    StableHlo.binary main_v16 main_v17 main_v18 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg5 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S4096x64 ![0, 1] bcast_S1x64_S4096x64_0_1 : (⟨S1x64, .f32⟩ : BufTy).Contents (Elt F) → (⟨S4096x64, .f32⟩ : BufTy).Contents (Elt F)),
    StableHlo.binary main_v18 main_v20 main_v21 (addf : (⟨S4096x64, .f32⟩ : BufTy).Contents (Elt F) → (⟨S4096x64, .f32⟩ : BufTy).Contents (Elt F) → (⟨S4096x64, .f32⟩ : BufTy).Contents (Elt F)),
    StableHlo.nullary main_cst_4 (constant S_ .f32 0x00000000#32),
    StableHlo.binary main_v21 main_cst_4 main_v22 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_5 (constant S_ .f32 0x45800000#32),
    StableHlo.unary main_cst_5 main_v23 (broadcastInDim S64 ![] bcast_S_S64 : (⟨S_, .f32⟩ : BufTy).Contents (Elt F) → (⟨S64, .f32⟩ : BufTy).Contents (Elt F)),
    StableHlo.binary main_v22 main_v23 main_v24 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v21 : StableHlo.TRef sig ⟨S4096x64, .f32⟩) main_call0.cst main_call0.v0 (fun x v => Host.reduceAdd x v reducesTo_S4096x64_S64_d0 h_S_),
    StableHlo.TRef.unary main_call0.v0 main_call0.v1 (broadcastInDim S1x64 ![1] bcast_S64_S1x64_1),
    StableHlo.TRef.nullary main_call0.cst_0 (constant S_ .f32 0x45800000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S4096x64 ![0, 1] bcast_S1x64_S4096x64_0_1),
    StableHlo.TRef.binary (.of main_v21 : StableHlo.TRef sig ⟨S4096x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v24 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S4096x64 ![0, 1] bcast_S1x64_S4096x64_0_1 : (⟨S1x64, .f32⟩ : BufTy).Contents (Elt F) → (⟨S4096x64, .f32⟩ : BufTy).Contents (Elt F)),
    StableHlo.binary main_v21 main_v27 main_v28 (subf : (⟨S4096x64, .f32⟩ : BufTy).Contents (Elt F) → (⟨S4096x64, .f32⟩ : BufTy).Contents (Elt F) → (⟨S4096x64, .f32⟩ : BufTy).Contents (Elt F)),
    StableHlo.nullary main_cst_6 (constant S_ .f32 0x3727C5AC#32),
    StableHlo.unary main_cst_6 main_v29 (broadcastInDim S64 ![] bcast_S_S64 : (⟨S_, .f32⟩ : BufTy).Contents (Elt F) → (⟨S64, .f32⟩ : BufTy).Contents (Elt F)),
    StableHlo.binary main_v25 main_v29 main_v30 (addf : (⟨S64, .f32⟩ : BufTy).Contents (Elt F) → (⟨S64, .f32⟩ : BufTy).Contents (Elt F) → (⟨S64, .f32⟩ : BufTy).Contents (Elt F)),
    StableHlo.unary main_v30 main_v31 (Host.sqrt : (⟨S64, .f32⟩ : BufTy).Contents (Elt F) → (⟨S64, .f32⟩ : BufTy).Contents (Elt F)),
    StableHlo.unary main_v31 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S4096x64 ![0, 1] bcast_S1x64_S4096x64_0_1 : (⟨S1x64, .f32⟩ : BufTy).Contents (Elt F) → (⟨S4096x64, .f32⟩ : BufTy).Contents (Elt F)),
    StableHlo.binary main_v28 main_v33 main_v34 (Host.divf : (⟨S4096x64, .f32⟩ : BufTy).Contents (Elt F) → (⟨S4096x64, .f32⟩ : BufTy).Contents (Elt F) → (⟨S4096x64, .f32⟩ : BufTy).Contents (Elt F)),
    StableHlo.unary main_arg6 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S4096x64 ![0, 1] bcast_S1x64_S4096x64_0_1 : (⟨S1x64, .f32⟩ : BufTy).Contents (Elt F) → (⟨S4096x64, .f32⟩ : BufTy).Contents (Elt F)),
    StableHlo.binary main_v34 main_v36 main_v37 (mulf : (⟨S4096x64, .f32⟩ : BufTy).Contents (Elt F) → (⟨S4096x64, .f32⟩ : BufTy).Contents (Elt F) → (⟨S4096x64, .f32⟩ : BufTy).Contents (Elt F)),
    StableHlo.unary main_arg7 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S4096x64 ![0, 1] bcast_S1x64_S4096x64_0_1 : (⟨S1x64, .f32⟩ : BufTy).Contents (Elt F) → (⟨S4096x64, .f32⟩ : BufTy).Contents (Elt F)),
    StableHlo.binary main_v37 main_v39 main_v40 (addf : (⟨S4096x64, .f32⟩ : BufTy).Contents (Elt F) → (⟨S4096x64, .f32⟩ : BufTy).Contents (Elt F) → (⟨S4096x64, .f32⟩ : BufTy).Contents (Elt F)),
    StableHlo.TRef.nullary main_call1.cst (constant S_ .f32 0x00000000#32),
    StableHlo.TRef.unary main_call1.cst main_call1.v0 (broadcastInDim S4096x64 ![] bcast_S_S4096x64),
    StableHlo.TRef.binary (.of main_v40 : StableHlo.TRef sig ⟨S4096x64, .f32⟩) main_call1.v0 main_call1.v1 maximumf ]

/-- The buffers operations 23 … 74 write, in order. -/
abbrev ops1_W : List (Ref sig .tc) :=
  [main_v17, main_v18, main_v19, main_v20, main_v21, main_cst_4, main_v22, main_cst_5, main_v23, main_v24, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v26, main_v27, main_v28, main_cst_6, main_v29, main_v30, main_v31, main_v32, main_v33, main_v34, main_v35, main_v36, main_v37, main_v38, main_v39, main_v40, main_call1.cst.ref, main_call1.v0.ref, main_call1.v1.ref]

/-- Operations 75 … 83 of 180. -/
abbrev ops2 : List (HloOp τ sig (Elt F)) :=
  [ StableHlo.binary main_arg2 main_v41 main_v42 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.unary main_arg8 main_v43 ((transpose S64x64 [1, 0] · transposes_S64x64_S64x64_1_0) : (⟨S64x64, .f32⟩ : BufTy).Contents (Elt F) → (⟨S64x64, .f32⟩ : BufTy).Contents (Elt F)),
    StableHlo.binary main_v42 main_v43 main_v44 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg9 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S4096x64 ![0, 1] bcast_S1x64_S4096x64_0_1 : (⟨S1x64, .f32⟩ : BufTy).Contents (Elt F) → (⟨S4096x64, .f32⟩ : BufTy).Contents (Elt F)),
    StableHlo.binary main_v44 main_v46 main_v47 (addf : (⟨S4096x64, .f32⟩ : BufTy).Contents (Elt F) → (⟨S4096x64, .f32⟩ : BufTy).Contents (Elt F) → (⟨S4096x64, .f32⟩ : BufTy).Contents (Elt F)),
    StableHlo.nullary main_cst_7 (constant S_ .f32 0x00000000#32),
    StableHlo.binary main_v47 main_cst_7 main_v48 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_8 (constant S_ .f32 0x45800000#32) ]

/-- The buffers operations 75 … 83 write, in order. -/
abbrev ops2_W : List (Ref sig .tc) :=
  [main_v42, main_v43, main_v44, main_v45, main_v46, main_v47, main_cst_7, main_v48, main_cst_8]

/-- Operations 84 … 127 of 180. -/
abbrev ops3 : List (HloOp τ sig (Elt F)) :=
  [ StableHlo.unary main_cst_8 main_v49 (broadcastInDim S64 ![] bcast_S_S64 : (⟨S_, .f32⟩ : BufTy).Contents (Elt F) → (⟨S64, .f32⟩ : BufTy).Contents (Elt F)),
    StableHlo.binary main_v48 main_v49 main_v50 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v47 : StableHlo.TRef sig ⟨S4096x64, .f32⟩) main_call2.cst main_call2.v0 (fun x v => Host.reduceAdd x v reducesTo_S4096x64_S64_d0 h_S_),
    StableHlo.TRef.unary main_call2.v0 main_call2.v1 (broadcastInDim S1x64 ![1] bcast_S64_S1x64_1),
    StableHlo.TRef.nullary main_call2.cst_0 (constant S_ .f32 0x45800000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S4096x64 ![0, 1] bcast_S1x64_S4096x64_0_1),
    StableHlo.TRef.binary (.of main_v47 : StableHlo.TRef sig ⟨S4096x64, .f32⟩) main_call2.v4 main_call2.v5 subf,
    StableHlo.TRef.binary main_call2.v5 main_call2.v5 main_call2.v6 mulf,
    StableHlo.TRef.unary (.of main_c_9 : StableHlo.TRef sig ⟨S_, .i32⟩) main_call2.v7 (sitofp .f32),
    StableHlo.TRef.nullary main_call2.cst_1 (constant S_ .f32 0x45800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4096x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v50 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S4096x64 ![0, 1] bcast_S1x64_S4096x64_0_1 : (⟨S1x64, .f32⟩ : BufTy).Contents (Elt F) → (⟨S4096x64, .f32⟩ : BufTy).Contents (Elt F)),
    StableHlo.binary main_v47 main_v53 main_v54 (subf : (⟨S4096x64, .f32⟩ : BufTy).Contents (Elt F) → (⟨S4096x64, .f32⟩ : BufTy).Contents (Elt F) → (⟨S4096x64, .f32⟩ : BufTy).Contents (Elt F)),
    StableHlo.nullary main_cst_10 (constant S_ .f32 0x3727C5AC#32),
    StableHlo.unary main_cst_10 main_v55 (broadcastInDim S64 ![] bcast_S_S64 : (⟨S_, .f32⟩ : BufTy).Contents (Elt F) → (⟨S64, .f32⟩ : BufTy).Contents (Elt F)),
    StableHlo.binary main_v51 main_v55 main_v56 (addf : (⟨S64, .f32⟩ : BufTy).Contents (Elt F) → (⟨S64, .f32⟩ : BufTy).Contents (Elt F) → (⟨S64, .f32⟩ : BufTy).Contents (Elt F)),
    StableHlo.unary main_v56 main_v57 (Host.sqrt : (⟨S64, .f32⟩ : BufTy).Contents (Elt F) → (⟨S64, .f32⟩ : BufTy).Contents (Elt F)),
    StableHlo.unary main_v57 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S4096x64 ![0, 1] bcast_S1x64_S4096x64_0_1 : (⟨S1x64, .f32⟩ : BufTy).Contents (Elt F) → (⟨S4096x64, .f32⟩ : BufTy).Contents (Elt F)),
    StableHlo.binary main_v54 main_v59 main_v60 (Host.divf : (⟨S4096x64, .f32⟩ : BufTy).Contents (Elt F) → (⟨S4096x64, .f32⟩ : BufTy).Contents (Elt F) → (⟨S4096x64, .f32⟩ : BufTy).Contents (Elt F)),
    StableHlo.unary main_arg10 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S4096x64 ![0, 1] bcast_S1x64_S4096x64_0_1 : (⟨S1x64, .f32⟩ : BufTy).Contents (Elt F) → (⟨S4096x64, .f32⟩ : BufTy).Contents (Elt F)),
    StableHlo.binary main_v60 main_v62 main_v63 (mulf : (⟨S4096x64, .f32⟩ : BufTy).Contents (Elt F) → (⟨S4096x64, .f32⟩ : BufTy).Contents (Elt F) → (⟨S4096x64, .f32⟩ : BufTy).Contents (Elt F)),
    StableHlo.unary main_arg11 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S4096x64 ![0, 1] bcast_S1x64_S4096x64_0_1 : (⟨S1x64, .f32⟩ : BufTy).Contents (Elt F) → (⟨S4096x64, .f32⟩ : BufTy).Contents (Elt F)),
    StableHlo.binary main_v63 main_v65 main_v66 (addf : (⟨S4096x64, .f32⟩ : BufTy).Contents (Elt F) → (⟨S4096x64, .f32⟩ : BufTy).Contents (Elt F) → (⟨S4096x64, .f32⟩ : BufTy).Contents (Elt F)),
    StableHlo.TRef.nullary main_call3.cst (constant S_ .f32 0x00000000#32),
    StableHlo.TRef.unary main_call3.cst main_call3.v0 (broadcastInDim S4096x64 ![] bcast_S_S4096x64),
    StableHlo.TRef.binary (.of main_v66 : StableHlo.TRef sig ⟨S4096x64, .f32⟩) main_call3.v0 main_call3.v1 maximumf ]

/-- The buffers operations 84 … 127 write, in order. -/
abbrev ops3_W : List (Ref sig .tc) :=
  [main_v49, main_v50, main_c_9, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v52, main_v53, main_v54, main_cst_10, main_v55, main_v56, main_v57, main_v58, main_v59, main_v60, main_v61, main_v62, main_v63, main_v64, main_v65, main_v66, main_call3.cst.ref, main_call3.v0.ref, main_call3.v1.ref]

/-- Operations 128 … 180 of 180. -/
abbrev ops4 : List (HloOp τ sig (Elt F)) :=
  [ StableHlo.binary main_arg3 main_v67 main_v68 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.unary main_arg12 main_v69 ((transpose S64x64 [1, 0] · transposes_S64x64_S64x64_1_0) : (⟨S64x64, .f32⟩ : BufTy).Contents (Elt F) → (⟨S64x64, .f32⟩ : BufTy).Contents (Elt F)),
    StableHlo.binary main_v68 main_v69 main_v70 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    StableHlo.unary main_arg13 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S4096x64 ![0, 1] bcast_S1x64_S4096x64_0_1 : (⟨S1x64, .f32⟩ : BufTy).Contents (Elt F) → (⟨S4096x64, .f32⟩ : BufTy).Contents (Elt F)),
    StableHlo.binary main_v70 main_v72 main_v73 (addf : (⟨S4096x64, .f32⟩ : BufTy).Contents (Elt F) → (⟨S4096x64, .f32⟩ : BufTy).Contents (Elt F) → (⟨S4096x64, .f32⟩ : BufTy).Contents (Elt F)),
    StableHlo.nullary main_cst_11 (constant S_ .f32 0x00000000#32),
    StableHlo.binary main_v73 main_cst_11 main_v74 ((fun x v => Host.reduceAdd x v reducesTo_S4096x64_S64_d0 h_S_) : (⟨S4096x64, .f32⟩ : BufTy).Contents (Elt F) → (⟨S_, .f32⟩ : BufTy).Contents (Elt F) → (⟨S64, .f32⟩ : BufTy).Contents (Elt F)),
    StableHlo.nullary main_cst_12 (constant S_ .f32 0x45800000#32),
    StableHlo.unary main_cst_12 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call4.cst (constant S_ .f32 0x00000000#32),
    StableHlo.TRef.binary (.of main_v73 : StableHlo.TRef sig ⟨S4096x64, .f32⟩) main_call4.cst main_call4.v0 (fun x v => Host.reduceAdd x v reducesTo_S4096x64_S64_d0 h_S_),
    StableHlo.TRef.unary main_call4.v0 main_call4.v1 (broadcastInDim S1x64 ![1] bcast_S64_S1x64_1),
    StableHlo.TRef.nullary main_call4.cst_0 (constant S_ .f32 0x45800000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S4096x64 ![0, 1] bcast_S1x64_S4096x64_0_1),
    StableHlo.TRef.binary (.of main_v73 : StableHlo.TRef sig ⟨S4096x64, .f32⟩) main_call4.v4 main_call4.v5 subf,
    StableHlo.TRef.binary main_call4.v5 main_call4.v5 main_call4.v6 mulf,
    StableHlo.TRef.unary (.of main_c_13 : StableHlo.TRef sig ⟨S_, .i32⟩) main_call4.v7 (sitofp .f32),
    StableHlo.TRef.nullary main_call4.cst_1 (constant S_ .f32 0x45800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S4096x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S4096x64 ![0, 1] bcast_S1x64_S4096x64_0_1 : (⟨S1x64, .f32⟩ : BufTy).Contents (Elt F) → (⟨S4096x64, .f32⟩ : BufTy).Contents (Elt F)),
    StableHlo.binary main_v73 main_v79 main_v80 (subf : (⟨S4096x64, .f32⟩ : BufTy).Contents (Elt F) → (⟨S4096x64, .f32⟩ : BufTy).Contents (Elt F) → (⟨S4096x64, .f32⟩ : BufTy).Contents (Elt F)),
    StableHlo.nullary main_cst_14 (constant S_ .f32 0x3727C5AC#32),
    StableHlo.unary main_cst_14 main_v81 (broadcastInDim S64 ![] bcast_S_S64 : (⟨S_, .f32⟩ : BufTy).Contents (Elt F) → (⟨S64, .f32⟩ : BufTy).Contents (Elt F)),
    StableHlo.binary main_v77 main_v81 main_v82 (addf : (⟨S64, .f32⟩ : BufTy).Contents (Elt F) → (⟨S64, .f32⟩ : BufTy).Contents (Elt F) → (⟨S64, .f32⟩ : BufTy).Contents (Elt F)),
    StableHlo.unary main_v82 main_v83 (Host.sqrt : (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S4096x64 ![0, 1] bcast_S1x64_S4096x64_0_1 : (⟨S1x64, .f32⟩ : BufTy).Contents (Elt F) → (⟨S4096x64, .f32⟩ : BufTy).Contents (Elt F)),
    StableHlo.binary main_v80 main_v85 main_v86 (Host.divf : (⟨S4096x64, .f32⟩ : BufTy).Contents (Elt F) → (⟨S4096x64, .f32⟩ : BufTy).Contents (Elt F) → (⟨S4096x64, .f32⟩ : BufTy).Contents (Elt F)),
    StableHlo.unary main_arg14 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S4096x64 ![0, 1] bcast_S1x64_S4096x64_0_1 : (⟨S1x64, .f32⟩ : BufTy).Contents (Elt F) → (⟨S4096x64, .f32⟩ : BufTy).Contents (Elt F)),
    StableHlo.binary main_v86 main_v88 main_v89 (mulf : (⟨S4096x64, .f32⟩ : BufTy).Contents (Elt F) → (⟨S4096x64, .f32⟩ : BufTy).Contents (Elt F) → (⟨S4096x64, .f32⟩ : BufTy).Contents (Elt F)),
    StableHlo.unary main_arg15 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S4096x64 ![0, 1] bcast_S1x64_S4096x64_0_1 : (⟨S1x64, .f32⟩ : BufTy).Contents (Elt F) → (⟨S4096x64, .f32⟩ : BufTy).Contents (Elt F)),
    StableHlo.binary main_v89 main_v91 main_v92 (addf : (⟨S4096x64, .f32⟩ : BufTy).Contents (Elt F) → (⟨S4096x64, .f32⟩ : BufTy).Contents (Elt F) → (⟨S4096x64, .f32⟩ : BufTy).Contents (Elt F)),
    StableHlo.TRef.nullary main_call5.cst (constant S_ .f32 0x00000000#32),
    StableHlo.TRef.unary main_call5.cst main_call5.v0 (broadcastInDim S4096x64 ![] bcast_S_S4096x64),
    StableHlo.TRef.binary (.of main_v92 : StableHlo.TRef sig ⟨S4096x64, .f32⟩) main_call5.v0 main_call5.v1 maximumf ]

/-- The buffers operations 128 … 180 write, in order. -/
abbrev ops4_W : List (Ref sig .tc) :=
  [main_v68, main_v69, main_v70, main_v71, main_v72, main_v73, main_cst_11, main_v74, main_cst_12, main_v75, main_v76, main_c_13, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v78, main_v79, main_v80, main_cst_14, main_v81, main_v82, main_v83, main_v84, main_v85, main_v86, main_v87, main_v88, main_v89, main_v90, main_v91, main_v92, main_call5.cst.ref, main_call5.v0.ref, main_call5.v1.ref]

/-- All 180 operations, in order. -/
abbrev ops : List (HloOp τ sig (Elt F)) :=
  ops0 ++ (ops1 ++ (ops2 ++ (ops3 ++ ops4)))

end Cert.ReferenceIdeal.RefRun

end
-- ==== Proof.RefRun.lean ====
import proofs.«169346_g86071144612153_cont_sun_m_685_13_alg».proof.Proof.RefRunOps
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference program's run

@main of the reference is a straight line of 180 host operations once the six calls of outlined functions are read as
their bodies over each call's own buffers. This module identifies @main with that line (`main_eq`), and reads the run
back: every weakly fair execution terminates with the result buffer at the fold of the operations' results over the
launch contents, the sixteen arguments unchanged. -/

/-! ## @main is the line -/

/-- @main's first window: the statements unfolded at their calls and sequencing reassociated, one chain of `hlo` steps. -/
theorem main_part0_eq (c : Dev nD) : main_part0 (F := F) c = seq (ops0 ++ (ops1 ++ ops2)) := by
  simp only [main_part0, fn_var.body, fn_where.body, fn_relu.body, seq, List.cons_append, List.nil_append, bind_assoc,
    pure_bind]
  rfl

/-- @main's second window, likewise. -/
theorem main_part1_eq (c : Dev nD) : main_part1 (F := F) c = seq (ops3 ++ ops4) := by
  simp only [main_part1, fn_var.body, fn_where.body, fn_relu.body, seq, List.cons_append, List.nil_append, bind_assoc,
    pure_bind]

/-- @main runs its two windows in turn: the concatenation of their lines run as one. -/
theorem main_eq (c : Dev nD) : main (F := F) c = seq ops := by
  have h : main (F := F) c = main_part0 c >>= fun _ => main_part1 c := rfl
  rw [h, main_part0_eq, main_part1_eq]
  simp only [ops, seq_append, bind_assoc]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: each is one of the four builders. -/
theorem ops0_sub : (ops0 : List (HloOp τ sig (Elt F))).Forall fun op => op.bufs ⊆ tcRefs τ sig := by
  simp only [List.Forall, nullary_bufs_sub, unary_bufs_sub, binary_bufs_sub, ternary_bufs_sub, and_self]
theorem ops1_sub : (ops1 : List (HloOp τ sig (Elt F))).Forall fun op => op.bufs ⊆ tcRefs τ sig := by
  simp only [List.Forall, nullary_bufs_sub, unary_bufs_sub, binary_bufs_sub, ternary_bufs_sub, and_self]
theorem ops2_sub : (ops2 : List (HloOp τ sig (Elt F))).Forall fun op => op.bufs ⊆ tcRefs τ sig := by
  simp only [List.Forall, nullary_bufs_sub, unary_bufs_sub, binary_bufs_sub, ternary_bufs_sub, and_self]
theorem ops3_sub : (ops3 : List (HloOp τ sig (Elt F))).Forall fun op => op.bufs ⊆ tcRefs τ sig := by
  simp only [List.Forall, nullary_bufs_sub, unary_bufs_sub, binary_bufs_sub, ternary_bufs_sub, and_self]
theorem ops4_sub : (ops4 : List (HloOp τ sig (Elt F))).Forall fun op => op.bufs ⊆ tcRefs τ sig := by
  simp only [List.Forall, nullary_bufs_sub, unary_bufs_sub, binary_bufs_sub, ternary_bufs_sub, and_self]

theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, ops4_sub⟩⟩⟩⟩

/-! ## The buffers the line leaves alone -/

/-- Closes a conjunction of memberships of literal references in a literal list of references, each by computation. -/
local macro "mem_ands" : tactic =>
  `(tactic| repeat (first | exact List.mem_map_of_mem (by decide) | refine ⟨List.mem_map_of_mem (by decide), ?_⟩))

/-- Each window's operations write only the buffers listed beside it. -/
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, Finset.singleton_subset_iff,
    List.mem_toFinset]
  mem_ands
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, Finset.singleton_subset_iff,
    List.mem_toFinset]
  mem_ands
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, Finset.singleton_subset_iff,
    List.mem_toFinset]
  mem_ands
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, Finset.singleton_subset_iff,
    List.mem_toFinset]
  mem_ands
theorem ops4_writes : (ops4 : List (HloOp τ sig (Elt F))).Forall fun op =>
    op.writes ⊆ (ops4_W.map (Proc.devRef (τ := τ) .tc)).toFinset := by
  simp only [List.Forall, nullary_writes, unary_writes, binary_writes, ternary_writes, Finset.singleton_subset_iff,
    List.mem_toFinset]
  mem_ands

/-- A buffer that no window writes is, after the whole line, what it was before. -/
theorem after_ops_keep (V : Valuation τ sig (Elt F)) {r : Ref sig .tc} (h0 : r ∉ ops0_W) (h1 : r ∉ ops1_W) (h2 : r ∉ ops2_W)
    (h3 : r ∉ ops3_W) (h4 : r ∉ ops4_W) :
    after ops V (Proc.devRef .tc r) = V (Proc.devRef .tc r) := by
  simp only [ops, StableHlo.after_append]
  rw [after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-- No operation of the line leaves a result undetermined. -/
theorem ops_fresh : ∀ op ∈ (ops : List (HloOp τ sig (Elt F))), op.fresh = ∅ := by
  intro _ h
  (repeat (cases h with | head => rfl | tail _ h => ?_))
  exact nomatch h

/-! ## The run -/

/-- On every device, for any float values, from any memory with zero counters: every weakly fair execution of @main
    terminates with the result buffer at the fold of the 180 operations' results over the launch contents, and each of
    the sixteen arguments unchanged (no operation writes an argument). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = after ops (launchContents m c) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v93,
      (h c main_arg0).trans (after_ops_keep _ (by decide) (by decide) (by decide) (by decide) (by decide)),
      (h c main_arg1).trans (after_ops_keep _ (by decide) (by decide) (by decide) (by decide) (by decide)),
      (h c main_arg2).trans (after_ops_keep _ (by decide) (by decide) (by decide) (by decide) (by decide)),
      (h c main_arg3).trans (after_ops_keep _ (by decide) (by decide) (by decide) (by decide) (by decide)),
      (h c main_arg4).trans (after_ops_keep _ (by decide) (by decide) (by decide) (by decide) (by decide)),
      (h c main_arg5).trans (after_ops_keep _ (by decide) (by decide) (by decide) (by decide) (by decide)),
      (h c main_arg6).trans (after_ops_keep _ (by decide) (by decide) (by decide) (by decide) (by decide)),
      (h c main_arg7).trans (after_ops_keep _ (by decide) (by decide) (by decide) (by decide) (by decide)),
      (h c main_arg8).trans (after_ops_keep _ (by decide) (by decide) (by decide) (by decide) (by decide)),
      (h c main_arg9).trans (after_ops_keep _ (by decide) (by decide) (by decide) (by decide) (by decide)),
      (h c main_arg10).trans (after_ops_keep _ (by decide) (by decide) (by decide) (by decide) (by decide)),
      (h c main_arg11).trans (after_ops_keep _ (by decide) (by decide) (by decide) (by decide) (by decide)),
      (h c main_arg12).trans (after_ops_keep _ (by decide) (by decide) (by decide) (by decide) (by decide)),
      (h c main_arg13).trans (after_ops_keep _ (by decide) (by decide) (by decide) (by decide) (by decide)),
      (h c main_arg14).trans (after_ops_keep _ (by decide) (by decide) (by decide) (by decide) (by decide)),
      (h c main_arg15).trans (after_ops_keep _ (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefStages.lean ====
/-
  The reference's host program, stage by stage, as pure functions of arrays of extended reals.
  Every definition applies exactly the operations the printed program applies, in the printed order:
  the scores (outer product divided by 8), the row maximum, the exponentials, the softmax, the pooled
  maximum; then a layer (product with the transposed weight, bias, batch normalisation with the biased
  variance, positive part) and a propagation step (product with an affinity matrix); and the whole
  pipeline as their composition.
-/
import proofs.«169346_g86071144612153_cont_sun_m_685_13_alg».proof.Proof.Gen.ReferenceIdeal
import Idealize.ShloMosaic.PureOps.Ideal.Laws

noncomputable section

namespace Cert.ReferenceIdeal.RefRead

open Idealize.ShloMosaic Cert.ReferenceIdeal Cert.ReferenceIdeal.Facts₀

/-! ## Broadcasts that occur in pairs -/

/-- A vector of 64 entries laid along each of the 4096 rows (through the one-row array). -/
def rowBcast (v : FVec Ideal S64 .f32) : FVec Ideal S4096x64 .f32 :=
  broadcastInDim S4096x64 ![0, 1] bcast_S1x64_S4096x64_0_1 (broadcastInDim S1x64 ![1] bcast_S64_S1x64_1 v)

/-- A [4096, 64] array repeated along a new last axis of extent 64 (through the unit last axis). -/
def laneBcast (v : FVec Ideal S4096x64 .f32) : FVec Ideal S4096x64x64 .f32 :=
  broadcastInDim S4096x64x64 ![0, 1, 2] bcast_S4096x64x1_S4096x64x64_0_1_2
    (broadcastInDim S4096x64x1 ![0, 1] bcast_S4096x64_S4096x64x1_0_1 v)

/-! ## The pooled softmax -/

/-- The scores: for each row the outer product of the text row and the image row, divided by 8. -/
def scoreStage (a0 a1 : FVec Ideal S4096x64 .f32) : FVec Ideal S4096x64x64 .f32 :=
  Host.divf (F := Ideal)
    (Host.dotGeneral (F := Ideal) dot_S4096x64x1_S4096x1x64_S4096x64x64_2_1_1_2_0_0 none
      (broadcastInDim S4096x64x1 ![0, 1] bcast_S4096x64_S4096x64x1_0_1 a0)
      (broadcastInDim S4096x1x64 ![0, 2] bcast_S4096x64_S4096x1x64_0_2 a1))
    (broadcastInDim S4096x64x64 ![] bcast_S_S4096x64x64 (constant (F := Ideal) S_ .f32 0x41000000#32))

/-- The maximum over the last axis, from −∞, then the maximum with the −∞ splat. -/
def rowMaxStage (s : FVec Ideal S4096x64x64 .f32) : FVec Ideal S4096x64 .f32 :=
  maximumf (F := Ideal) (broadcastInDim S4096x64 ![] bcast_S_S4096x64 (constant (F := Ideal) S_ .f32 0xFF800000#32))
    (Host.reduce (FloatOps.maximumf (F := Ideal) (φ := .f32)) s (constant (F := Ideal) S_ .f32 0xFF800000#32)
      reducesTo_S4096x64x64_S4096x64_d2 h_S_)

/-- The exponentials of the scores less their row maximum. -/
def expStage (s : FVec Ideal S4096x64x64 .f32) : FVec Ideal S4096x64x64 .f32 :=
  Host.exp (F := Ideal) (subf (F := Ideal) s (laneBcast (rowMaxStage s)))

/-- Each exponential divided by the sum of its row (the sum taken from 0). -/
def softmaxStage (e : FVec Ideal S4096x64x64 .f32) : FVec Ideal S4096x64x64 .f32 :=
  Host.divf (F := Ideal) e
    (laneBcast (Host.reduceAdd (F := Ideal) e (constant (F := Ideal) S_ .f32 0x00000000#32)
      reducesTo_S4096x64x64_S4096x64_d2 h_S_))

/-- The largest softmax weight of each row of scores. -/
def poolStage (a0 a1 : FVec Ideal S4096x64 .f32) : FVec Ideal S4096x64 .f32 :=
  Host.reduce (FloatOps.maximumf (F := Ideal) (φ := .f32)) (softmaxStage (expStage (scoreStage a0 a1)))
    (constant (F := Ideal) S_ .f32 0xFF800000#32) reducesTo_S4096x64x64_S4096x64_d2 h_S_

/-! ## A layer -/

/-- x · Wᵀ + b. -/
def linStage (x : FVec Ideal S4096x64 .f32) (w : FVec Ideal S64x64 .f32) (b : FVec Ideal S64 .f32) :
    FVec Ideal S4096x64 .f32 :=
  addf (F := Ideal)
    (Host.dotGeneral (F := Ideal) dot_S4096x64_S64x64_S4096x64_1_0_0_1_n_n none x
      (transpose S64x64 [1, 0] w transposes_S64x64_S64x64_1_0))
    (rowBcast b)

/-- The column sums over the 4096 rows (from 0), divided by 4096. -/
def meanStage (y : FVec Ideal S4096x64 .f32) : FVec Ideal S64 .f32 :=
  Host.divf (F := Ideal)
    (Host.reduceAdd (F := Ideal) y (constant (F := Ideal) S_ .f32 0x00000000#32) reducesTo_S4096x64_S64_d0 h_S_)
    (broadcastInDim S64 ![] bcast_S_S64 (constant (F := Ideal) S_ .f32 0x45800000#32))

/-- The number of rows less the degrees of freedom, 4096 − float(0). -/
def dofStage : FVec Ideal S_ .f32 :=
  subf (F := Ideal) (constant (F := Ideal) S_ .f32 0x45800000#32) (sitofp (F := Ideal) .f32 (constantI S_ 32 0#32))

/-- The squared deviations from the column mean (the mean recomputed through the one-row array). -/
def sqDevStage (y : FVec Ideal S4096x64 .f32) : FVec Ideal S4096x64 .f32 :=
  (fun d : FVec Ideal S4096x64 .f32 => mulf (F := Ideal) d d)
    (subf (F := Ideal) y
      (broadcastInDim S4096x64 ![0, 1] bcast_S1x64_S4096x64_0_1
        (Host.divf (F := Ideal)
          (broadcastInDim S1x64 ![1] bcast_S64_S1x64_1
            (Host.reduceAdd (F := Ideal) y (constant (F := Ideal) S_ .f32 0x00000000#32) reducesTo_S4096x64_S64_d0 h_S_))
          (broadcastInDim S1x64 ![] bcast_S_S1x64 (constant (F := Ideal) S_ .f32 0x45800000#32)))))

/-- The biased variance as the outlined function computes it: the column sums of the squared deviations
    divided by 4096 − 0, selected against a NaN word by the comparison 4096 − 0 > 0. -/
def varStage (y : FVec Ideal S4096x64 .f32) : FVec Ideal S64 .f32 :=
  select (broadcastInDim S64 ![] bcast_S_S64
      (cmpf (F := Ideal) .ogt dofStage (constant (F := Ideal) S_ .f32 0x00000000#32)))
    (Host.divf (F := Ideal)
      (Host.reduceAdd (F := Ideal) (sqDevStage y) (constant (F := Ideal) S_ .f32 0x00000000#32) reducesTo_S4096x64_S64_d0 h_S_)
      (broadcastInDim S64 ![] bcast_S_S64 dofStage))
    (broadcastInDim S64 ![] bcast_S_S64 (id (constant (F := Ideal) S_ .f32 0x7FC00000#32)))

/-- Batch normalisation: (y − mean) / √(var + ε) · g + be. -/
def normStage (y : FVec Ideal S4096x64 .f32) (g be : FVec Ideal S64 .f32) : FVec Ideal S4096x64 .f32 :=
  addf (F := Ideal)
    (mulf (F := Ideal)
      (Host.divf (F := Ideal)
        (subf (F := Ideal) y (rowBcast (meanStage y)))
        (rowBcast (Host.sqrt (F := Ideal)
          (addf (F := Ideal) (varStage y)
            (broadcastInDim S64 ![] bcast_S_S64 (constant (F := Ideal) S_ .f32 0x3727C5AC#32))))))
      (rowBcast g))
    (rowBcast be)

/-- The positive part. -/
def reluStage (z : FVec Ideal S4096x64 .f32) : FVec Ideal S4096x64 .f32 :=
  maximumf (F := Ideal) z
    (broadcastInDim S4096x64 ![] bcast_S_S4096x64 (constant (F := Ideal) S_ .f32 0x00000000#32))

/-- Linear map, batch normalisation, positive part. -/
def layerStage (x : FVec Ideal S4096x64 .f32) (w : FVec Ideal S64x64 .f32) (b g be : FVec Ideal S64 .f32) :
    FVec Ideal S4096x64 .f32 :=
  reluStage (normStage (linStage x w b) g be)

/-! ## A propagation step -/

/-- aff · h. -/
def propStage (aff : FVec Ideal S4096x4096 .f32) (h : FVec Ideal S4096x64 .f32) : FVec Ideal S4096x64 .f32 :=
  Host.dotGeneral (F := Ideal) dot_S4096x4096_S4096x64_S4096x64_1_0_0_1_n_n none aff h

/-! ## The whole pipeline -/

/-- The reference's result as a function of its sixteen argument arrays. -/
def refOut (a0 a1 : FVec Ideal S4096x64 .f32) (a2 a3 : FVec Ideal S4096x4096 .f32)
    (a4 : FVec Ideal S64x64 .f32) (a5 a6 a7 : FVec Ideal S64 .f32)
    (a8 : FVec Ideal S64x64 .f32) (a9 a10 a11 : FVec Ideal S64 .f32)
    (a12 : FVec Ideal S64x64 .f32) (a13 a14 a15 : FVec Ideal S64 .f32) : FVec Ideal S4096x64 .f32 :=
  layerStage (propStage a3 (layerStage (propStage a2 (layerStage (poolStage a0 a1) a4 a5 a6 a7)) a8 a9 a10 a11))
    a12 a13 a14 a15

end Cert.ReferenceIdeal.RefRead

end
-- ==== Proof.RefJoin.lean ====
import proofs.«169346_g86071144612153_cont_sun_m_685_13_alg».proof.Proof.RefRun
import proofs.«169346_g86071144612153_cont_sun_m_685_13_alg».proof.Proof.RefStages

noncomputable section

namespace Cert.ReferenceIdeal.RefJoin

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefRead

/-! # The reference's run, read as the composition of its stages

The run leaves the result buffer at the fold of the 180 host operations over the launch contents. Read window by
window — the pooled softmax, then three times a layer (the second and third after a propagation step) — each window's
fold at its last buffer is the corresponding stage applied to what the window reads: the previous window's last
buffer and argument buffers, which no operation writes. Composed, the fold at the result buffer is the pipeline
`refOut` of the sixteen argument arrays. Everything here is at the instance of exact extended reals. -/

/-! ## Each window's fold at its last buffer -/

/-- Operations 1–22 leave the pooled softmax of the first two arguments in their last buffer. -/
theorem pool_window (V : Valuation τ sig (Elt Ideal)) :
    after (ops0 (F := Ideal)) V (Proc.devRef .tc main_v16) = poolStage (V (Proc.devRef .tc main_arg0)) (V (Proc.devRef .tc main_arg1)) := by
  simp only [ops0]
  after_results_simp
  rfl

/-- Operations 23–74 leave the first layer of what precedes them in their last buffer. -/
theorem layer1_window (V : Valuation τ sig (Elt Ideal)) :
    after (ops1 (F := Ideal)) V (Proc.devRef .tc main_v41)
      = layerStage (V (Proc.devRef .tc main_v16)) (V (Proc.devRef .tc main_arg4)) (V (Proc.devRef .tc main_arg5)) (V (Proc.devRef .tc main_arg6)) (V (Proc.devRef .tc main_arg7)) := by
  simp only [ops1]
  after_results_simp
  rfl

/-- Operations 75–127 leave the second layer of the first propagation step in their last buffer. -/
theorem layer2_window (V : Valuation τ sig (Elt Ideal)) :
    after (ops3 (F := Ideal)) (after ops2 V) (Proc.devRef .tc main_v67)
      = layerStage (propStage (V (Proc.devRef .tc main_arg2)) (V (Proc.devRef .tc main_v41))) (V (Proc.devRef .tc main_arg8)) (V (Proc.devRef .tc main_arg9)) (V (Proc.devRef .tc main_arg10)) (V (Proc.devRef .tc main_arg11)) := by
  simp only [ops2, ops3]
  after_results_simp
  rfl

/-- Operations 128–180 leave the third layer of the second propagation step in the result buffer. -/
theorem layer3_window (V : Valuation τ sig (Elt Ideal)) :
    after (ops4 (F := Ideal)) V (Proc.devRef .tc main_v93)
      = layerStage (propStage (V (Proc.devRef .tc main_arg3)) (V (Proc.devRef .tc main_v67))) (V (Proc.devRef .tc main_arg12)) (V (Proc.devRef .tc main_arg13)) (V (Proc.devRef .tc main_arg14)) (V (Proc.devRef .tc main_arg15)) := by
  simp only [ops4]
  after_results_simp
  rfl

/-! ## The contents after each window -/

/-- The contents after operations 1–22. -/
def val1 (V : Valuation τ sig (Elt Ideal)) : Valuation τ sig (Elt Ideal) := after ops0 V
/-- The contents after operations 1–74. -/
def val2 (V : Valuation τ sig (Elt Ideal)) : Valuation τ sig (Elt Ideal) := after ops1 (val1 V)
/-- The contents after operations 1–127. -/
def val3 (V : Valuation τ sig (Elt Ideal)) : Valuation τ sig (Elt Ideal) := after ops3 (after ops2 (val2 V))

/-- A buffer the first window does not write is unchanged after it. -/
theorem val1_keep (V : Valuation τ sig (Elt Ideal)) {r : Ref sig .tc} (h0 : r ∉ ops0_W) :
    val1 V (Proc.devRef .tc r) = V (Proc.devRef .tc r) :=
  after_of_writes_sub ops0 V ops0_writes h0

/-- A buffer the first two windows do not write is unchanged after them. -/
theorem val2_keep (V : Valuation τ sig (Elt Ideal)) {r : Ref sig .tc} (h0 : r ∉ ops0_W) (h1 : r ∉ ops1_W) :
    val2 V (Proc.devRef .tc r) = V (Proc.devRef .tc r) :=
  (after_of_writes_sub ops1 _ ops1_writes h1).trans (val1_keep V h0)

/-- A buffer the first four windows do not write is unchanged after them. -/
theorem val3_keep (V : Valuation τ sig (Elt Ideal)) {r : Ref sig .tc} (h0 : r ∉ ops0_W) (h1 : r ∉ ops1_W)
    (h2 : r ∉ ops2_W) (h3 : r ∉ ops3_W) :
    val3 V (Proc.devRef .tc r) = V (Proc.devRef .tc r) :=
  (after_of_writes_sub ops3 _ ops3_writes h3).trans
    ((after_of_writes_sub ops2 _ ops2_writes h2).trans (val2_keep V h0 h1))

/-- After the first window: the pooled softmax. -/
theorem val1_pool (V : Valuation τ sig (Elt Ideal)) :
    val1 V (Proc.devRef .tc main_v16) = poolStage (V (Proc.devRef .tc main_arg0)) (V (Proc.devRef .tc main_arg1)) :=
  pool_window V

/-- After the second window: the first layer of the pooled softmax. -/
theorem val2_layer (V : Valuation τ sig (Elt Ideal)) :
    val2 V (Proc.devRef .tc main_v41)
      = layerStage (poolStage (V (Proc.devRef .tc main_arg0)) (V (Proc.devRef .tc main_arg1)))
          (V (Proc.devRef .tc main_arg4)) (V (Proc.devRef .tc main_arg5)) (V (Proc.devRef .tc main_arg6)) (V (Proc.devRef .tc main_arg7)) := by
  unfold val2
  rw [layer1_window, val1_pool, val1_keep V (r := main_arg4) (by decide), val1_keep V (r := main_arg5) (by decide), val1_keep V (r := main_arg6) (by decide), val1_keep V (r := main_arg7) (by decide)]

/-- After the fourth window: the second layer of the first propagation step. -/
theorem val3_layer (V : Valuation τ sig (Elt Ideal)) :
    val3 V (Proc.devRef .tc main_v67)
      = layerStage (propStage (V (Proc.devRef .tc main_arg2))
            (layerStage (poolStage (V (Proc.devRef .tc main_arg0)) (V (Proc.devRef .tc main_arg1)))
              (V (Proc.devRef .tc main_arg4)) (V (Proc.devRef .tc main_arg5)) (V (Proc.devRef .tc main_arg6)) (V (Proc.devRef .tc main_arg7))))
          (V (Proc.devRef .tc main_arg8)) (V (Proc.devRef .tc main_arg9)) (V (Proc.devRef .tc main_arg10)) (V (Proc.devRef .tc main_arg11)) := by
  unfold val3
  rw [layer2_window, val2_layer, val2_keep V (r := main_arg2) (by decide) (by decide), val2_keep V (r := main_arg8) (by decide) (by decide), val2_keep V (r := main_arg9) (by decide) (by decide), val2_keep V (r := main_arg10) (by decide) (by decide), val2_keep V (r := main_arg11) (by decide) (by decide)]

/-! ## The result -/

/-- The fold of all 180 operations at the result buffer is the pipeline of the sixteen argument arrays. -/
theorem result_eq (V : Valuation τ sig (Elt Ideal)) :
    after (ops (F := Ideal)) V (Proc.devRef .tc main_v93)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  have h : after (ops (F := Ideal)) V = after ops4 (val3 V) := by
    simp only [ops, StableHlo.after_append]
    rfl
  rw [h, layer3_window, val3_layer, val3_keep V (r := main_arg3) (by decide) (by decide) (by decide) (by decide), val3_keep V (r := main_arg12) (by decide) (by decide) (by decide) (by decide), val3_keep V (r := main_arg13) (by decide) (by decide) (by decide) (by decide), val3_keep V (r := main_arg14) (by decide) (by decide) (by decide) (by decide), val3_keep V (r := main_arg15) (by decide) (by decide) (by decide) (by decide)]
  rfl

/-- On every device, from any memory with zero counters: every weakly fair execution of the reference's @main
    terminates with the result buffer holding the pipeline of the arguments' launch contents, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
        = refOut (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (result_eq (launchContents m c)), (h c).2⟩)
    (RefRun.run (F := Ideal) m ρ)

end Cert.ReferenceIdeal.RefJoin

end
-- ==== Proof.RefReadOps.lean ====
/-
  The reference's operations read at an index, at the shapes this program uses them.
  A broadcast reads its operand at the coordinates it keeps; a sum over an axis is the initial value 0 plus
  the sum over that axis's coordinate; a maximum over the last axis is the fold of max from −∞ over that
  coordinate; a product with one contracted axis is the sum over the contracted coordinate of the products,
  and the batched outer product contracts an axis of extent one, so it is a single product; a transposed
  matrix reads the matrix at the swapped coordinates.
-/
import proofs.«169346_g86071144612153_cont_sun_m_685_13_alg».proof.Proof.RefStages
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.RefRead

open Idealize.ShloMosaic Idealize.ShloMosaic.ValueIdx Cert.ReferenceIdeal Cert.ReferenceIdeal.Facts₀
open scoped BigOperators

theorem rowBcast_apply (v : FVec Ideal S64 .f32) (r : Fin 4096) (k : Fin 64) :
    rowBcast v (ix2 r k) = v (ix1 k) := by
  unfold rowBcast
  refine (broadcastInDim_apply _ _ _ (ix2 r k) (ix2 (0 : Fin 1) k) (fun a => ?_)).trans ?_
  · match a with
    | ⟨0, _⟩ => rfl
    | ⟨1, _⟩ => rfl
  · exact broadcastInDim_apply _ _ _ (ix2 (0 : Fin 1) k) (ix1 k) (fun a => match a with | ⟨0, _⟩ => rfl)

theorem laneBcast_apply (v : FVec Ideal S4096x64 .f32) (b : Fin 4096) (i j : Fin 64) :
    laneBcast v (ix3 b i j) = v (ix2 b i) := by
  unfold laneBcast
  refine (broadcastInDim_apply _ _ _ (ix3 b i j) (ix3 b i (0 : Fin 1)) (fun a => ?_)).trans ?_
  · match a with
    | ⟨0, _⟩ => rfl
    | ⟨1, _⟩ => rfl
    | ⟨2, _⟩ => rfl
  · exact broadcastInDim_apply _ _ _ (ix3 b i (0 : Fin 1)) (ix2 b i)
      (fun a => match a with | ⟨0, _⟩ => rfl | ⟨1, _⟩ => rfl)

theorem reduceAdd_lane_apply (e : FVec Ideal S4096x64x64 .f32) (b : Fin 4096) (i : Fin 64) :
    Host.reduceAdd (F := Ideal) e (constant (F := Ideal) S_ .f32 0x00000000#32)
        reducesTo_S4096x64x64_S4096x64_d2 h_S_ (ix2 b i)
      = ∑ j : Fin 64, e (ix3 b i j) := by
  rw [hostReduceAdd_apply,
    Ideal.hostReduceAdd_single _ (by decide : S4096x64x64.Reduces [2] S4096x64), constant_apply,
    Ideal.ofBits_zero_f32, zero_add]
  refine Finset.sum_congr rfl fun j _ => congrArg e (funext fun a => ?_)
  match a with
  | ⟨0, _⟩ => rfl
  | ⟨1, _⟩ => rfl
  | ⟨2, _⟩ => rfl

theorem reduceAdd_rows_apply (y : FVec Ideal S4096x64 .f32) (k : Fin 64) :
    Host.reduceAdd (F := Ideal) y (constant (F := Ideal) S_ .f32 0x00000000#32)
        reducesTo_S4096x64_S64_d0 h_S_ (ix1 k)
      = ∑ r : Fin 4096, y (ix2 r k) := by
  rw [hostReduceAdd_apply,
    Ideal.hostReduceAdd_single _ (by decide : S4096x64.Reduces [0] S64), constant_apply,
    Ideal.ofBits_zero_f32, zero_add]
  refine Finset.sum_congr rfl fun r _ => congrArg y (funext fun a => ?_)
  match a with
  | ⟨0, _⟩ => rfl
  | ⟨1, _⟩ => rfl

theorem reduceMax_lane_apply (s : FVec Ideal S4096x64x64 .f32) (b : Fin 4096) (i : Fin 64) :
    Host.reduce (FloatOps.maximumf (F := Ideal) (φ := .f32)) s (constant (F := Ideal) S_ .f32 0xFF800000#32)
        reducesTo_S4096x64x64_S4096x64_d2 h_S_ (ix2 b i)
      = (Finset.univ : Finset (Fin 64)).fold max (Ideal.ofBits .f32 0xFF800000#32) (fun j => s (ix3 b i j)) := by
  refine (Host.reduce_eq_fold_single _ s _ _ (by decide : S4096x64x64.Reduces [2] S4096x64) h_S_ (ix2 b i)).trans ?_
  show (Finset.univ : Finset (Fin 64)).fold max (Ideal.ofBits .f32 0xFF800000#32) _ = _
  congr 1
  funext j
  refine congrArg s (funext fun a => ?_)
  match a with
  | ⟨0, _⟩ => rfl
  | ⟨1, _⟩ => rfl
  | ⟨2, _⟩ => rfl

theorem transposeW_apply (w : FVec Ideal S64x64 .f32) (c k : Fin 64) :
    transpose S64x64 [1, 0] w transposes_S64x64_S64x64_1_0 (ix2 c k) = w (ix2 k c) := by
  refine transpose_apply _ _ _ (ix2 c k) (ix2 k c) (fun b => ?_)
  match b with
  | ⟨0, _⟩ => rfl
  | ⟨1, _⟩ => rfl

theorem dotRows_apply (x : FVec Ideal S4096x64 .f32) (w : FVec Ideal S64x64 .f32) (r : Fin 4096) (k : Fin 64) :
    Host.dotGeneral (F := Ideal) dot_S4096x64_S64x64_S4096x64_1_0_0_1_n_n none x w (ix2 r k)
      = ∑ c : Fin 64, x (ix2 r c) * w (ix2 c k) := by
  show FloatOps.dotGeneral dot_S4096x64_S64x64_S4096x64_1_0_0_1_n_n none .single x w (ix2 r k) = _
  rw [Ideal.dotGeneral_apply,
    ← Equiv.sum_comp (contrEquiv1 dot_S4096x64_S64x64_S4096x64_1_0_0_1_n_n 64 rfl rfl).symm]
  refine Finset.sum_congr rfl fun c _ => ?_
  congr 1
  · refine congrArg x (funext fun a => Fin.ext ?_)
    match a with
    | ⟨0, _⟩ => rfl
    | ⟨1, _⟩ =>
      exact (DotDims.lhsIdx_val_of_single _ (cl := (1 : Fin 2)) rfl _ _).trans
        (contrEquiv1_symm_val dot_S4096x64_S64x64_S4096x64_1_0_0_1_n_n 64 rfl rfl c)
  · refine congrArg w (funext fun a => Fin.ext ?_)
    match a with
    | ⟨0, _⟩ =>
      exact (DotDims.rhsIdx_val_of_single _ (cr := (0 : Fin 2)) rfl _ _).trans
        (contrEquiv1_symm_val dot_S4096x64_S64x64_S4096x64_1_0_0_1_n_n 64 rfl rfl c)
    | ⟨1, _⟩ => rfl

theorem dotAff_apply (aff : FVec Ideal S4096x4096 .f32) (h : FVec Ideal S4096x64 .f32) (b : Fin 4096) (k : Fin 64) :
    Host.dotGeneral (F := Ideal) dot_S4096x4096_S4096x64_S4096x64_1_0_0_1_n_n none aff h (ix2 b k)
      = ∑ r : Fin 4096, aff (ix2 b r) * h (ix2 r k) := by
  show FloatOps.dotGeneral dot_S4096x4096_S4096x64_S4096x64_1_0_0_1_n_n none .single aff h (ix2 b k) = _
  rw [Ideal.dotGeneral_apply,
    ← Equiv.sum_comp (contrEquiv1 dot_S4096x4096_S4096x64_S4096x64_1_0_0_1_n_n 4096 rfl rfl).symm]
  refine Finset.sum_congr rfl fun r _ => ?_
  congr 1
  · refine congrArg aff (funext fun a => Fin.ext ?_)
    match a with
    | ⟨0, _⟩ => rfl
    | ⟨1, _⟩ =>
      exact (DotDims.lhsIdx_val_of_single _ (cl := (1 : Fin 2)) rfl _ _).trans
        (contrEquiv1_symm_val dot_S4096x4096_S4096x64_S4096x64_1_0_0_1_n_n 4096 rfl rfl r)
  · refine congrArg h (funext fun a => Fin.ext ?_)
    match a with
    | ⟨0, _⟩ =>
      exact (DotDims.rhsIdx_val_of_single _ (cr := (0 : Fin 2)) rfl _ _).trans
        (contrEquiv1_symm_val dot_S4096x4096_S4096x64_S4096x64_1_0_0_1_n_n 4096 rfl rfl r)
    | ⟨1, _⟩ => rfl

theorem dotOuter_apply (l : FVec Ideal S4096x64x1 .f32) (r : FVec Ideal S4096x1x64 .f32) (b : Fin 4096) (i j : Fin 64) :
    Host.dotGeneral (F := Ideal) dot_S4096x64x1_S4096x1x64_S4096x64x64_2_1_1_2_0_0 none l r (ix3 b i j)
      = l (ix3 b i (0 : Fin 1)) * r (ix3 b (0 : Fin 1) j) := by
  show FloatOps.dotGeneral dot_S4096x64x1_S4096x1x64_S4096x64x64_2_1_1_2_0_0 none .single l r (ix3 b i j) = _
  rw [Ideal.dotGeneral_apply,
    ← Equiv.sum_comp (contrEquiv1 dot_S4096x64x1_S4096x1x64_S4096x64x64_2_1_1_2_0_0 1 rfl rfl).symm,
    Fin.sum_univ_one]
  congr 1
  · refine congrArg l (funext fun a => Fin.ext ?_)
    match a with
    | ⟨0, _⟩ => rfl
    | ⟨1, _⟩ => rfl
    | ⟨2, _⟩ =>
      exact (DotDims.lhsIdx_val_of_single _ (cl := (2 : Fin 3)) rfl _ _).trans
        (contrEquiv1_symm_val dot_S4096x64x1_S4096x1x64_S4096x64x64_2_1_1_2_0_0 1 rfl rfl 0)
  · refine congrArg r (funext fun a => Fin.ext ?_)
    match a with
    | ⟨0, _⟩ => rfl
    | ⟨1, _⟩ =>
      exact (DotDims.rhsIdx_val_of_single _ (cr := (1 : Fin 3)) rfl _ _).trans
        (contrEquiv1_symm_val dot_S4096x64x1_S4096x1x64_S4096x64x64_2_1_1_2_0_0 1 rfl rfl 0)
    | ⟨2, _⟩ => rfl

theorem bcastText_apply (a0 : FVec Ideal S4096x64 .f32) (b : Fin 4096) (i : Fin 64) (z : Fin 1) :
    broadcastInDim S4096x64x1 ![0, 1] bcast_S4096x64_S4096x64x1_0_1 a0 (ix3 b i z) = a0 (ix2 b i) :=
  broadcastInDim_apply _ _ _ (ix3 b i z) (ix2 b i) (fun a => match a with | ⟨0, _⟩ => rfl | ⟨1, _⟩ => rfl)

theorem bcastImage_apply (a1 : FVec Ideal S4096x64 .f32) (b : Fin 4096) (z : Fin 1) (j : Fin 64) :
    broadcastInDim S4096x1x64 ![0, 2] bcast_S4096x64_S4096x1x64_0_2 a1 (ix3 b z j) = a1 (ix2 b j) :=
  broadcastInDim_apply _ _ _ (ix3 b z j) (ix2 b j) (fun a => match a with | ⟨0, _⟩ => rfl | ⟨1, _⟩ => rfl)

end Cert.ReferenceIdeal.RefRead

end
-- ==== Proof.LibWords.lean ====
/-
  The f32 words that a batch-normalised pipeline over 4096 rows and a softmax with scale 1/8 spell, as the
  extended reals they denote: 8, 1/8, 4096, 1/4096, 1, 0, −∞ and +∞.  Two consequences follow at once:
  dividing by the word of 4096 (of 8) is multiplying by the word of 1/4096 (of 1/8), at every extended real,
  the infinities included; and 4096 − 0 = 4096 > 0, which is what a guarded variance (divide by the number
  of rows only when that number minus the degrees of freedom is positive) asks.
-/
import Idealize.ShloMosaic.PureOps.Ideal
import Idealize.ShloMosaic.PureOps.Ideal.Laws

noncomputable section

namespace Cert.LibWords

open Idealize.ShloMosaic

/-- The word 0x41000000 is 8 = 2³. -/
theorem ofBits_eight : Ideal.ofBits .f32 0x41000000#32 = ((8 : ℝ) : EReal) := by
  simp [Ideal.ofBits, Ideal.ieee, -EReal.coe_mul]; norm_num

/-- The word 0x3E000000 is 1/8 = 2⁻³. -/
theorem ofBits_eighth : Ideal.ofBits .f32 0x3E000000#32 = ((1 / 8 : ℝ) : EReal) := by
  simp [Ideal.ofBits, Ideal.ieee, -EReal.coe_mul]; norm_num

/-- The word 0x45800000 is 4096 = 2¹². -/
theorem ofBits_4096 : Ideal.ofBits .f32 0x45800000#32 = ((4096 : ℝ) : EReal) := by
  simp [Ideal.ofBits, Ideal.ieee, -EReal.coe_mul]; norm_num

/-- The word 0x39800000 is 1/4096 = 2⁻¹². -/
theorem ofBits_inv4096 : Ideal.ofBits .f32 0x39800000#32 = ((1 / 4096 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- The word 0x00000000 is 0. -/
theorem ofBits_zero : Ideal.ofBits .f32 0x00000000#32 = 0 := Ideal.ofBits_zero_f32

/-- The word 0xFF800000 (sign set, exponent all ones, fraction zero) is −∞. -/
theorem ofBits_negInf : Ideal.ofBits .f32 0xFF800000#32 = ⊥ := by
  simp [Ideal.ofBits, Ideal.ieee]

/-- The word 0x7F800000 (sign clear, exponent all ones, fraction zero) is +∞. -/
theorem ofBits_posInf : Ideal.ofBits .f32 0x7F800000#32 = ⊤ := by
  simp [Ideal.ofBits, Ideal.ieee]

/-- Dividing by 4096 is multiplying by 1/4096, at every extended real. -/
theorem div_4096 (x : EReal) :
    Ideal.div x (Ideal.ofBits .f32 0x45800000#32) = x * Ideal.ofBits .f32 0x39800000#32 := by
  rw [ofBits_4096, ofBits_inv4096]; exact Ideal.div_coe (by norm_num) x

/-- Dividing by 8 is multiplying by 1/8, at every extended real. -/
theorem div_eight (x : EReal) :
    Ideal.div x (Ideal.ofBits .f32 0x41000000#32) = x * Ideal.ofBits .f32 0x3E000000#32 := by
  rw [ofBits_eight, ofBits_eighth]; exact Ideal.div_coe (by norm_num) x

/-- 4096 − 0 = 4096 on the extended reals. -/
theorem sub_4096_zero :
    Ideal.ofBits .f32 0x45800000#32 - Ideal.ofBits .f32 0x00000000#32 = Ideal.ofBits .f32 0x45800000#32 := by
  rw [ofBits_zero, sub_zero]

/-- 4096 > 0: the ordered comparison "greater than" of the two words answers true. -/
theorem cmp_ogt_4096_zero :
    Ideal.cmp .ogt (Ideal.ofBits .f32 0x45800000#32) (Ideal.ofBits .f32 0x00000000#32) = 1#1 := by
  rw [ofBits_4096, ofBits_zero]
  have h : (0 : EReal) < ((4096 : ℝ) : EReal) := by exact_mod_cast (by norm_num : (0 : ℝ) < 4096)
  simp [Ideal.cmp, h]

/-- The same through the subtraction: (4096 − 0) > 0. -/
theorem cmp_ogt_sub_4096_zero :
    Ideal.cmp .ogt (Ideal.ofBits .f32 0x45800000#32 - Ideal.ofBits .f32 0x00000000#32)
      (Ideal.ofBits .f32 0x00000000#32) = 1#1 := by
  rw [sub_4096_zero]; exact cmp_ogt_4096_zero

end Cert.LibWords

end
-- ==== Proof.RefReadPool.lean ====
/-
  The pooled softmax of the reference, read at an index, and its agreement with the specification.
  At (b, i) the score against image entry j is (t i · im j) / 8; dividing by the word of 8 is multiplying by
  the word of 1/8, and the product is rearranged to (t i · 1/8) · im j. The row maximum is folded from −∞, so
  the further maximum with the −∞ splat leaves it unchanged. The sum of the exponentials starts from 0. What
  remains is the largest softmax weight of the row, which equals the reciprocal of the softmax denominator
  (the largest numerator is exp 0 = 1): that identity needs the entries to be real numbers and is taken here
  as a hypothesis.
-/
import proofs.«169346_g86071144612153_cont_sun_m_685_13_alg».proof.Proof.RefReadOps
import proofs.«169346_g86071144612153_cont_sun_m_685_13_alg».proof.Proof.Spec
import proofs.«169346_g86071144612153_cont_sun_m_685_13_alg».proof.Proof.LibWords

noncomputable section

namespace Cert.ReferenceIdeal.RefRead

open Idealize.ShloMosaic Idealize.ShloMosaic.ValueIdx Cert.ReferenceIdeal Cert.ReferenceIdeal.Facts₀
open scoped BigOperators

theorem scoreStage_apply (a0 a1 : FVec Ideal S4096x64 .f32) (b : Fin 4096) (i j : Fin 64) :
    scoreStage a0 a1 (ix3 b i j)
      = Ideal.div (a0 (ix2 b i) * a1 (ix2 b j)) (Ideal.ofBits .f32 0x41000000#32) := by
  unfold scoreStage
  rw [hostDivf_apply, dotOuter_apply, bcastText_apply, bcastImage_apply, broadcastInDim_scalar_apply,
    constant_apply]

theorem rowMaxStage_apply (s : FVec Ideal S4096x64x64 .f32) (b : Fin 4096) (i : Fin 64) :
    rowMaxStage s (ix2 b i)
      = max (Ideal.ofBits .f32 0xFF800000#32)
          ((Finset.univ : Finset (Fin 64)).fold max (Ideal.ofBits .f32 0xFF800000#32) (fun j => s (ix3 b i j))) := by
  unfold rowMaxStage
  rw [maximumf_apply, broadcastInDim_scalar_apply, constant_apply, reduceMax_lane_apply]

theorem expStage_apply (s : FVec Ideal S4096x64x64 .f32) (b : Fin 4096) (i j : Fin 64) :
    expStage s (ix3 b i j) = Ideal.exp (s (ix3 b i j) - rowMaxStage s (ix2 b i)) := by
  unfold expStage
  show Ideal.exp (subf (F := Ideal) s (laneBcast (rowMaxStage s)) (ix3 b i j)) = _
  rw [subf_apply, laneBcast_apply]

theorem softmaxStage_apply (e : FVec Ideal S4096x64x64 .f32) (b : Fin 4096) (i j : Fin 64) :
    softmaxStage e (ix3 b i j) = Ideal.div (e (ix3 b i j)) (∑ j' : Fin 64, e (ix3 b i j')) := by
  unfold softmaxStage
  rw [hostDivf_apply, laneBcast_apply, reduceAdd_lane_apply]

theorem poolStage_apply (a0 a1 : FVec Ideal S4096x64 .f32) (b : Fin 4096) (i : Fin 64) :
    poolStage a0 a1 (ix2 b i)
      = (Finset.univ : Finset (Fin 64)).fold max (Ideal.ofBits .f32 0xFF800000#32)
          (fun j => softmaxStage (expStage (scoreStage a0 a1)) (ix3 b i j)) := by
  unfold poolStage
  rw [reduceMax_lane_apply]

/-- The reference's score (t·im)/8 is the specification's (t·(1/8))·im. -/
theorem scoreStage_eq_spec (a0 a1 : FVec Ideal S4096x64 .f32) (b : Fin 4096) (i j : Fin 64) :
    scoreStage a0 a1 (ix3 b i j) = Cert.Spec.score (fun i => a0 (ix2 b i)) (fun j => a1 (ix2 b j)) i j := by
  rw [scoreStage_apply, Cert.LibWords.div_eight]
  unfold Cert.Spec.score Cert.Spec.wEighth
  exact mul_right_comm _ _ _

/-- The row maximum folded from −∞ already dominates −∞, so the further maximum with −∞ changes nothing. -/
theorem rowMaxStage_eq_spec (a0 a1 : FVec Ideal S4096x64 .f32) (b : Fin 4096) (i : Fin 64) :
    rowMaxStage (scoreStage a0 a1) (ix2 b i)
      = Cert.Spec.rowMax (Cert.Spec.score (fun i => a0 (ix2 b i)) (fun j => a1 (ix2 b j)) i) := by
  rw [rowMaxStage_apply]
  simp only [scoreStage_eq_spec]
  unfold Cert.Spec.rowMax Cert.Spec.wNegInf
  exact max_eq_right ((Finset.le_fold_max _).2 (Or.inl le_rfl))

/-- The pooled stage is the specification's pooled entry, given the softmax-max identity. -/
theorem poolStage_eq_spec (a0 a1 : FVec Ideal S4096x64 .f32)
    (hmax : ∀ (b : Fin 4096) (i : Fin 64),
      (Finset.univ : Finset (Fin 64)).fold max Cert.Spec.wNegInf
        (fun j => Ideal.div
          (Ideal.exp (Cert.Spec.score (fun i => a0 (ix2 b i)) (fun j => a1 (ix2 b j)) i j
            - Cert.Spec.rowMax (Cert.Spec.score (fun i => a0 (ix2 b i)) (fun j => a1 (ix2 b j)) i)))
          (∑ j' : Fin 64,
            Ideal.exp (Cert.Spec.score (fun i => a0 (ix2 b i)) (fun j => a1 (ix2 b j)) i j'
              - Cert.Spec.rowMax (Cert.Spec.score (fun i => a0 (ix2 b i)) (fun j => a1 (ix2 b j)) i))))
        = Cert.Spec.pool (fun i => a0 (ix2 b i)) (fun j => a1 (ix2 b j)) i)
    (b : Fin 4096) (i : Fin 64) :
    poolStage a0 a1 (ix2 b i) = Cert.Spec.pool (fun i => a0 (ix2 b i)) (fun j => a1 (ix2 b j)) i := by
  rw [poolStage_apply]
  simp only [softmaxStage_apply, expStage_apply, scoreStage_eq_spec, rowMaxStage_eq_spec]
  exact hmax b i

end Cert.ReferenceIdeal.RefRead

end
-- ==== Proof.RefReadLayer.lean ====
/-
  A layer of the reference, read at an index, and its agreement with the specification.
  y = x · Wᵀ + b with the weight read at swapped coordinates. The mean is the column sum (from 0) divided by the
  word of 4096, that is multiplied by the word of 1/4096. The variance is computed by an outlined function that
  recomputes the mean through the one-row array, squares the deviations by a product, divides the column sum of
  the squares by 4096 − float(0) = 4096, and selects that quotient against a NaN word by the comparison
  4096 − 0 > 0, which holds. Then (y − mean) / √(var + ε) · g + be and the maximum with the 0 splat.
-/
import proofs.«169346_g86071144612153_cont_sun_m_685_13_alg».proof.Proof.RefReadOps
import proofs.«169346_g86071144612153_cont_sun_m_685_13_alg».proof.Proof.Spec
import proofs.«169346_g86071144612153_cont_sun_m_685_13_alg».proof.Proof.LibWords

noncomputable section

namespace Cert.ReferenceIdeal.RefRead

open Idealize.ShloMosaic Idealize.ShloMosaic.ValueIdx Cert.ReferenceIdeal Cert.ReferenceIdeal.Facts₀
open scoped BigOperators

/-! ## The broadcasts through the one-row array, one at a time -/

theorem bcastRowUp_apply (x : FVec Ideal S1x64 .f32) (r : Fin 4096) (k : Fin 64) :
    broadcastInDim S4096x64 ![0, 1] bcast_S1x64_S4096x64_0_1 x (ix2 r k) = x (ix2 (0 : Fin 1) k) :=
  broadcastInDim_apply _ _ _ (ix2 r k) (ix2 (0 : Fin 1) k) (fun a => match a with | ⟨0, _⟩ => rfl | ⟨1, _⟩ => rfl)

theorem bcastOneRow_apply (v : FVec Ideal S64 .f32) (z : Fin 1) (k : Fin 64) :
    broadcastInDim S1x64 ![1] bcast_S64_S1x64_1 v (ix2 z k) = v (ix1 k) :=
  broadcastInDim_apply _ _ _ (ix2 z k) (ix1 k) (fun a => match a with | ⟨0, _⟩ => rfl)

/-! ## The stages of a layer at an index -/

theorem linStage_apply (x : FVec Ideal S4096x64 .f32) (w : FVec Ideal S64x64 .f32) (b : FVec Ideal S64 .f32)
    (r : Fin 4096) (k : Fin 64) :
    linStage x w b (ix2 r k) = (∑ c : Fin 64, x (ix2 r c) * w (ix2 k c)) + b (ix1 k) := by
  unfold linStage
  rw [addf_apply, dotRows_apply, rowBcast_apply]
  refine congrArg (· + b (ix1 k)) (Finset.sum_congr rfl fun c _ => ?_)
  rw [transposeW_apply]

theorem meanStage_apply (y : FVec Ideal S4096x64 .f32) (k : Fin 64) :
    meanStage y (ix1 k) = (∑ r : Fin 4096, y (ix2 r k)) * Ideal.ofBits .f32 0x39800000#32 := by
  unfold meanStage
  rw [hostDivf_apply, reduceAdd_rows_apply, broadcastInDim_scalar_apply, constant_apply, Cert.LibWords.div_4096]

/-- 4096 − float(0) = 4096: the integer word 0 converts to the real 0. -/
theorem dofStage_apply : dofStage ix0 = Ideal.ofBits .f32 0x45800000#32 := by
  unfold dofStage
  rw [subf_apply, constant_apply, sitofp_apply]
  show _ - (((((0#32 : BitVec 32)).toInt : ℝ)) : EReal) = _
  simp

theorem sqDevStage_apply (y : FVec Ideal S4096x64 .f32) (r : Fin 4096) (k : Fin 64) :
    sqDevStage y (ix2 r k)
      = (y (ix2 r k) - (∑ r' : Fin 4096, y (ix2 r' k)) * Ideal.ofBits .f32 0x39800000#32)
        * (y (ix2 r k) - (∑ r' : Fin 4096, y (ix2 r' k)) * Ideal.ofBits .f32 0x39800000#32) := by
  unfold sqDevStage
  show mulf (F := Ideal) _ _ (ix2 r k) = _
  rw [mulf_apply, subf_apply, bcastRowUp_apply, hostDivf_apply, bcastOneRow_apply, reduceAdd_rows_apply,
    broadcastInDim_scalar_apply, constant_apply, Cert.LibWords.div_4096]

theorem varStage_apply (y : FVec Ideal S4096x64 .f32) (k : Fin 64) :
    varStage y (ix1 k) = (∑ r : Fin 4096, sqDevStage y (ix2 r k)) * Ideal.ofBits .f32 0x39800000#32 := by
  unfold varStage
  rw [select_apply, broadcastInDim_scalar_apply, cmpf_apply, dofStage_apply, constant_apply, Ideal.cmpf_def,
    Cert.LibWords.cmp_ogt_4096_zero, select_one, hostDivf_apply, reduceAdd_rows_apply,
    broadcastInDim_scalar_apply, dofStage_apply, Cert.LibWords.div_4096]

theorem normStage_apply (y : FVec Ideal S4096x64 .f32) (g be : FVec Ideal S64 .f32) (r : Fin 4096) (k : Fin 64) :
    normStage y g be (ix2 r k)
      = Ideal.div (y (ix2 r k) - meanStage y (ix1 k))
          (Ideal.sqrt (varStage y (ix1 k) + Ideal.ofBits .f32 0x3727C5AC#32)) * g (ix1 k) + be (ix1 k) := by
  unfold normStage
  rw [addf_apply, mulf_apply, hostDivf_apply, subf_apply, rowBcast_apply, rowBcast_apply, rowBcast_apply,
    rowBcast_apply]
  show Ideal.div _ (Ideal.sqrt (addf (F := Ideal) _ _ (ix1 k))) * _ + _ = _
  rw [addf_apply, broadcastInDim_scalar_apply, constant_apply]

theorem reluStage_apply (z : FVec Ideal S4096x64 .f32) (r : Fin 4096) (k : Fin 64) :
    reluStage z (ix2 r k) = max (z (ix2 r k)) (Ideal.ofBits .f32 0x00000000#32) := by
  unfold reluStage
  rw [maximumf_apply, broadcastInDim_scalar_apply, constant_apply]

/-- A layer of the reference is the specification's layer: the linear map, the mean as a product with 1/4096,
    the biased variance (the guard 4096 − 0 > 0 holds, so the select takes the quotient), the normalisation
    and the positive part. -/
theorem layerStage_eq_spec (x : FVec Ideal S4096x64 .f32) (w : FVec Ideal S64x64 .f32) (b g be : FVec Ideal S64 .f32)
    (r : Fin 4096) (k : Fin 64) :
    layerStage x w b g be (ix2 r k)
      = Cert.Spec.layer (fun r c => x (ix2 r c)) (fun c k => w (ix2 k c)) (fun k => b (ix1 k))
          (fun k => g (ix1 k)) (fun k => be (ix1 k)) r k := by
  unfold layerStage
  rw [reluStage_apply, normStage_apply, meanStage_apply, varStage_apply]
  simp only [sqDevStage_apply, linStage_apply]
  rfl

end Cert.ReferenceIdeal.RefRead

end
-- ==== Proof.RefReadProp.lean ====
/-
  A propagation step of the reference, read at an index: (aff · h)(b, k) = Σ_r aff b r · h r k, which is the
  specification's Σ_r h r k · aff b r by commutativity of the product.
-/
import proofs.«169346_g86071144612153_cont_sun_m_685_13_alg».proof.Proof.RefReadOps
import proofs.«169346_g86071144612153_cont_sun_m_685_13_alg».proof.Proof.Spec

noncomputable section

namespace Cert.ReferenceIdeal.RefRead

open Idealize.ShloMosaic Idealize.ShloMosaic.ValueIdx Cert.ReferenceIdeal Cert.ReferenceIdeal.Facts₀
open scoped BigOperators

theorem propStage_eq_spec (aff : FVec Ideal S4096x4096 .f32) (h : FVec Ideal S4096x64 .f32) (b : Fin 4096) (k : Fin 64) :
    propStage aff h (ix2 b k) = Cert.Spec.prop (fun b r => aff (ix2 b r)) (fun r k => h (ix2 r k)) b k := by
  unfold propStage Cert.Spec.prop
  rw [dotAff_apply]
  exact Finset.sum_congr rfl fun r _ => mul_comm _ _

end Cert.ReferenceIdeal.RefRead

end
-- ==== Proof.RefRead.lean ====
/-
  The reference's value, read at an index: the composition of its stages is the specification's pipeline.
  Each layer and each propagation step is the specification's, index by index, over whatever array it is fed;
  the pooled stage is the specification's pooled entry given the softmax-max identity. The stages compose as
  the specification composes them, the weights being read at swapped coordinates inside a layer.
-/
import proofs.«169346_g86071144612153_cont_sun_m_685_13_alg».proof.Proof.RefReadPool
import proofs.«169346_g86071144612153_cont_sun_m_685_13_alg».proof.Proof.RefReadLayer
import proofs.«169346_g86071144612153_cont_sun_m_685_13_alg».proof.Proof.RefReadProp

noncomputable section

namespace Cert.ReferenceIdeal.RefRead

open Idealize.ShloMosaic Idealize.ShloMosaic.ValueIdx Cert.ReferenceIdeal Cert.ReferenceIdeal.Facts₀
open scoped BigOperators

theorem refOut_apply (a0 a1 : FVec Ideal S4096x64 .f32) (a2 a3 : FVec Ideal S4096x4096 .f32)
    (a4 : FVec Ideal S64x64 .f32) (a5 a6 a7 : FVec Ideal S64 .f32)
    (a8 : FVec Ideal S64x64 .f32) (a9 a10 a11 : FVec Ideal S64 .f32)
    (a12 : FVec Ideal S64x64 .f32) (a13 a14 a15 : FVec Ideal S64 .f32)
    (hmax : ∀ (b : Fin 4096) (i : Fin 64),
      (Finset.univ : Finset (Fin 64)).fold max Cert.Spec.wNegInf
        (fun j => Ideal.div
          (Ideal.exp (Cert.Spec.score (fun i => a0 (ix2 b i)) (fun j => a1 (ix2 b j)) i j
            - Cert.Spec.rowMax (Cert.Spec.score (fun i => a0 (ix2 b i)) (fun j => a1 (ix2 b j)) i)))
          (∑ j' : Fin 64,
            Ideal.exp (Cert.Spec.score (fun i => a0 (ix2 b i)) (fun j => a1 (ix2 b j)) i j'
              - Cert.Spec.rowMax (Cert.Spec.score (fun i => a0 (ix2 b i)) (fun j => a1 (ix2 b j)) i))))
        = Cert.Spec.pool (fun i => a0 (ix2 b i)) (fun j => a1 (ix2 b j)) i)
    (r : Fin 4096) (k : Fin 64) :
    refOut a0 a1 a2 a3 a4 a5 a6 a7 a8 a9 a10 a11 a12 a13 a14 a15 (ix2 r k)
      = Cert.Spec.out (fun b i => a0 (ix2 b i)) (fun b j => a1 (ix2 b j)) (fun b r => a2 (ix2 b r))
          (fun b r => a3 (ix2 b r)) (fun k c => a4 (ix2 k c)) (fun k => a5 (ix1 k)) (fun k => a6 (ix1 k))
          (fun k => a7 (ix1 k)) (fun k c => a8 (ix2 k c)) (fun k => a9 (ix1 k)) (fun k => a10 (ix1 k))
          (fun k => a11 (ix1 k)) (fun k c => a12 (ix2 k c)) (fun k => a13 (ix1 k)) (fun k => a14 (ix1 k))
          (fun k => a15 (ix1 k)) r k := by
  unfold refOut Cert.Spec.out
  simp only [layerStage_eq_spec, propStage_eq_spec, poolStage_eq_spec a0 a1 hmax]

end Cert.ReferenceIdeal.RefRead

end
-- ==== Proof.LibSoftmaxMax.lean ====
/-
  The largest softmax weight of a row of real scores is the reciprocal of the softmax denominator.

  For real scores s j over a finite nonempty index set, let M be their maximum (folded from −∞ on the
  extended reals), e j = exp (s j − M) and S = Σ_j e j.  Every s j − M is a real ≤ 0, so every e j is a real
  in (0, 1]; the maximum is attained at some j*, where e j* = exp 0 = 1; hence S is a real ≥ 1, every
  e j / S is the real e j · (1/S) ≤ 1/S, with equality at j*, and the largest of the weights e j / S is 1/S.

  The general statement is over any finite nonempty index type; the corollaries read it at the scores
  s j = (t i · 1/8) · im j of one row of 64 and at the pooled entry 1 / S of the specification.
-/
import proofs.«169346_g86071144612153_cont_sun_m_685_13_alg».proof.Proof.Spec
import proofs.«169346_g86071144612153_cont_sun_m_685_13_alg».proof.Proof.LibWords

noncomputable section

namespace Cert.LibSoftmaxMax

open Idealize.ShloMosaic

/-- The largest of finitely many reals, folded from −∞ on the extended reals, is the value at any index
    where the largest is attained. -/
theorem fold_max_bot_coe {ι : Type*} (s : Finset ι) (r : ι → ℝ) (j0 : ι) (hj0 : j0 ∈ s)
    (h : ∀ j ∈ s, r j ≤ r j0) :
    s.fold max (⊥ : EReal) (fun j => (r j : EReal)) = (r j0 : EReal) := by
  apply le_antisymm
  · rw [Finset.fold_max_le]
    exact ⟨bot_le, fun j hj => EReal.coe_le_coe_iff.mpr (h j hj)⟩
  · rw [Finset.le_fold_max]
    exact Or.inr ⟨j0, hj0, le_rfl⟩

/-- A finite sum of reals, taken on the extended reals, is the real sum. -/
theorem coe_sum {ι : Type*} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The largest softmax weight is the reciprocal of the denominator: for real scores r over a finite nonempty
    index type, with M their maximum folded from b = −∞, the largest of exp (r j − M) / S' over j, where S' is
    the denominator S = Σ_j exp (r j − M) in whatever spelling, is u / S with u = 1. -/
theorem max_softmax_eq_inv_sum {ι : Type*} [Fintype ι] [Nonempty ι] (r : ι → ℝ) (M u S' b : EReal)
    (hb : b = ⊥) (hM : M = (Finset.univ : Finset ι).fold max b (fun j => (r j : EReal))) (hu : u = 1)
    (hS' : S' = ∑ j', Ideal.exp ((r j' : EReal) - M)) :
    (Finset.univ : Finset ι).fold max b (fun j => Ideal.div (Ideal.exp ((r j : EReal) - M)) S')
      = Ideal.div u (∑ j', Ideal.exp ((r j' : EReal) - M)) := by
  subst hb hu hS'
  obtain ⟨j0, -, hj0⟩ := Finset.exists_max_image Finset.univ r Finset.univ_nonempty
  have hM' : M = (r j0 : EReal) := hM.trans (fold_max_bot_coe _ r j0 (Finset.mem_univ _) hj0)
  clear hM
  subst hM'
  have he : ∀ j, Ideal.exp ((r j : EReal) - (r j0 : EReal)) = ((Real.exp (r j - r j0) : ℝ) : EReal) :=
    fun j => by rw [← EReal.coe_sub]; rfl
  simp only [he]
  rw [coe_sum]
  have hσ1 : 1 ≤ ∑ j, Real.exp (r j - r j0) := by
    have h := Finset.single_le_sum (f := fun j => Real.exp (r j - r j0))
      (fun j _ => (Real.exp_pos _).le) (Finset.mem_univ j0)
    simpa using h
  have hσ0 : (∑ j, Real.exp (r j - r j0)) ≠ 0 := by linarith
  simp only [Ideal.div_coe hσ0, one_mul, ← EReal.coe_mul]
  refine (fold_max_bot_coe _ (fun j => Real.exp (r j - r j0) * (1 / ∑ j, Real.exp (r j - r j0))) j0
    (Finset.mem_univ _) ?_).trans ?_
  · intro j _
    apply mul_le_mul_of_nonneg_right
    · exact Real.exp_le_exp.mpr (by linarith [hj0 j (Finset.mem_univ j)])
    · exact one_div_nonneg.mpr (by linarith)
  · simp

/-- With a real text entry and real image entries, the scores of one row are real. -/
theorem score_real (t im : Fin 64 → EReal) (ht : ∀ i, ∃ x : ℝ, t i = x) (him : ∀ j, ∃ x : ℝ, im j = x)
    (i : Fin 64) : ∃ r : Fin 64 → ℝ, ∀ j, Spec.score t im i j = (r j : EReal) := by
  obtain ⟨a, ha⟩ := ht i
  choose c hc using him
  refine ⟨fun j => a * (1 / 8) * c j, fun j => ?_⟩
  rw [Spec.score, Spec.wEighth, LibWords.ofBits_eighth, ha, hc j, ← EReal.coe_mul, ← EReal.coe_mul]

/-- The general form at the specification's scores: the fold may start from any spelling b of −∞ and the
    weights may be divided by any spelling S' of the denominator. -/
theorem max_softmax_eq_pool_of (t im : Fin 64 → EReal) (ht : ∀ i, ∃ x : ℝ, t i = x)
    (him : ∀ j, ∃ x : ℝ, im j = x) (i : Fin 64) (b S' : EReal) (hb : b = ⊥)
    (hS' : S' = ∑ j', Ideal.exp (Spec.score t im i j' - Spec.rowMax (Spec.score t im i))) :
    (Finset.univ : Finset (Fin 64)).fold max b
      (fun j => Ideal.div (Ideal.exp (Spec.score t im i j - Spec.rowMax (Spec.score t im i))) S')
      = Spec.pool t im i := by
  obtain ⟨r, hr⟩ := score_real t im ht him i
  have hs : Spec.score t im i = fun j => (r j : EReal) := funext hr
  rw [Spec.pool]
  rw [hs] at hS' ⊢
  exact max_softmax_eq_inv_sum r _ _ S' b hb
    (by rw [Spec.rowMax, Spec.wNegInf, LibWords.ofBits_negInf, hb]) (by rw [Spec.wOne, LibWords.ofBits_one]) hS'

/-- The largest softmax weight of a row is the pooled entry. -/
theorem max_softmax_eq_pool (t im : Fin 64 → EReal) (ht : ∀ i, ∃ x : ℝ, t i = x)
    (him : ∀ j, ∃ x : ℝ, im j = x) (i : Fin 64) :
    (Finset.univ : Finset (Fin 64)).fold max Spec.wNegInf
      (fun j => Ideal.div (Ideal.exp (Spec.score t im i j - Spec.rowMax (Spec.score t im i)))
        (∑ j', Ideal.exp (Spec.score t im i j' - Spec.rowMax (Spec.score t im i))))
      = Spec.pool t im i :=
  max_softmax_eq_pool_of t im ht him i _ _ (by rw [Spec.wNegInf, LibWords.ofBits_negInf]) rfl

/-- The same with the denominator summed from an initial 0. -/
theorem max_softmax_eq_pool_zero_add (t im : Fin 64 → EReal) (ht : ∀ i, ∃ x : ℝ, t i = x)
    (him : ∀ j, ∃ x : ℝ, im j = x) (i : Fin 64) :
    (Finset.univ : Finset (Fin 64)).fold max Spec.wNegInf
      (fun j => Ideal.div (Ideal.exp (Spec.score t im i j - Spec.rowMax (Spec.score t im i)))
        (0 + ∑ j', Ideal.exp (Spec.score t im i j' - Spec.rowMax (Spec.score t im i))))
      = Spec.pool t im i :=
  max_softmax_eq_pool_of t im ht him i _ _ (by rw [Spec.wNegInf, LibWords.ofBits_negInf]) (zero_add _)

/-- The same with the denominator summed from the word of 0. -/
theorem max_softmax_eq_pool_wZero_add (t im : Fin 64 → EReal) (ht : ∀ i, ∃ x : ℝ, t i = x)
    (him : ∀ j, ∃ x : ℝ, im j = x) (i : Fin 64) :
    (Finset.univ : Finset (Fin 64)).fold max Spec.wNegInf
      (fun j => Ideal.div (Ideal.exp (Spec.score t im i j - Spec.rowMax (Spec.score t im i)))
        (Spec.wZero + ∑ j', Ideal.exp (Spec.score t im i j' - Spec.rowMax (Spec.score t im i))))
      = Spec.pool t im i :=
  max_softmax_eq_pool_of t im ht him i _ _ (by rw [Spec.wNegInf, LibWords.ofBits_negInf])
    (by rw [Spec.wZero, LibWords.ofBits_zero, zero_add])

/-- One more maximum with −∞ in front changes nothing. -/
theorem max_wNegInf_left (x : EReal) : max Spec.wNegInf x = x := by
  rw [Spec.wNegInf, LibWords.ofBits_negInf]; exact max_bot_left x

/-- One more maximum with −∞ behind changes nothing. -/
theorem max_wNegInf_right (x : EReal) : max x Spec.wNegInf = x := by
  rw [Spec.wNegInf, LibWords.ofBits_negInf]; exact max_bot_right x

end Cert.LibSoftmaxMax

end
-- ==== Proof.Finite.lean ====
/-
  The precondition "every float input is finite", read back at the two activations.

  The printed predicate is a conjunction, over the sixteen argument arrays, of "all entries satisfy
  |x| < +∞", each a reduction by "and" of the elementwise comparison of max x (−x) with the word of +∞.
  If the conjunction is true, each conjunct is, so each comparison is true at every index; and an extended
  real whose absolute value is below +∞ is neither −∞ nor +∞: it is a real.
-/
import proofs.«169346_g86071144612153_cont_sun_m_685_13_alg».proof.Proof.Gen.Pre_finite_inputs
import proofs.«169346_g86071144612153_cont_sun_m_685_13_alg».proof.Proof.LibWords
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has exactly one index. -/
theorem subsingleton_scalarIdx : Subsingleton S_.Idx := ⟨fun _ _ => funext fun d => d.elim0⟩

/-- An extended real whose absolute value max x (−x) compares below the word of +∞ is a real. -/
theorem real_of_abs_lt_posInf (x : EReal)
    (h : Ideal.cmp .olt (max x (-x)) (Ideal.ofBits .f32 0x7F800000#32) = 1#1) : ∃ r : ℝ, x = r := by
  rw [LibWords.ofBits_posInf] at h
  induction x using EReal.rec with
  | bot => simp [Ideal.cmp] at h
  | top => simp [Ideal.cmp] at h
  | coe r => exact ⟨r, rfl⟩

/-- One conjunct of the predicate: if the "and" over all entries of |a| < +∞ is true, every entry of a is a real. -/
theorem all_real_of_reduce {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = r := by
  haveI := subsingleton_scalarIdx
  have h1 := Host.reduce_andi_all _ _ hr hu _ e i
  exact real_of_abs_lt_posInf (a i) h1

/-- Under the precondition, every entry of the first two argument arrays (the two activations) is a real. -/
theorem arg0_arg1_real [Facts] (a0 a1 : FVec Ideal S4096x64 .f32) (a2 a3 : FVec Ideal S4096x4096 .f32)
    (a4 : FVec Ideal S64x64 .f32) (a5 a6 a7 : FVec Ideal S64 .f32) (a8 : FVec Ideal S64x64 .f32)
    (a9 a10 a11 : FVec Ideal S64 .f32) (a12 : FVec Ideal S64x64 .f32) (a13 a14 a15 : FVec Ideal S64 .f32)
    (h : fn (F := Ideal) a0 a1 a2 a3 a4 a5 a6 a7 a8 a9 a10 a11 a12 a13 a14 a15 = fun _ => 1#1) :
    (∀ i, ∃ x : ℝ, a0 i = x) ∧ (∀ i, ∃ x : ℝ, a1 i = x) := by
  have h0 := congrFun h ValueIdx.ix0
  dsimp only [fn, fn_part1, fn_part2, fn_part3, fn_part4, andi] at h0
  have key : ∀ {c d : BitVec 1}, IntOp.andi c d = 1#1 → c = 1#1 := fun h => (IntOp.andi_eq_one.1 h).1
  have h8 := key (key (key (key (key (key (key (key (key (key (key (key (key (key h0)))))))))))))
  obtain ⟨h3, h7⟩ := IntOp.andi_eq_one.1 h8
  exact ⟨all_real_of_reduce a0 _ _ _ h3, all_real_of_reduce a1 _ _ _ h7⟩

end Cert.Finite

end
-- ==== Proof.Claims.lean ====
/-
  The five claims. The three frames: the two kernels' are the generated frame certificates; the reference's is its run
  with the result dropped. The idealization rewrote nothing, so preserves is trivial. The algebraic claim: at the ideal
  instance the kernel's result array is the chain of its six regions, which is the pipeline's function of the launch
  contents entry by entry (pooling, three layers, two propagation steps), and the reference's result is the same
  function — the only place where the two sides differ in more than the grouping of sums and the spelling of 1/8 and
  1/4096 is the pooling: the reference takes the largest softmax weight of a row of scores, the kernel the reciprocal
  of the softmax denominator, and these agree because the scores are real numbers (the precondition: text and image
  are finite), so the largest numerator is exp 0 = 1.
-/
import proofs.«169346_g86071144612153_cont_sun_m_685_13_alg».proof.Defs
import proofs.«169346_g86071144612153_cont_sun_m_685_13_alg».proof.Proof.Gen.Kernel
import proofs.«169346_g86071144612153_cont_sun_m_685_13_alg».proof.Proof.Gen.Kernel.Skeleton
import proofs.«169346_g86071144612153_cont_sun_m_685_13_alg».proof.Proof.Gen.Kernel.Launch
import proofs.«169346_g86071144612153_cont_sun_m_685_13_alg».proof.Proof.Gen.Kernel.Points
import proofs.«169346_g86071144612153_cont_sun_m_685_13_alg».proof.Proof.Gen.Kernel.Frame
import proofs.«169346_g86071144612153_cont_sun_m_685_13_alg».proof.Proof.Gen.KernelIdeal
import proofs.«169346_g86071144612153_cont_sun_m_685_13_alg».proof.Proof.Gen.KernelIdeal.Skeleton
import proofs.«169346_g86071144612153_cont_sun_m_685_13_alg».proof.Proof.Gen.KernelIdeal.Launch
import proofs.«169346_g86071144612153_cont_sun_m_685_13_alg».proof.Proof.Gen.KernelIdeal.Points
import proofs.«169346_g86071144612153_cont_sun_m_685_13_alg».proof.Proof.Gen.KernelIdeal.Frame
import proofs.«169346_g86071144612153_cont_sun_m_685_13_alg».proof.Proof.Gen.ReferenceIdeal
import proofs.«169346_g86071144612153_cont_sun_m_685_13_alg».proof.Proof.Gen.Pre_finite_inputs
import Idealize.ShloMosaic.Adequacy
import Idealize.ShloMosaic.Init
import proofs.«169346_g86071144612153_cont_sun_m_685_13_alg».proof.Proof.Spec
import proofs.«169346_g86071144612153_cont_sun_m_685_13_alg».proof.Proof.KernelRun
import proofs.«169346_g86071144612153_cont_sun_m_685_13_alg».proof.Proof.KernelValue
import proofs.«169346_g86071144612153_cont_sun_m_685_13_alg».proof.Proof.PoolBlock
import proofs.«169346_g86071144612153_cont_sun_m_685_13_alg».proof.Proof.BnLinCentred1
import proofs.«169346_g86071144612153_cont_sun_m_685_13_alg».proof.Proof.BnLinCentred3
import proofs.«169346_g86071144612153_cont_sun_m_685_13_alg».proof.Proof.BnLinCentred5
import proofs.«169346_g86071144612153_cont_sun_m_685_13_alg».proof.Proof.BnLinOut1
import proofs.«169346_g86071144612153_cont_sun_m_685_13_alg».proof.Proof.BnLinOut3
import proofs.«169346_g86071144612153_cont_sun_m_685_13_alg».proof.Proof.BnLinOut5
import proofs.«169346_g86071144612153_cont_sun_m_685_13_alg».proof.Proof.RefRun
import proofs.«169346_g86071144612153_cont_sun_m_685_13_alg».proof.Proof.RefJoin
import proofs.«169346_g86071144612153_cont_sun_m_685_13_alg».proof.Proof.RefRead
import proofs.«169346_g86071144612153_cont_sun_m_685_13_alg».proof.Proof.LibSoftmaxMax
import proofs.«169346_g86071144612153_cont_sun_m_685_13_alg».proof.Proof.Finite

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

open Cert.KernelIdeal Cert.KernelIdeal.Gen in
/-- The pooling body on a block of 256 rows. -/
theorem body0 (x0 x1 : Vec Ideal S256x64 .f32) (p : Fin 256) (i : Fin 64) :
    out0_2 (F := Ideal) x0 x1 (ix2 p i) = Cert.Spec.pool (fun j => x0 (ix2 p j)) (fun j => x1 (ix2 p j)) i :=
  Cert.KernelIdeal.PoolBlock.out0_2_apply x0 x1 p i

open Cert.KernelIdeal Cert.KernelIdeal.Gen in
/-- The first layer's body (output transposed). -/
theorem body1 (x0 : Vec Ideal S4096x64 .f32) (x1 : Vec Ideal S64x64 .f32) (x2 x3 x4 : Vec Ideal S1x64 .f32) (k : Fin 64) (r : Fin 4096) :
    out1_5 (F := Ideal) x0 x1 x2 x3 x4 (ix2 k r) = Cert.Spec.layer (fun r cc => x0 (ix2 r cc)) (fun cc k => x1 (ix2 cc k))
      (fun k => x2 (ix2 0 k)) (fun k => x3 (ix2 0 k)) (fun k => x4 (ix2 0 k)) r k :=
  Cert.KernelIdeal.BnLinOut1.out1_5_apply x0 x1 x2 x3 x4 (fun r k => Cert.KernelIdeal.BnLinCentred1.centred_apply x0 x1 x2 r k) k r

open Cert.KernelIdeal Cert.KernelIdeal.Gen in
/-- The second layer's body (output transposed). -/
theorem body3 (x0 : Vec Ideal S4096x64 .f32) (x1 : Vec Ideal S64x64 .f32) (x2 x3 x4 : Vec Ideal S1x64 .f32) (k : Fin 64) (r : Fin 4096) :
    out3_5 (F := Ideal) x0 x1 x2 x3 x4 (ix2 k r) = Cert.Spec.layer (fun r cc => x0 (ix2 r cc)) (fun cc k => x1 (ix2 cc k))
      (fun k => x2 (ix2 0 k)) (fun k => x3 (ix2 0 k)) (fun k => x4 (ix2 0 k)) r k :=
  Cert.KernelIdeal.BnLinOut3.out3_5_apply x0 x1 x2 x3 x4 (fun r k => Cert.KernelIdeal.BnLinCentred3.centred_apply x0 x1 x2 r k) k r

open Cert.KernelIdeal Cert.KernelIdeal.Gen in
/-- The third layer's body. -/
theorem body5 (x0 : Vec Ideal S4096x64 .f32) (x1 : Vec Ideal S64x64 .f32) (x2 x3 x4 : Vec Ideal S1x64 .f32) (r : Fin 4096) (k : Fin 64) :
    out5_5 (F := Ideal) x0 x1 x2 x3 x4 (ix2 r k) = Cert.Spec.layer (fun r cc => x0 (ix2 r cc)) (fun cc k => x1 (ix2 cc k))
      (fun k => x2 (ix2 0 k)) (fun k => x3 (ix2 0 k)) (fun k => x4 (ix2 0 k)) r k :=
  Cert.KernelIdeal.BnLinOut5.out5_5_apply x0 x1 x2 x3 x4 (fun r k => Cert.KernelIdeal.BnLinCentred5.centred_apply x0 x1 x2 r k) k r

/-- At the ideal instance both programs end with the pipeline's function of the arguments. -/
theorem algebraic : Cert.algebraic_KernelIdeal_ReferenceIdeal := by
  intro m ρ m' ρ' hpre hagree
  refine ⟨fun c => Cert.KernelIdeal.Value.stOut m c, ?_, ?_⟩
  · exact (θ_run Cert.KernelIdeal.defs _ _).mono
      (fun r h c => ⟨(h c).1.trans (Cert.KernelIdeal.Value.result_arr m ρ c body0 body1 body3 body5), (h c).2⟩)
      (Cert.KernelIdeal.Run.run_result m ρ)
  · refine (θ_run Cert.ReferenceIdeal.defs _ _).mono (fun r h c => ⟨(h c).1.trans ?_, (h c).2⟩)
      (Cert.ReferenceIdeal.RefJoin.run_value m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    obtain ⟨hf0, hf1⟩ := Cert.Finite.arg0_arg1_real _ _ _ _ _ _ _ _ _ _ _ _ _ _ _ _ (hpre c)
    funext i
    obtain ⟨r, k, rfl⟩ : ∃ (r : Fin 4096) (k : Fin 64), i = ix2 r k := ⟨i 0, i 1, eq_ix2 i⟩
    exact (Cert.ReferenceIdeal.RefRead.refOut_apply _ _ _ _ _ _ _ _ _ _ _ _ _ _ _ _
      (fun b i' => Cert.LibSoftmaxMax.max_softmax_eq_pool _ _ (fun q => hf0 (ix2 b q)) (fun q => hf1 (ix2 b q)) i') r k).trans
      (Cert.KernelIdeal.Value.stOut_apply m c r k).symm

end Cert.Proof.Claims

end
-- ==== Proof.lean ====
/-
  The certificate: a fused kernel pipeline — softmax pooling of text against image rows, then three layers
  (linear map, batch normalisation over 4096 rows, positive part) with two products by 4096 × 4096 affinity matrices in
  between — computes, on the extended reals, the same function of its sixteen argument arrays as the plain reference.
  The five claims are proved in Proof/Claims.lean; the witnesses of the programs' stated side conditions are the
  instances the generated modules prove.
-/
import proofs.«169346_g86071144612153_cont_sun_m_685_13_alg».proof.Defs
import proofs.«169346_g86071144612153_cont_sun_m_685_13_alg».proof.Proof.Gen.Kernel
import proofs.«169346_g86071144612153_cont_sun_m_685_13_alg».proof.Proof.Gen.Kernel.Skeleton
import proofs.«169346_g86071144612153_cont_sun_m_685_13_alg».proof.Proof.Gen.Kernel.Launch
import proofs.«169346_g86071144612153_cont_sun_m_685_13_alg».proof.Proof.Gen.Kernel.Points
import proofs.«169346_g86071144612153_cont_sun_m_685_13_alg».proof.Proof.Gen.Kernel.Frame
import proofs.«169346_g86071144612153_cont_sun_m_685_13_alg».proof.Proof.Gen.KernelIdeal
import proofs.«169346_g86071144612153_cont_sun_m_685_13_alg».proof.Proof.Gen.KernelIdeal.Skeleton
import proofs.«169346_g86071144612153_cont_sun_m_685_13_alg».proof.Proof.Gen.KernelIdeal.Launch
import proofs.«169346_g86071144612153_cont_sun_m_685_13_alg».proof.Proof.Gen.KernelIdeal.Points
import proofs.«169346_g86071144612153_cont_sun_m_685_13_alg».proof.Proof.Gen.KernelIdeal.Frame
import proofs.«169346_g86071144612153_cont_sun_m_685_13_alg».proof.Proof.Gen.ReferenceIdeal
import proofs.«169346_g86071144612153_cont_sun_m_685_13_alg».proof.Proof.Gen.Pre_finite_inputs
import Idealize.ShloMosaic.Adequacy
import Idealize.ShloMosaic.Init
import proofs.«169346_g86071144612153_cont_sun_m_685_13_alg».proof.Proof.Claims

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
